-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S4096x3 : Shape := ⟨2, ![4096, 3]⟩
abbrev S1474560 : Shape := ⟨1, ![1474560]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S1474560 : S_.BroadcastsInDim S1474560 (![] : Fin 0 → Fin S1474560.rank)
  reducesTo_S1474560_S_d0 : S1474560.ReducesTo [0] S_

variable [Facts]

def fn {F : FTy → Type} [FloatOps F] (main_arg0 : FVec F S4096x8 .f32) (main_arg1 : FVec F S4096x3 .f32) (main_arg2 : IVec S1474560 32) (main_arg3 : FVec F S1474560 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S1474560 .f32 := Host.absf main_arg3
  let main_cst_2 : FVec F S_ .f32 := constant S_ .f32 0x7F800000#32
  let main_v10 : FVec F S1474560 .f32 := broadcastInDim S1474560 ![] bcast_S_S1474560 main_cst_2
  let main_v11 : IVec S1474560 1 := cmpf .olt main_v9 main_v10
  let main_c_3 : IVec S_ 1 := constantI S_ 1 1#1
  let main_v12 : IVec S_ 1 := (fun x v => Host.reduce IntOp.andi x v reducesTo_S1474560_S_d0 h_S_) main_v11 main_c_3
  let main_v13 : IVec S_ 1 := andi main_v8 main_v12
  main_v13
-- ==== Kernel.lean ====
abbrev S4096x8 : Shape := ⟨2, ![4096, 8]⟩
abbrev S4096x3 : Shape := ⟨2, ![4096, 3]⟩
abbrev S1474560 : Shape := ⟨1, ![1474560]⟩
abbrev S8 : Shape := ⟨1, ![8]⟩
abbrev S1x8 : Shape := ⟨2, ![1, 8]⟩
abbrev S_ : Shape := ⟨0, ![]⟩
abbrev S1474560x1 : Shape := ⟨2, ![1474560, 1]⟩
abbrev S1474560x8 : Shape := ⟨2, ![1474560, 8]⟩
abbrev S1474560x3 : Shape := ⟨2, ![1474560, 3]⟩
abbrev S8x1474560 : Shape := ⟨2, ![8, 1474560]⟩
abbrev S3x1474560 : Shape := ⟨2, ![3, 1474560]⟩
abbrev S8x11520x128 : Shape := ⟨3, ![8, 11520, 128]⟩
abbrev S3x11520x128 : Shape := ⟨3, ![3, 11520, 128]⟩
abbrev S11520x128 : Shape := ⟨2, ![11520, 128]⟩
abbrev S5x11520x128 : Shape := ⟨3, ![5, 11520, 128]⟩
abbrev S8x360x128 : Shape := ⟨3, ![8, 360, 128]⟩
abbrev S3x360x128 : Shape := ⟨3, ![3, 360, 128]⟩
abbrev S360x128 : Shape := ⟨2, ![360, 128]⟩
abbrev S5x360x128 : Shape := ⟨3, ![5, 360, 128]⟩
abbrev S1x360x128 : Shape := ⟨3, ![1, 360, 128]⟩
abbrev S5x1474560 : Shape := ⟨2, ![5, 1474560]⟩
abbrev S1474560x5 : Shape := ⟨2, ![1474560, 5]⟩

abbrev nBuf : Space → Nat
  | .hbm => 34
  | .vmem => 8
  | .smem => 0
  | _ => 0

abbrev bufTy : (tb : Table) → Fin (tcTables nBuf tb) → BufTy
  | .hbm, ⟨0, _⟩ => ⟨S4096x8, .f32⟩
  | .hbm, ⟨1, _⟩ => ⟨S4096x3, .f32⟩
  | .hbm, ⟨2, _⟩ => ⟨S1474560, .i32⟩
  | .hbm, ⟨3, _⟩ => ⟨S1474560, .f32⟩
  | .hbm, ⟨4, _⟩ => ⟨S8, .f32⟩
  | .hbm, ⟨5, _⟩ => ⟨S1x8, .f32⟩
  | .hbm, ⟨6, _⟩ => ⟨S4096x8, .f32⟩
  | .hbm, ⟨7, _⟩ => ⟨S4096x8, .f32⟩
  | .hbm, ⟨8, _⟩ => ⟨S_, .i32⟩
  | .hbm, ⟨9, _⟩ => ⟨S1474560, .i32⟩
  | .hbm, ⟨10, _⟩ => ⟨S1474560, .i1⟩
  | .hbm, ⟨11, _⟩ => ⟨S_, .i32⟩
  | .hbm, ⟨12, _⟩ => ⟨S1474560, .i32⟩
  | .hbm, ⟨13, _⟩ => ⟨S1474560, .i32⟩
  | .hbm, ⟨14, _⟩ => ⟨S1474560, .i32⟩
  | .hbm, ⟨15, _⟩ => ⟨S1474560x1, .i32⟩
  | .hbm, ⟨16, _⟩ => ⟨S1474560x8, .f32⟩
  | .hbm, ⟨17, _⟩ => ⟨S_, .i32⟩
  | .hbm, ⟨18, _⟩ => ⟨S1474560, .i32⟩
  | .hbm, ⟨19, _⟩ => ⟨S1474560, .i1⟩
  | .hbm, ⟨20, _⟩ => ⟨S_, .i32⟩
  | .hbm, ⟨21, _⟩ => ⟨S1474560, .i32⟩
  | .hbm, ⟨22, _⟩ => ⟨S1474560, .i32⟩
  | .hbm, ⟨23, _⟩ => ⟨S1474560, .i32⟩
  | .hbm, ⟨24, _⟩ => ⟨S1474560x1, .i32⟩
  | .hbm, ⟨25, _⟩ => ⟨S1474560x3, .f32⟩
  | .hbm, ⟨26, _⟩ => ⟨S8x1474560, .f32⟩
  | .hbm, ⟨27, _⟩ => ⟨S3x1474560, .f32⟩
  | .hbm, ⟨28, _⟩ => ⟨S8x11520x128, .f32⟩
  | .hbm, ⟨29, _⟩ => ⟨S3x11520x128, .f32⟩
  | .hbm, ⟨30, _⟩ => ⟨S11520x128, .f32⟩
  | .hbm, ⟨31, _⟩ => ⟨S5x11520x128, .f32⟩
  | .hbm, ⟨32, _⟩ => ⟨S5x1474560, .f32⟩
  | .hbm, ⟨33, _⟩ => ⟨S1474560x5, .f32⟩
  | .local _ .vmem, ⟨0, _⟩ => ⟨S8x360x128, .f32⟩
  | .local _ .vmem, ⟨1, _⟩ => ⟨S8x360x128, .f32⟩
  | .local _ .vmem, ⟨2, _⟩ => ⟨S3x360x128, .f32⟩
  | .local _ .vmem, ⟨3, _⟩ => ⟨S3x360x128, .f32⟩
  | .local _ .vmem, ⟨4, _⟩ => ⟨S360x128, .f32⟩
  | .local _ .vmem, ⟨5, _⟩ => ⟨S360x128, .f32⟩
  | .local _ .vmem, ⟨6, _⟩ => ⟨S5x360x128, .f32⟩
  | .local _ .vmem, ⟨7, _⟩ => ⟨S5x360x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x360x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x360x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S360x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x360x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S1474560 : S_.BroadcastsInDim S1474560 (![] : Fin 0 → Fin S1474560.rank)
  bcast_S1474560_S1474560x1_0 : S1474560.BroadcastsInDim S1474560x1 (![0] : Fin 1 → Fin S1474560x1.rank)
  transposes_S1474560x8_S8x1474560_1_0 : S1474560x8.Transposes [1, 0] S8x1474560
  transposes_S1474560x3_S3x1474560_1_0 : S1474560x3.Transposes [1, 0] S3x1474560
  shapeCasts_S8x1474560_S8x11520x128 : S8x1474560.ShapeCasts S8x11520x128
  shapeCasts_S3x1474560_S3x11520x128 : S3x1474560.ShapeCasts S3x11520x128
  shapeCasts_S1474560_S11520x128 : S1474560.ShapeCasts S11520x128
  inb_S8x360x128_S1x360x128_0_0_0 : ∀ a, (![0, 0, 0] : Fin 3 → Nat) a + S1x360x128.size a ≤ S8x360x128.size a
  h_S1x360x128 : 0 < S1x360x128.numel
  shapeCasts_S1x360x128_S360x128 : S1x360x128.ShapeCasts S360x128
  inb_S8x360x128_S1x360x128_1_0_0 : ∀ a, (![1, 0, 0] : Fin 3 → Nat) a + S1x360x128.size a ≤ S8x360x128.size a
  inb_S8x360x128_S1x360x128_2_0_0 : ∀ a, (![2, 0, 0] : Fin 3 → Nat) a + S1x360x128.size a ≤ S8x360x128.size a
  inb_S8x360x128_S1x360x128_3_0_0 : ∀ a, (![3, 0, 0] : Fin 3 → Nat) a + S1x360x128.size a ≤ S8x360x128.size a
  inb_S8x360x128_S1x360x128_4_0_0 : ∀ a, (![4, 0, 0] : Fin 3 → Nat) a + S1x360x128.size a ≤ S8x360x128.size a
  inb_S8x360x128_S1x360x128_5_0_0 : ∀ a, (![5, 0, 0] : Fin 3 → Nat) a + S1x360x128.size a ≤ S8x360x128.size a
  inb_S8x360x128_S1x360x128_6_0_0 : ∀ a, (![6, 0, 0] : Fin 3 → Nat) a + S1x360x128.size a ≤ S8x360x128.size a
  inb_S8x360x128_S1x360x128_7_0_0 : ∀ a, (![7, 0, 0] : Fin 3 → Nat) a + S1x360x128.size a ≤ S8x360x128.size a
  inb_S3x360x128_S1x360x128_0_0_0 : ∀ a, (![0, 0, 0] : Fin 3 → Nat) a + S1x360x128.size a ≤ S3x360x128.size a
  inb_S3x360x128_S1x360x128_1_0_0 : ∀ a, (![1, 0, 0] : Fin 3 → Nat) a + S1x360x128.size a ≤ S3x360x128.size a
  inb_S3x360x128_S1x360x128_2_0_0 : ∀ a, (![2, 0, 0] : Fin 3 → Nat) a + S1x360x128.size a ≤ S3x360x128.size a
  inb_S360x128_S360x128_0_0 : ∀ a, (![0, 0] : Fin 2 → Nat) a + S360x128.size a ≤ S360x128.size a
  h_S360x128 : 0 < S360x128.numel
  shapeCasts_S360x128_S360x128 : S360x128.ShapeCasts S360x128
  inb_S5x360x128_S1x360x128_0_0_0 : ∀ a, (![0, 0, 0] : Fin 3 → Nat) a + S1x360x128.size a ≤ S5x360x128.size a
  shapeCasts_S360x128_S1x360x128 : S360x128.ShapeCasts S1x360x128
  inb_S5x360x128_S1x360x128_1_0_0 : ∀ a, (![1, 0, 0] : Fin 3 → Nat) a + S1x360x128.size a ≤ S5x360x128.size a
  inb_S5x360x128_S1x360x128_2_0_0 : ∀ a, (![2, 0, 0] : Fin 3 → Nat) a + S1x360x128.size a ≤ S5x360x128.size a
  inb_S5x360x128_S1x360x128_3_0_0 : ∀ a, (![3, 0, 0] : Fin 3 → Nat) a + S1x360x128.size a ≤ S5x360x128.size a
  inb_S5x360x128_S1x360x128_4_0_0 : ∀ a, (![4, 0, 0] : Fin 3 → Nat) a + S1x360x128.size a ≤ S5x360x128.size a
  shapeCasts_S5x11520x128_S5x1474560 : S5x11520x128.ShapeCasts S5x1474560
  transposes_S5x1474560_S1474560x5_1_0 : S5x1474560.Transposes [1, 0] S1474560x5
  gather_S4096x8_S1474560x1_S1474560x8_1_0_n_n_0_1_18_wf : GatherDims.WF S4096x8 S1474560x1 S1474560x8 [1] [0] [] [0] [] 1 ![1, 8]
  gather_S4096x3_S1474560x1_S1474560x3_1_0_n_n_0_1_13_wf : GatherDims.WF S4096x3 S1474560x1 S1474560x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x360x128.size a ≤ S8x11520x128.size a
  hwx0_0 : ∀ i : grid0.Coords, EltTy.bits .f32 = 32 ∨ (Rect.block (s := S8x11520x128) S8x360x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x360x128.size a ≤ S3x11520x128.size a
  hwx0_1 : ∀ i : grid0.Coords, EltTy.bits .f32 = 32 ∨ (Rect.block (s := S3x11520x128) S3x360x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S360x128.size a ≤ S11520x128.size a
  hwx0_2 : ∀ i : grid0.Coords, EltTy.bits .f32 = 32 ∨ (Rect.block (s := S11520x128) S360x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x360x128.size a ≤ S5x11520x128.size a
  hwx0_3 : ∀ i : grid0.Coords, EltTy.bits .f32 = 32 ∨ (Rect.block (s := S5x11520x128) S5x360x128.size (cc0_transform_3 i) (hinb0_3 i)).WholeWords (EltTy.packing .f32)

variable [Facts₀]

def gather_S4096x8_S1474560x1_S1474560x8_1_0_n_n_0_1_18 : GatherDims S4096x8 S1474560x1 S1474560x8 where
  offsetDims := [1]
  collapsedSliceDims := [0]
  operandBatchingDims := []
  startIndicesBatchingDims := []
  startIndexMap := [0]
  indexVectorDim := 1
  sliceSizes := ![1, 8]
  wf := gather_S4096x8_S1474560x1_S1474560x8_1_0_n_n_0_1_18_wf
def gather_S4096x3_S1474560x1_S1474560x3_1_0_n_n_0_1_13 : GatherDims S4096x3 S1474560x1 S1474560x3 where
  offsetDims := [1]
  collapsedSliceDims := [0]
  operandBatchingDims := []
  startIndicesBatchingDims := []
  startIndexMap := [0]
  indexVectorDim := 1
  sliceSizes := ![1, 3]
  wf := gather_S4096x3_S1474560x1_S1474560x3_1_0_n_n_0_1_13_wf

abbrev win0_0 : Pipeline.Window sig grid0 :=
  Pipeline.Window.ofSpec (Memref.whole main_v19) S8x360x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S3x360x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S360x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5x360x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8 : Shape := ⟨2, ![4096, 8]⟩
abbrev S4096x3 : Shape := ⟨2, ![4096, 3]⟩
abbrev S1474560 : Shape := ⟨1, ![1474560]⟩
abbrev S8 : Shape := ⟨1, ![8]⟩
abbrev S1x8 : Shape := ⟨2, ![1, 8]⟩
abbrev S_ : Shape := ⟨0, ![]⟩
abbrev S1474560x1 : Shape := ⟨2, ![1474560, 1]⟩
abbrev S1474560x8 : Shape := ⟨2, ![1474560, 8]⟩
abbrev S1474560x3 : Shape := ⟨2, ![1474560, 3]⟩
abbrev S1474560x5 : Shape := ⟨2, ![1474560, 5]⟩

abbrev nBuf : Space → Nat
  | .hbm => 356
  | .vmem => 0
  | .smem => 0
  | _ => 0

abbrev hbmTy0_0 (i : Nat) : BufTy := match i % 128 with
  | 0 => ⟨S4096x8, .f32⟩
  | 1 => ⟨S4096x3, .f32⟩
  | 2 => ⟨S1474560, .i32⟩
  | 3 => ⟨S1474560, .f32⟩
  | 4 => ⟨S8, .f32⟩
  | 5 => ⟨S1x8, .f32⟩
  | 6 => ⟨S4096x8, .f32⟩
  | 7 => ⟨S4096x8, .f32⟩
  | 8 => ⟨S_, .i32⟩
  | 9 => ⟨S1474560, .i32⟩
  | 10 => ⟨S1474560, .i1⟩
  | 11 => ⟨S_, .i32⟩
  | 12 => ⟨S1474560, .i32⟩
  | 13 => ⟨S1474560, .i32⟩
  | 14 => ⟨S1474560, .i32⟩
  | 15 => ⟨S1474560x1, .i32⟩
  | 16 => ⟨S1474560x8, .f32⟩
  | 17 => ⟨S_, .i32⟩
  | 18 => ⟨S1474560, .i32⟩
  | 19 => ⟨S1474560, .i1⟩
  | 20 => ⟨S_, .i32⟩
  | 21 => ⟨S1474560, .i32⟩
  | 22 => ⟨S1474560, .i32⟩
  | 23 => ⟨S1474560, .i32⟩
  | 24 => ⟨S1474560x1, .i32⟩
  | 25 => ⟨S1474560x3, .f32⟩
  | 26 => ⟨S1474560x1, .f32⟩
  | 27 => ⟨S1474560, .f32⟩
  | 28 => ⟨S1474560x1, .f32⟩
  | 29 => ⟨S1474560, .f32⟩
  | 30 => ⟨S1474560x1, .f32⟩
  | 31 => ⟨S1474560, .f32⟩
  | 32 => ⟨S1474560x1, .f32⟩
  | 33 => ⟨S1474560, .f32⟩
  | 34 => ⟨S1474560x1, .f32⟩
  | 35 => ⟨S1474560, .f32⟩
  | 36 => ⟨S1474560x1, .f32⟩
  | 37 => ⟨S1474560, .f32⟩
  | 38 => ⟨S1474560x1, .f32⟩
  | 39 => ⟨S1474560, .f32⟩
  | 40 => ⟨S1474560x1, .f32⟩
  | 41 => ⟨S1474560, .f32⟩
  | 42 => ⟨S1474560x1, .f32⟩
  | 43 => ⟨S1474560, .f32⟩
  | 44 => ⟨S1474560x1, .f32⟩
  | 45 => ⟨S1474560, .f32⟩
  | 46 => ⟨S1474560x1, .f32⟩
  | 47 => ⟨S1474560, .f32⟩
  | 48 => ⟨S_, .f32⟩
  | 49 => ⟨S1474560, .f32⟩
  | 50 => ⟨S1474560, .f32⟩
  | 51 => ⟨S1474560, .f32⟩
  | 52 => ⟨S_, .f32⟩
  | 53 => ⟨S1474560, .f32⟩
  | 54 => ⟨S1474560, .f32⟩
  | 55 => ⟨S1474560, .f32⟩
  | 56 => ⟨S_, .f32⟩
  | 57 => ⟨S1474560, .f32⟩
  | 58 => ⟨S1474560, .f32⟩
  | 59 => ⟨S1474560, .f32⟩
  | 60 => ⟨S_, .f32⟩
  | 61 => ⟨S1474560, .f32⟩
  | 62 => ⟨S1474560, .f32⟩
  | 63 => ⟨S1474560, .f32⟩
  | 64 => ⟨S_, .f32⟩
  | 65 => ⟨S1474560, .f32⟩
  | 66 => ⟨S1474560, .f32⟩
  | 67 => ⟨S1474560, .f32⟩
  | 68 => ⟨S_, .f32⟩
  | 69 => ⟨S1474560, .f32⟩
  | 70 => ⟨S1474560, .f32⟩
  | 71 => ⟨S1474560, .f32⟩
  | 72 => ⟨S1474560, .f32⟩
  | 73 => ⟨S1474560, .f32⟩
  | 74 => ⟨S1474560, .f32⟩
  | 75 => ⟨S1474560, .f32⟩
  | 76 => ⟨S_, .f32⟩
  | 77 => ⟨S1474560, .f32⟩
  | 78 => ⟨S1474560, .f32⟩
  | 79 => ⟨S_, .f32⟩
  | 80 => ⟨S1474560, .f32⟩
  | 81 => ⟨S1474560, .f32⟩
  | 82 => ⟨S_, .f32⟩
  | 83 => ⟨S1474560, .f32⟩
  | 84 => ⟨S1474560, .f32⟩
  | 85 => ⟨S1474560, .f32⟩
  | 86 => ⟨S_, .f32⟩
  | 87 => ⟨S1474560, .f32⟩
  | 88 => ⟨S1474560, .f32⟩
  | 89 => ⟨S_, .f32⟩
  | 90 => ⟨S1474560, .f32⟩
  | 91 => ⟨S1474560, .f32⟩
  | 92 => ⟨S_, .f32⟩
  | 93 => ⟨S1474560, .f32⟩
  | 94 => ⟨S1474560, .f32⟩
  | 95 => ⟨S1474560, .f32⟩
  | 96 => ⟨S_, .f32⟩
  | 97 => ⟨S1474560, .f32⟩
  | 98 => ⟨S1474560, .f32⟩
  | 99 => ⟨S1474560, .f32⟩
  | 100 => ⟨S_, .f32⟩
  | 101 => ⟨S1474560, .f32⟩
  | 102 => ⟨S1474560, .f32⟩
  | 103 => ⟨S_, .f32⟩
  | 104 => ⟨S1474560, .f32⟩
  | 105 => ⟨S1474560, .f32⟩
  | 106 => ⟨S1474560, .f32⟩
  | 107 => ⟨S1474560, .f32⟩
  | 108 => ⟨S1474560, .f32⟩
  | 109 => ⟨S_, .f32⟩
  | 110 => ⟨S1474560, .f32⟩
  | 111 => ⟨S1474560, .f32⟩
  | 112 => ⟨S1474560, .f32⟩
  | 113 => ⟨S_, .f32⟩
  | 114 => ⟨S1474560, .f32⟩
  | 115 => ⟨S1474560, .f32⟩
  | 116 => ⟨S_, .f32⟩
  | 117 => ⟨S1474560, .f32⟩
  | 118 => ⟨S1474560, .f32⟩
  | 119 => ⟨S1474560, .f32⟩
  | 120 => ⟨S1474560, .f32⟩
  | 121 => ⟨S1474560, .f32⟩
  | 122 => ⟨S1474560, .f32⟩
  | 123 => ⟨S_, .f32⟩
  | 124 => ⟨S1474560, .f32⟩
  | 125 => ⟨S1474560, .f32⟩
  | 126 => ⟨S1474560, .f32⟩
  | 127 => ⟨S1474560, .f32⟩
  | _ => ⟨S4096x8, .f32⟩

abbrev hbmTy0_1 (i : Nat) : BufTy := match i % 128 with
  | 0 => ⟨S1474560, .f32⟩
  | 1 => ⟨S_, .f32⟩
  | 2 => ⟨S1474560, .f32⟩
  | 3 => ⟨S1474560, .f32⟩
  | 4 => ⟨S1474560, .f32⟩
  | 5 => ⟨S_, .f32⟩
  | 6 => ⟨S1474560, .f32⟩
  | 7 => ⟨S1474560, .f32⟩
  | 8 => ⟨S1474560, .f32⟩
  | 9 => ⟨S_, .f32⟩
  | 10 => ⟨S1474560, .f32⟩
  | 11 => ⟨S1474560, .f32⟩
  | 12 => ⟨S1474560, .f32⟩
  | 13 => ⟨S_, .f32⟩
  | 14 => ⟨S1474560, .f32⟩
  | 15 => ⟨S1474560, .f32⟩
  | 16 => ⟨S1474560, .f32⟩
  | 17 => ⟨S1474560, .f32⟩
  | 18 => ⟨S_, .f32⟩
  | 19 => ⟨S1474560, .f32⟩
  | 20 => ⟨S1474560, .f32⟩
  | 21 => ⟨S_, .f32⟩
  | 22 => ⟨S1474560, .f32⟩
  | 23 => ⟨S1474560, .f32⟩
  | 24 => ⟨S1474560, .f32⟩
  | 25 => ⟨S1474560, .f32⟩
  | 26 => ⟨S1474560, .f32⟩
  | 27 => ⟨S1474560, .f32⟩
  | 28 => ⟨S1474560, .f32⟩
  | 29 => ⟨S1474560, .f32⟩
  | 30 => ⟨S1474560, .f32⟩
  | 31 => ⟨S1474560, .f32⟩
  | 32 => ⟨S1474560, .f32⟩
  | 33 => ⟨S1474560, .f32⟩
  | 34 => ⟨S1474560, .f32⟩
  | 35 => ⟨S1474560, .f32⟩
  | 36 => ⟨S1474560, .f32⟩
  | 37 => ⟨S1474560, .f32⟩
  | 38 => ⟨S1474560, .f32⟩
  | 39 => ⟨S1474560, .f32⟩
  | 40 => ⟨S1474560, .f32⟩
  | 41 => ⟨S1474560, .f32⟩
  | 42 => ⟨S1474560, .f32⟩
  | 43 => ⟨S1474560, .f32⟩
  | 44 => ⟨S1474560, .f32⟩
  | 45 => ⟨S1474560, .f32⟩
  | 46 => ⟨S1474560, .f32⟩
  | 47 => ⟨S1474560, .f32⟩
  | 48 => ⟨S1474560, .f32⟩
  | 49 => ⟨S1474560, .f32⟩
  | 50 => ⟨S1474560, .f32⟩
  | 51 => ⟨S1474560, .f32⟩
  | 52 => ⟨S1474560, .f32⟩
  | 53 => ⟨S1474560, .f32⟩
  | 54 => ⟨S1474560, .f32⟩
  | 55 => ⟨S1474560, .f32⟩
  | 56 => ⟨S1474560, .f32⟩
  | 57 => ⟨S1474560, .f32⟩
  | 58 => ⟨S1474560, .f32⟩
  | 59 => ⟨S_, .f32⟩
  | 60 => ⟨S1474560, .f32⟩
  | 61 => ⟨S1474560, .f32⟩
  | 62 => ⟨S_, .f32⟩
  | 63 => ⟨S1474560, .f32⟩
  | 64 => ⟨S1474560, .f32⟩
  | 65 => ⟨S_, .f32⟩
  | 66 => ⟨S1474560, .f32⟩
  | 67 => ⟨S1474560, .f32⟩
  | 68 => ⟨S1474560, .f32⟩
  | 69 => ⟨S1474560, .f32⟩
  | 70 => ⟨S1474560, .f32⟩
  | 71 => ⟨S1474560, .f32⟩
  | 72 => ⟨S1474560, .f32⟩
  | 73 => ⟨S1474560, .f32⟩
  | 74 => ⟨S1474560, .f32⟩
  | 75 => ⟨S1474560, .f32⟩
  | 76 => ⟨S1474560, .f32⟩
  | 77 => ⟨S1474560, .f32⟩
  | 78 => ⟨S1474560, .f32⟩
  | 79 => ⟨S1474560, .f32⟩
  | 80 => ⟨S1474560, .f32⟩
  | 81 => ⟨S1474560, .f32⟩
  | 82 => ⟨S1474560, .f32⟩
  | 83 => ⟨S1474560, .f32⟩
  | 84 => ⟨S1474560, .f32⟩
  | 85 => ⟨S1474560, .f32⟩
  | 86 => ⟨S1474560, .f32⟩
  | 87 => ⟨S1474560, .f32⟩
  | 88 => ⟨S1474560, .f32⟩
  | 89 => ⟨S1474560, .f32⟩
  | 90 => ⟨S1474560, .f32⟩
  | 91 => ⟨S1474560, .f32⟩
  | 92 => ⟨S1474560, .f32⟩
  | 93 => ⟨S_, .f32⟩
  | 94 => ⟨S1474560, .f32⟩
  | 95 => ⟨S1474560, .f32⟩
  | 96 => ⟨S1474560, .f32⟩
  | 97 => ⟨S1474560, .f32⟩
  | 98 => ⟨S1474560, .f32⟩
  | 99 => ⟨S_, .f32⟩
  | 100 => ⟨S1474560, .f32⟩
  | 101 => ⟨S1474560, .f32⟩
  | 102 => ⟨S1474560, .f32⟩
  | 103 => ⟨S_, .f32⟩
  | 104 => ⟨S1474560, .f32⟩
  | 105 => ⟨S1474560, .f32⟩
  | 106 => ⟨S_, .f32⟩
  | 107 => ⟨S1474560, .f32⟩
  | 108 => ⟨S1474560, .f32⟩
  | 109 => ⟨S_, .f32⟩
  | 110 => ⟨S1474560, .f32⟩
  | 111 => ⟨S1474560, .f32⟩
  | 112 => ⟨S1474560, .f32⟩
  | 113 => ⟨S1474560, .f32⟩
  | 114 => ⟨S_, .f32⟩
  | 115 => ⟨S1474560, .f32⟩
  | 116 => ⟨S1474560, .f32⟩
  | 117 => ⟨S1474560, .f32⟩
  | 118 => ⟨S1474560, .f32⟩
  | 119 => ⟨S1474560, .f32⟩
  | 120 => ⟨S1474560, .f32⟩
  | 121 => ⟨S1474560, .f32⟩
  | 122 => ⟨S_, .f32⟩
  | 123 => ⟨S1474560, .f32⟩
  | 124 => ⟨S1474560, .f32⟩
  | 125 => ⟨S1474560, .f32⟩
  | 126 => ⟨S1474560, .f32⟩
  | 127 => ⟨S1474560, .f32⟩
  | _ => ⟨S4096x8, .f32⟩

abbrev hbmTy0_2 (i : Nat) : BufTy := match i % 128 with
  | 0 => ⟨S1474560, .f32⟩
  | 1 => ⟨S1474560, .f32⟩
  | 2 => ⟨S1474560, .f32⟩
  | 3 => ⟨S1474560, .f32⟩
  | 4 => ⟨S1474560, .f32⟩
  | 5 => ⟨S1474560, .f32⟩
  | 6 => ⟨S1474560, .f32⟩
  | 7 => ⟨S1474560, .f32⟩
  | 8 => ⟨S_, .f32⟩
  | 9 => ⟨S1474560, .f32⟩
  | 10 => ⟨S1474560, .f32⟩
  | 11 => ⟨S1474560, .f32⟩
  | 12 => ⟨S1474560, .f32⟩
  | 13 => ⟨S1474560, .f32⟩
  | 14 => ⟨S1474560, .f32⟩
  | 15 => ⟨S1474560, .f32⟩
  | 16 => ⟨S_, .f32⟩
  | 17 => ⟨S1474560, .f32⟩
  | 18 => ⟨S1474560, .f32⟩
  | 19 => ⟨S1474560, .f32⟩
  | 20 => ⟨S_, .f32⟩
  | 21 => ⟨S1474560, .f32⟩
  | 22 => ⟨S1474560, .f32⟩
  | 23 => ⟨S1474560, .f32⟩
  | 24 => ⟨S1474560, .f32⟩
  | 25 => ⟨S1474560, .f32⟩
  | 26 => ⟨S1474560, .f32⟩
  | 27 => ⟨S1474560, .f32⟩
  | 28 => ⟨S1474560, .f32⟩
  | 29 => ⟨S_, .f32⟩
  | 30 => ⟨S1474560, .f32⟩
  | 31 => ⟨S1474560, .i1⟩
  | 32 => ⟨S_, .f32⟩
  | 33 => ⟨S_, .f32⟩
  | 34 => ⟨S1474560, .f32⟩
  | 35 => ⟨S1474560, .f32⟩
  | 36 => ⟨S_, .f32⟩
  | 37 => ⟨S1474560, .f32⟩
  | 38 => ⟨S1474560, .f32⟩
  | 39 => ⟨S1474560, .f32⟩
  | 40 => ⟨S1474560, .f32⟩
  | 41 => ⟨S_, .f32⟩
  | 42 => ⟨S1474560, .f32⟩
  | 43 => ⟨S1474560, .f32⟩
  | 44 => ⟨S1474560, .f32⟩
  | 45 => ⟨S1474560, .f32⟩
  | 46 => ⟨S1474560, .f32⟩
  | 47 => ⟨S1474560, .f32⟩
  | 48 => ⟨S_, .f32⟩
  | 49 => ⟨S1474560, .f32⟩
  | 50 => ⟨S1474560, .f32⟩
  | 51 => ⟨S1474560, .f32⟩
  | 52 => ⟨S1474560, .f32⟩
  | 53 => ⟨S1474560, .f32⟩
  | 54 => ⟨S1474560, .f32⟩
  | 55 => ⟨S1474560, .f32⟩
  | 56 => ⟨S_, .f32⟩
  | 57 => ⟨S1474560, .f32⟩
  | 58 => ⟨S1474560, .f32⟩
  | 59 => ⟨S1474560, .f32⟩
  | 60 => ⟨S1474560, .f32⟩
  | 61 => ⟨S_, .f32⟩
  | 62 => ⟨S1474560, .f32⟩
  | 63 => ⟨S1474560, .f32⟩
  | 64 => ⟨S1474560, .f32⟩
  | 65 => ⟨S1474560, .f32⟩
  | 66 => ⟨S1474560, .f32⟩
  | 67 => ⟨S1474560, .f32⟩
  | 68 => ⟨S_, .f32⟩
  | 69 => ⟨S1474560, .f32⟩
  | 70 => ⟨S1474560, .f32⟩
  | 71 => ⟨S1474560, .f32⟩
  | 72 => ⟨S1474560, .f32⟩
  | 73 => ⟨S_, .f32⟩
  | 74 => ⟨S1474560, .f32⟩
  | 75 => ⟨S1474560, .f32⟩
  | 76 => ⟨S1474560, .f32⟩
  | 77 => ⟨S1474560, .f32⟩
  | 78 => ⟨S1474560, .f32⟩
  | 79 => ⟨S_, .f32⟩
  | 80 => ⟨S1474560, .f32⟩
  | 81 => ⟨S1474560, .f32⟩
  | 82 => ⟨S1474560, .f32⟩
  | 83 => ⟨S1474560, .f32⟩
  | 84 => ⟨S1474560, .f32⟩
  | 85 => ⟨S1474560, .f32⟩
  | 86 => ⟨S1474560, .f32⟩
  | 87 => ⟨S1474560, .f32⟩
  | 88 => ⟨S1474560, .f32⟩
  | 89 => ⟨S1474560, .f32⟩
  | 90 => ⟨S1474560, .f32⟩
  | 91 => ⟨S1474560, .f32⟩
  | 92 => ⟨S1474560, .f32⟩
  | 93 => ⟨S1474560, .f32⟩
  | 94 => ⟨S1474560x1, .f32⟩
  | 95 => ⟨S1474560x1, .f32⟩
  | 96 => ⟨S1474560x1, .f32⟩
  | 97 => ⟨S1474560x1, .f32⟩
  | 98 => ⟨S1474560x1, .f32⟩
  | 99 => ⟨S1474560x5, .f32⟩
  | _ => ⟨S4096x8, .f32⟩

abbrev hbmTy (i : Nat) : BufTy := match i / 128 with
  | 0 => hbmTy0_0 i
  | 1 => hbmTy0_1 i
  | 2 => hbmTy0_2 i
  | _ => ⟨S4096x8, .f32⟩

abbrev bufTy : (tb : Table) → Fin (tcTables nBuf tb) → BufTy
  | .hbm, ⟨i, _⟩ => hbmTy i
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_19 : Ref sig .tc := ⟨.hbm, 113, rfl⟩
abbrev main_v88 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_22 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_23 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_24 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_26 : Ref sig .tc := ⟨.hbm, 146, rfl⟩
abbrev main_v114 : Ref sig .tc := ⟨.hbm, 147, rfl⟩
abbrev main_v115 : Ref sig .tc := ⟨.hbm, 148, rfl⟩
abbrev main_cst_27 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_28 : Ref sig .tc := ⟨.hbm, 187, rfl⟩
abbrev main_v153 : Ref sig .tc := ⟨.hbm, 188, rfl⟩
abbrev main_v154 : Ref sig .tc := ⟨.hbm, 189, rfl⟩
abbrev main_cst_29 : Ref sig .tc := ⟨.hbm, 190, rfl⟩
abbrev main_v155 : Ref sig .tc := ⟨.hbm, 191, rfl⟩
abbrev main_v156 : Ref sig .tc := ⟨.hbm, 192, rfl⟩
abbrev main_cst_30 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_31 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_32 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_cst_33 : Ref sig .tc := ⟨.hbm, 231, rfl⟩
abbrev main_v192 : Ref sig .tc := ⟨.hbm, 232, rfl⟩
abbrev main_v193 : Ref sig .tc := ⟨.hbm, 233, rfl⟩
abbrev main_cst_34 : Ref sig .tc := ⟨.hbm, 234, rfl⟩
abbrev main_v194 : Ref sig .tc := ⟨.hbm, 235, rfl⟩
abbrev main_v195 : Ref sig .tc := ⟨.hbm, 236, rfl⟩
abbrev main_cst_35 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_cst_36 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_cst_37 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_cst_38 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_cst_39 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_cst_40 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_cst_41 : Ref sig .tc := ⟨.hbm, 285, rfl⟩
abbrev main_v238 : Ref sig .tc := ⟨.hbm, 286, rfl⟩
abbrev main_v239 : Ref sig .tc := ⟨.hbm, 287, rfl⟩
abbrev main_cst_42 : Ref sig .tc := ⟨.hbm, 288, rfl⟩
abbrev main_call0_v0 : Ref sig .tc := ⟨.hbm, 289, rfl⟩
abbrev main_call0_v1 : Ref sig .tc := ⟨.hbm, 290, rfl⟩
abbrev main_v240 : Ref sig .tc := ⟨.hbm, 291, rfl⟩
abbrev main_cst_43 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_44 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_cst_45 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_cst_46 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_cst_47 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_cst_48 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_cst_49 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_cst_50 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S1474560 : S_.BroadcastsInDim S1474560 (![] : Fin 0 → Fin S1474560.rank)
  bcast_S1474560_S1474560x1_0 : S1474560.BroadcastsInDim S1474560x1 (![0] : Fin 1 → Fin S1474560x1.rank)
  slices_S1474560x3_S1474560x1_0_0 : S1474560x3.Slices ![0, 0] S1474560x1
  shapeCasts_S1474560x1_S1474560 : S1474560x1.ShapeCasts S1474560
  slices_S1474560x3_S1474560x1_0_1 : S1474560x3.Slices ![0, 1] S1474560x1
  slices_S1474560x3_S1474560x1_0_2 : S1474560x3.Slices ![0, 2] S1474560x1
  slices_S1474560x8_S1474560x1_0_0 : S1474560x8.Slices ![0, 0] S1474560x1
  slices_S1474560x8_S1474560x1_0_1 : S1474560x8.Slices ![0, 1] S1474560x1
  slices_S1474560x8_S1474560x1_0_2 : S1474560x8.Slices ![0, 2] S1474560x1
  slices_S1474560x8_S1474560x1_0_3 : S1474560x8.Slices ![0, 3] S1474560x1
  slices_S1474560x8_S1474560x1_0_4 : S1474560x8.Slices ![0, 4] S1474560x1
  slices_S1474560x8_S1474560x1_0_5 : S1474560x8.Slices ![0, 5] S1474560x1
  slices_S1474560x8_S1474560x1_0_6 : S1474560x8.Slices ![0, 6] S1474560x1
  slices_S1474560x8_S1474560x1_0_7 : S1474560x8.Slices ![0, 7] S1474560x1
  concatenates_S1474560x1_S1474560x1_S1474560x1_S1474560x1_S1474560x1_S1474560x5_d1 : Shape.Concatenates [S1474560x1, S1474560x1, S1474560x1, S1474560x1, S1474560x1] S1474560x5 1
  gather_S4096x8_S1474560x1_S1474560x8_1_0_n_n_0_1_18_wf : GatherDims.WF S4096x8 S1474560x1 S1474560x8 [1] [0] [] [0] [] 1 ![1, 8]
  gather_S4096x3_S1474560x1_S1474560x3_1_0_n_n_0_1_13_wf : GatherDims.WF S4096x3 S1474560x1 S1474560x3 [1] [0] [] [0] [] 1 ![1, 3]

variable [Facts₀]

def gather_S4096x8_S1474560x1_S1474560x8_1_0_n_n_0_1_18 : GatherDims S4096x8 S1474560x1 S1474560x8 where
  offsetDims := [1]
  collapsedSliceDims := [0]
  operandBatchingDims := []
  startIndicesBatchingDims := []
  startIndexMap := [0]
  indexVectorDim := 1
  sliceSizes := ![1, 8]
  wf := gather_S4096x8_S1474560x1_S1474560x8_1_0_n_n_0_1_18_wf
def gather_S4096x3_S1474560x1_S1474560x3_1_0_n_n_0_1_13 : GatherDims S4096x3 S1474560x1 S1474560x3 where
  offsetDims := [1]
  collapsedSliceDims := [0]
  operandBatchingDims := []
  startIndicesBatchingDims := []
  startIndexMap := [0]
  indexVectorDim := 1
  sliceSizes := ![1, 3]
  wf := gather_S4096x3_S1474560x1_S1474560x3_1_0_n_n_0_1_13_wf

class Facts : Prop extends Facts₀ where

variable [Facts]
-- ==== Proof.ObsSpec.lean ====
/-
  The five observables of one kinematic point, as ONE function of twelve extended reals: the eight
  Compton form factors (c0 … c7 = Re H, Re E, Re H̃, Re Ẽ, Im H, Im E, Im H̃, Im Ẽ, already scaled),
  the kinematics (t, xb, q2) and the azimuth phi. Every operation is the exact one on the extended
  reals: products, sums and differences are EReal's, a quotient is `Ideal.div`, a clamp is `max`,
  |x| is `max x (-x)`, and the guarded denominator `xs_safe` is `xs` where |xs| exceeds the
  threshold and the threshold itself elsewhere. The float constants are kept as their binary words
  (2·m_p·k_beam = 0x412CA45D, m_p² = 0x3F615EE7, 4·m_p² = 0x40615EE7, the dipole mass² = 0x3F35ED18,
  μ_p = 0x4032BE0E, μ_p − 1 = 0x3FE57C1C, 1e-8 = 0x322BCC77, 1e-6 = 0x358637BD): the same word denotes
  the same extended real wherever it is read, so none is ever evaluated.

  The intermediate quantities carry the names of the formulas they spell:
    y, eps2, xi, tau, the dipole form factor gd and F1, F2; K2 (clamped below by 1e-8), K = √K2,
    cos phi, sin phi, the propagator product P1P2, the twist-three weight tw3; the interference
    combinations CI_re, CI_im, CT_re, CT_im and the bilinear c_dvcs; the prefactor pre and y_fac;
    then bh, dvcs, i_unpol, their sum xs, and the four asymmetries num_* / xs_safe.
  The result is indexed by the observable: 0 ↦ xs, 1 ↦ bsa, 2 ↦ bca, 3 ↦ tsa, 4 ↦ dsa.
-/
import Idealize.ShloMosaic.PureOps.Ideal

noncomputable section

namespace Cert.Obs

open Idealize.ShloMosaic

/-- The observables (xs, bsa, bca, tsa, dsa) at one point, from its form factors, kinematics and azimuth. -/
def obs (c0 c1 c2 c3 c4 c5 c6 c7 t xb q2 phi : EReal) : Fin 5 → EReal :=
  let v25 : EReal := (Ideal.ofBits .f32 0x412CA45D#32) * xb
  let v26 : EReal := Ideal.div q2 v25   -- y = q2 / (2 m_p k_beam xb)
  let v28 : EReal := (Ideal.ofBits .f32 0x40800000#32) * xb
  let v29 : EReal := v28 * xb
  let v31 : EReal := v29 * (Ideal.ofBits .f32 0x3F615EE7#32)
  let v32 : EReal := Ideal.div v31 q2   -- eps2 = 4 xb^2 m_p^2 / q2
  let v34 : EReal := (Ideal.ofBits .f32 0x40000000#32) * q2
  let v35 : EReal := Ideal.div t v34
  let v37 : EReal := (Ideal.ofBits .f32 0x3F800000#32) + v35
  let v38 : EReal := xb * v37
  let v40 : EReal := (Ideal.ofBits .f32 0x40000000#32) - xb
  let v41 : EReal := xb * t
  let v42 : EReal := Ideal.div v41 q2
  let v43 : EReal := v40 + v42
  let v44 : EReal := Ideal.div v38 v43   -- xi
  let v46 : EReal := -t
  let v48 : EReal := Ideal.div v46 (Ideal.ofBits .f32 0x40615EE7#32)   -- tau = -t / (4 m_p^2)
  let v50 : EReal := Ideal.div t (Ideal.ofBits .f32 0x3F35ED18#32)
  let v52 : EReal := (Ideal.ofBits .f32 0x3F800000#32) - v50
  let v53 : EReal := v52 * v52
  let v55 : EReal := Ideal.div (Ideal.ofBits .f32 0x3F800000#32) v53   -- gd = 1 / (1 - t/dipole)^2
  let v57 : EReal := v48 * (Ideal.ofBits .f32 0x4032BE0E#32)
  let v59 : EReal := (Ideal.ofBits .f32 0x3F800000#32) + v57
  let v60 : EReal := v55 * v59
  let v62 : EReal := (Ideal.ofBits .f32 0x3F800000#32) + v48
  let v63 : EReal := Ideal.div v60 v62   -- F1
  let v65 : EReal := v55 * (Ideal.ofBits .f32 0x3FE57C1C#32)
  let v67 : EReal := (Ideal.ofBits .f32 0x3F800000#32) + v48
  let v68 : EReal := Ideal.div v65 v67   -- F2
  let v70 : EReal := -t
  let v71 : EReal := Ideal.div v70 q2
  let v73 : EReal := (Ideal.ofBits .f32 0x3F800000#32) - xb
  let v74 : EReal := v71 * v73
  let v76 : EReal := (Ideal.ofBits .f32 0x3F800000#32) - v26
  let v78 : EReal := (Ideal.ofBits .f32 0x3E800000#32) * v26
  let v79 : EReal := v78 * v26
  let v80 : EReal := v79 * v32
  let v81 : EReal := v76 - v80
  let v82 : EReal := v74 * v81
  let v84 : EReal := max v82 (Ideal.ofBits .f32 0x322BCC77#32)   -- K2 (clamped below)
  let v85 : EReal := Ideal.sqrt v84   -- K = sqrt K2
  let v86 : EReal := Ideal.cos phi   -- cos phi
  let v87 : EReal := Ideal.sin phi   -- sin phi
  let v89 : EReal := (Ideal.ofBits .f32 0x40000000#32) * v85
  let v90 : EReal := v89 * v86
  let v92 : EReal := (Ideal.ofBits .f32 0x3F800000#32) + v90
  let v93 : EReal := v92 + v84
  let v95 : EReal := (Ideal.ofBits .f32 0x40000000#32) * v85
  let v96 : EReal := v95 * v86
  let v98 : EReal := (Ideal.ofBits .f32 0x3F800000#32) - v96
  let v99 : EReal := v98 + v84
  let v100 : EReal := v93 * v99   -- P1P2
  let v102 : EReal := (Ideal.ofBits .f32 0x40000000#32) * v44
  let v104 : EReal := (Ideal.ofBits .f32 0x3F800000#32) + v44
  let v105 : EReal := Ideal.div v102 v104   -- tw3 = 2 xi / (1 + xi)
  let v106 : EReal := v63 * c0
  let v107 : EReal := v63 + v68
  let v108 : EReal := v44 * v107
  let v109 : EReal := v108 * c2
  let v110 : EReal := v106 + v109
  let v111 : EReal := v48 * v68
  let v112 : EReal := v111 * c1
  let v113 : EReal := v110 - v112   -- CI_re
  let v114 : EReal := v63 * c4
  let v115 : EReal := v63 + v68
  let v116 : EReal := v44 * v115
  let v117 : EReal := v116 * c6
  let v118 : EReal := v114 + v117
  let v119 : EReal := v48 * v68
  let v120 : EReal := v119 * c5
  let v121 : EReal := v118 - v120   -- CI_im
  let v122 : EReal := v63 * c2
  let v123 : EReal := v63 + v68
  let v124 : EReal := v44 * v123
  let v125 : EReal := v124 * c0
  let v126 : EReal := v122 + v125
  let v127 : EReal := v48 * v44
  let v128 : EReal := v127 * v68
  let v129 : EReal := v128 * c3
  let v130 : EReal := v126 - v129   -- CT_re
  let v131 : EReal := v63 * c6
  let v132 : EReal := v63 + v68
  let v133 : EReal := v44 * v132
  let v134 : EReal := v133 * c4
  let v135 : EReal := v131 + v134
  let v136 : EReal := v48 * v44
  let v137 : EReal := v136 * v68
  let v138 : EReal := v137 * c7
  let v139 : EReal := v135 - v138   -- CT_im
  let v141 : EReal := (Ideal.ofBits .f32 0x3F800000#32) - xb
  let v143 : EReal := (Ideal.ofBits .f32 0x40800000#32) * v141
  let v145 : EReal := (Ideal.ofBits .f32 0x40000000#32) - xb
  let v146 : EReal := v145 * v145
  let v147 : EReal := Ideal.div v143 v146
  let v148 : EReal := c0 * c0
  let v149 : EReal := c4 * c4
  let v150 : EReal := v148 + v149
  let v151 : EReal := v44 * v44
  let v152 : EReal := c2 * c2
  let v153 : EReal := c6 * c6
  let v154 : EReal := v152 + v153
  let v155 : EReal := v151 * v154
  let v156 : EReal := v150 + v155
  let v157 : EReal := v147 * v156
  let v158 : EReal := c1 * c1
  let v159 : EReal := c5 * c5
  let v160 : EReal := v158 + v159
  let v161 : EReal := v44 * v44
  let v162 : EReal := c3 * c3
  let v163 : EReal := c7 * c7
  let v164 : EReal := v162 + v163
  let v165 : EReal := v161 * v164
  let v166 : EReal := v160 + v165
  let v167 : EReal := v48 * v166
  let v168 : EReal := v157 - v167   -- c_dvcs
  let v169 : EReal := xb * v26
  let v170 : EReal := v169 * v26
  let v172 : EReal := (Ideal.ofBits .f32 0x3F800000#32) + v32
  let v173 : EReal := v172 * v172
  let v174 : EReal := v170 * v173
  let v176 : EReal := -t
  let v178 : EReal := max v176 (Ideal.ofBits .f32 0x358637BD#32)
  let v179 : EReal := v174 * v178
  let v181 : EReal := Ideal.div (Ideal.ofBits .f32 0x3F800000#32) v179   -- pre
  let v183 : EReal := (Ideal.ofBits .f32 0x40000000#32) * v26
  let v185 : EReal := (Ideal.ofBits .f32 0x40000000#32) - v183
  let v186 : EReal := v26 * v26
  let v187 : EReal := v185 + v186   -- y_fac = 2 - 2y + y^2
  let v189 : EReal := (Ideal.ofBits .f32 0x41000000#32) * v84
  let v190 : EReal := v63 * v63
  let v191 : EReal := v48 * v68
  let v192 : EReal := v191 * v68
  let v193 : EReal := v190 + v192
  let v194 : EReal := v189 * v193
  let v196 : EReal := (Ideal.ofBits .f32 0x40000000#32) * v48
  let v197 : EReal := v196 * v187
  let v198 : EReal := v63 + v68
  let v199 : EReal := v198 * v198
  let v200 : EReal := v197 * v199
  let v201 : EReal := v194 + v200
  let v202 : EReal := v181 * v201
  let v203 : EReal := Ideal.div v202 v100   -- bh
  let v204 : EReal := v168 * v187
  let v205 : EReal := v26 * v26
  let v206 : EReal := v205 * q2
  let v207 : EReal := Ideal.div v204 v206   -- dvcs
  let v209 : EReal := v181 * (Ideal.ofBits .f32 0x41000000#32)
  let v210 : EReal := v209 * v85
  let v211 : EReal := v210 * v187
  let v212 : EReal := Ideal.div v211 v100
  let v213 : EReal := v212 * v113
  let v214 : EReal := v105 * v85
  let v216 : EReal := (Ideal.ofBits .f32 0x40000000#32) * v86
  let v217 : EReal := v216 * v86
  let v219 : EReal := v217 - (Ideal.ofBits .f32 0x3F800000#32)
  let v220 : EReal := v214 * v219
  let v221 : EReal := v86 + v220
  let v222 : EReal := v213 * v221   -- i_unpol
  let v223 : EReal := v203 + v207
  let v224 : EReal := v223 + v222   -- xs = bh + dvcs + i_unpol
  let v225 : EReal := max v224 (-v224)
  let v227 : BitVec 1 := Ideal.cmp .ogt v225 (Ideal.ofBits .f32 0x322BCC77#32)
  let v229 : EReal := Scalar.select v227 v224 (Ideal.ofBits .f32 0x322BCC77#32)   -- xs_safe
  let v231 : EReal := v181 * (Ideal.ofBits .f32 0x41000000#32)
  let v232 : EReal := v231 * v85
  let v233 : EReal := v232 * v26
  let v235 : EReal := (Ideal.ofBits .f32 0x40000000#32) - v26
  let v236 : EReal := v233 * v235
  let v237 : EReal := Ideal.div v236 v100
  let v238 : EReal := v237 * v121
  let v239 : EReal := v238 * v87   -- num_bsa
  let v241 : EReal := v181 * (Ideal.ofBits .f32 0x41000000#32)
  let v242 : EReal := v241 * v85
  let v243 : EReal := v242 * v187
  let v244 : EReal := Ideal.div v243 v100
  let v245 : EReal := v244 * v113
  let v246 : EReal := v245 * v86   -- num_bca
  let v248 : EReal := v181 * (Ideal.ofBits .f32 0x41000000#32)
  let v249 : EReal := v248 * v85
  let v250 : EReal := v249 * v26
  let v252 : EReal := (Ideal.ofBits .f32 0x40000000#32) - v26
  let v253 : EReal := v250 * v252
  let v254 : EReal := Ideal.div v253 v100
  let v255 : EReal := v254 * v139
  let v256 : EReal := v255 * v87   -- num_tsa
  let v258 : EReal := (Ideal.ofBits .f32 0x40000000#32) - v26
  let v259 : EReal := v181 * v258
  let v260 : EReal := Ideal.div v259 v100
  let v262 : EReal := (Ideal.ofBits .f32 0x41000000#32) * v85
  let v263 : EReal := v262 * v26
  let v264 : EReal := v263 * v130
  let v265 : EReal := v264 * v86
  let v267 : EReal := (Ideal.ofBits .f32 0x40800000#32) * v26
  let v268 : EReal := v267 * v48
  let v269 : EReal := v63 + v68
  let v270 : EReal := v268 * v269
  let v271 : EReal := v48 * v68
  let v272 : EReal := v63 + v271
  let v273 : EReal := v270 * v272
  let v274 : EReal := v265 + v273
  let v275 : EReal := v260 * v274   -- num_dsa
  let v279 : EReal := Ideal.div v239 v229   -- bsa
  let v283 : EReal := Ideal.div v246 v229   -- bca
  let v287 : EReal := Ideal.div v256 v229   -- tsa
  let v291 : EReal := Ideal.div v275 v229   -- dsa
  ![v224, v279, v283, v287, v291]

end Cert.Obs

end
-- ==== Proof.KBlock.lean ====
/-
  What one launch of the body leaves in the output block [5, 360, 128], as ONE function of the block index:
  plane `k`, row `r`, lane `l` holds observable `k` (Cert.Obs.obs) of the twelve numbers the three input
  blocks hold at row `r`, lane `l` — plane `j` of the form-factor block [8, 360, 128], plane `j` of the
  kinematics block [3, 360, 128], and the azimuth block [360, 128]. The body loads each plane whole, computes
  lane by lane (every vector operation acts on each lane alone), and stores each observable as one plane; the
  five planes tile the block.
-/
import proofs.«168588_j79491254715037_1_alg».proof.Proof.Gen.KernelIdeal.Frame
import proofs.«168588_j79491254715037_1_alg».proof.Proof.ObsSpec
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Idealize.ShloMosaic Idealize.ShloMosaic.ValueIdx

/-- Plane `k` of a [n0, n1, n2] array, as a [1, n1, n2] slab at offsets (k, 0, 0): slab index (p, r, l) sits at
    (k, r, l) of the array. -/
theorem idx_slab {n0 n1 n2 : Nat} (k : Nat) (hk : k < n0)
    (inb : ∀ a, (![k, 0, 0] : Fin 3 → Nat) a + (![1, n1, n2] : Fin 3 → Nat) a ≤ (⟨3, ![n0, n1, n2]⟩ : Shape).size a)
    (p : Fin 1) (r : Fin n1) (l : Fin n2) :
    (Rect.unit (s := ⟨3, ![n0, n1, n2]⟩) ![k, 0, 0] ![1, n1, n2] inb).idx (ix3 p r l) = ix3 ⟨k, hk⟩ r l := by
  funext a
  apply Fin.ext
  match a with
  | ⟨0, _⟩ => show k + 1 * p.val = k; have := p.isLt; omega
  | ⟨1, _⟩ => show 0 + 1 * r.val = r.val; omega
  | ⟨2, _⟩ => show 0 + 1 * l.val = l.val; omega

/-- A [360, 128] value stored as a [1, 360, 128] slab reads (p, r, l) at (r, l). -/
theorem cast_add1 {α : Type} (v : S360x128.Idx → α) (h : S360x128.ShapeCasts S1x360x128) (p : Fin 1) (r : Fin 360) (l : Fin 128) :
    shapeCast S1x360x128 v h (ix3 p r l) = v (ix2 r l) := by
  refine (shapeCast_addUnit_apply ![360, 128] v h (ix3 p r l)).trans (congrArg v ?_)
  funext a
  match a with
  | ⟨0, _⟩ => rfl
  | ⟨1, _⟩ => rfl

/-- A [1, 360, 128] slab viewed as [360, 128] reads (r, l) at (0, r, l). -/
theorem cast_drop1 {α : Type} (v : S1x360x128.Idx → α) (h : S1x360x128.ShapeCasts S360x128) (r : Fin 360) (l : Fin 128) :
    shapeCast S360x128 v h (ix2 r l) = v (ix3 0 r l) := by
  refine (shapeCast_dropUnit_apply ![360, 128] v h (ix2 r l)).trans (congrArg v ?_)
  funext a
  match a with
  | ⟨0, _⟩ => rfl
  | ⟨1, _⟩ => rfl
  | ⟨2, _⟩ => rfl

/-- The body's output block as one function of its index: plane `y 0`, row `y 1`, lane `y 2`. -/
def blockOf (x0 : S8x360x128.Idx → EReal) (x1 : S3x360x128.Idx → EReal) (x2 : S360x128.Idx → EReal) :
    S5x360x128.Idx → EReal := fun y =>
  Cert.Obs.obs (x0 (ix3 0 (y 1) (y 2))) (x0 (ix3 1 (y 1) (y 2))) (x0 (ix3 2 (y 1) (y 2))) (x0 (ix3 3 (y 1) (y 2)))
    (x0 (ix3 4 (y 1) (y 2))) (x0 (ix3 5 (y 1) (y 2))) (x0 (ix3 6 (y 1) (y 2))) (x0 (ix3 7 (y 1) (y 2)))
    (x1 (ix3 0 (y 1) (y 2))) (x1 (ix3 1 (y 1) (y 2))) (x1 (ix3 2 (y 1) (y 2))) (x2 (ix2 (y 1) (y 2))) (y 0)

theorem blockOf_ix3 (x0 : S8x360x128.Idx → EReal) (x1 : S3x360x128.Idx → EReal) (x2 : S360x128.Idx → EReal)
    (k : Fin 5) (r : Fin 360) (l : Fin 128) :
    blockOf x0 x1 x2 (ix3 k r l) = Cert.Obs.obs (x0 (ix3 0 r l)) (x0 (ix3 1 r l)) (x0 (ix3 2 r l)) (x0 (ix3 3 r l))
      (x0 (ix3 4 r l)) (x0 (ix3 5 r l)) (x0 (ix3 6 r l)) (x0 (ix3 7 r l))
      (x1 (ix3 0 r l)) (x1 (ix3 1 r l)) (x1 (ix3 2 r l)) (x2 (ix2 r l)) k := rfl

/-- The zero word is the real zero, and subtracting from it negates. -/
theorem zero_word_sub (x : EReal) : Ideal.ofBits .f32 0x00000000#32 - x = -x := by
  rw [Ideal.ofBits_zero_f32, zero_sub]

theorem absf_ideal (x : Ideal .f32) : FloatOps.absf (F := Ideal) x = max x (-x) := rfl
theorem cmpf_ideal (p : CmpFPredicate) (x y : Ideal .f32) : FloatOps.cmpf (F := Ideal) p x y = Ideal.cmp p x y := rfl
theorem scalar_ofBits_ideal (b : BitVec 32) : (Scalar.ofBits (F := Ideal) .f32 b : Ideal .f32) = Ideal.ofBits .f32 b := rfl

theorem hz2 : (![0, 0] : Fin 2 → Nat) = fun _ => 0 := funext fun a => by fin_cases a <;> rfl

set_option maxHeartbeats 4000000 in
/-- The canon of the body's five stores is `blockOf` of the three input blocks: each store's payload, read at
    slab index (p, r, l), is its observable of the twelve numbers at row `r`, lane `l`. -/
theorem out_eq (x0 : Vec Ideal S8x360x128 .f32) (x1 : Vec Ideal S3x360x128 .f32) (x2 : Vec Ideal S360x128 .f32) :
    out0_3 (F := Ideal) x0 x1 x2 = blockOf x0 x1 x2 := by
  funext y
  unfold out0_3
  refine View.canon_apply_of_pieces (Val := Elt Ideal) (blockOf x0 x1 x2) _ ?_ y (cover0_3 _ _ _ _ _ y)
  intro q hq x
  simp only [List.mem_cons, List.mem_nil_iff, or_false] at hq
  rcases hq with rfl | rfl | rfl | rfl | rfl
  · obtain ⟨p, r, l, rfl⟩ : ∃ (p : Fin 1) (r : Fin 360) (l : Fin 128), x = ix3 p r l := ⟨x 0, x 1, x 2, eq_ix3 x⟩
    show _ = blockOf x0 x1 x2 (r0_16.idx (ix3 p r l))
    rw [show r0_16.idx (ix3 p r l) = ix3 (4 : Fin 5) r l from idx_slab 4 (by decide) _ p r l, blockOf_ix3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, cast_add1, cast_drop1, shapeCast_self, View.ld,
      View.ld_unit_zero (S := S360x128) hz2,
      (fun p => idx_slab 0 (by decide) _ p r l : ∀ p : Fin 1, r0_0.idx (ix3 p r l) = ix3 (0 : Fin 8) r l),
      (fun p => idx_slab 1 (by decide) _ p r l : ∀ p : Fin 1, r0_1.idx (ix3 p r l) = ix3 (1 : Fin 8) r l),
      (fun p => idx_slab 2 (by decide) _ p r l : ∀ p : Fin 1, r0_2.idx (ix3 p r l) = ix3 (2 : Fin 8) r l),
      (fun p => idx_slab 3 (by decide) _ p r l : ∀ p : Fin 1, r0_3.idx (ix3 p r l) = ix3 (3 : Fin 8) r l),
      (fun p => idx_slab 4 (by decide) _ p r l : ∀ p : Fin 1, r0_4.idx (ix3 p r l) = ix3 (4 : Fin 8) r l),
      (fun p => idx_slab 5 (by decide) _ p r l : ∀ p : Fin 1, r0_5.idx (ix3 p r l) = ix3 (5 : Fin 8) r l),
      (fun p => idx_slab 6 (by decide) _ p r l : ∀ p : Fin 1, r0_6.idx (ix3 p r l) = ix3 (6 : Fin 8) r l),
      (fun p => idx_slab 7 (by decide) _ p r l : ∀ p : Fin 1, r0_7.idx (ix3 p r l) = ix3 (7 : Fin 8) r l),
      (fun p => idx_slab 0 (by decide) _ p r l : ∀ p : Fin 1, r0_8.idx (ix3 p r l) = ix3 (0 : Fin 3) r l),
      (fun p => idx_slab 1 (by decide) _ p r l : ∀ p : Fin 1, r0_9.idx (ix3 p r l) = ix3 (1 : Fin 3) r l),
      (fun p => idx_slab 2 (by decide) _ p r l : ∀ p : Fin 1, r0_10.idx (ix3 p r l) = ix3 (2 : Fin 3) r l),
      mulf, addf, subf, divf, maximumf, Idealize.ShloMosaic.sqrt, Idealize.ShloMosaic.cos, Idealize.ShloMosaic.sin, absf, cmpf,
      select, broadcast, Ideal.mulf_def, Ideal.addf_def, Ideal.subf_def, Ideal.divf_def, Ideal.maximumf_def, Ideal.sqrt_def,
      Ideal.cos_def, Ideal.sin_def, absf_ideal, cmpf_ideal, scalar_ofBits_ideal, zero_word_sub, Cert.Obs.obs]
    rfl
  · obtain ⟨p, r, l, rfl⟩ : ∃ (p : Fin 1) (r : Fin 360) (l : Fin 128), x = ix3 p r l := ⟨x 0, x 1, x 2, eq_ix3 x⟩
    show _ = blockOf x0 x1 x2 (r0_15.idx (ix3 p r l))
    rw [show r0_15.idx (ix3 p r l) = ix3 (3 : Fin 5) r l from idx_slab 3 (by decide) _ p r l, blockOf_ix3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, cast_add1, cast_drop1, shapeCast_self, View.ld,
      View.ld_unit_zero (S := S360x128) hz2,
      (fun p => idx_slab 0 (by decide) _ p r l : ∀ p : Fin 1, r0_0.idx (ix3 p r l) = ix3 (0 : Fin 8) r l),
      (fun p => idx_slab 1 (by decide) _ p r l : ∀ p : Fin 1, r0_1.idx (ix3 p r l) = ix3 (1 : Fin 8) r l),
      (fun p => idx_slab 2 (by decide) _ p r l : ∀ p : Fin 1, r0_2.idx (ix3 p r l) = ix3 (2 : Fin 8) r l),
      (fun p => idx_slab 3 (by decide) _ p r l : ∀ p : Fin 1, r0_3.idx (ix3 p r l) = ix3 (3 : Fin 8) r l),
      (fun p => idx_slab 4 (by decide) _ p r l : ∀ p : Fin 1, r0_4.idx (ix3 p r l) = ix3 (4 : Fin 8) r l),
      (fun p => idx_slab 5 (by decide) _ p r l : ∀ p : Fin 1, r0_5.idx (ix3 p r l) = ix3 (5 : Fin 8) r l),
      (fun p => idx_slab 6 (by decide) _ p r l : ∀ p : Fin 1, r0_6.idx (ix3 p r l) = ix3 (6 : Fin 8) r l),
      (fun p => idx_slab 7 (by decide) _ p r l : ∀ p : Fin 1, r0_7.idx (ix3 p r l) = ix3 (7 : Fin 8) r l),
      (fun p => idx_slab 0 (by decide) _ p r l : ∀ p : Fin 1, r0_8.idx (ix3 p r l) = ix3 (0 : Fin 3) r l),
      (fun p => idx_slab 1 (by decide) _ p r l : ∀ p : Fin 1, r0_9.idx (ix3 p r l) = ix3 (1 : Fin 3) r l),
      (fun p => idx_slab 2 (by decide) _ p r l : ∀ p : Fin 1, r0_10.idx (ix3 p r l) = ix3 (2 : Fin 3) r l),
      mulf, addf, subf, divf, maximumf, Idealize.ShloMosaic.sqrt, Idealize.ShloMosaic.cos, Idealize.ShloMosaic.sin, absf, cmpf,
      select, broadcast, Ideal.mulf_def, Ideal.addf_def, Ideal.subf_def, Ideal.divf_def, Ideal.maximumf_def, Ideal.sqrt_def,
      Ideal.cos_def, Ideal.sin_def, absf_ideal, cmpf_ideal, scalar_ofBits_ideal, zero_word_sub, Cert.Obs.obs]
    rfl
  · obtain ⟨p, r, l, rfl⟩ : ∃ (p : Fin 1) (r : Fin 360) (l : Fin 128), x = ix3 p r l := ⟨x 0, x 1, x 2, eq_ix3 x⟩
    show _ = blockOf x0 x1 x2 (r0_14.idx (ix3 p r l))
    rw [show r0_14.idx (ix3 p r l) = ix3 (2 : Fin 5) r l from idx_slab 2 (by decide) _ p r l, blockOf_ix3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, cast_add1, cast_drop1, shapeCast_self, View.ld,
      View.ld_unit_zero (S := S360x128) hz2,
      (fun p => idx_slab 0 (by decide) _ p r l : ∀ p : Fin 1, r0_0.idx (ix3 p r l) = ix3 (0 : Fin 8) r l),
      (fun p => idx_slab 1 (by decide) _ p r l : ∀ p : Fin 1, r0_1.idx (ix3 p r l) = ix3 (1 : Fin 8) r l),
      (fun p => idx_slab 2 (by decide) _ p r l : ∀ p : Fin 1, r0_2.idx (ix3 p r l) = ix3 (2 : Fin 8) r l),
      (fun p => idx_slab 3 (by decide) _ p r l : ∀ p : Fin 1, r0_3.idx (ix3 p r l) = ix3 (3 : Fin 8) r l),
      (fun p => idx_slab 4 (by decide) _ p r l : ∀ p : Fin 1, r0_4.idx (ix3 p r l) = ix3 (4 : Fin 8) r l),
      (fun p => idx_slab 5 (by decide) _ p r l : ∀ p : Fin 1, r0_5.idx (ix3 p r l) = ix3 (5 : Fin 8) r l),
      (fun p => idx_slab 6 (by decide) _ p r l : ∀ p : Fin 1, r0_6.idx (ix3 p r l) = ix3 (6 : Fin 8) r l),
      (fun p => idx_slab 7 (by decide) _ p r l : ∀ p : Fin 1, r0_7.idx (ix3 p r l) = ix3 (7 : Fin 8) r l),
      (fun p => idx_slab 0 (by decide) _ p r l : ∀ p : Fin 1, r0_8.idx (ix3 p r l) = ix3 (0 : Fin 3) r l),
      (fun p => idx_slab 1 (by decide) _ p r l : ∀ p : Fin 1, r0_9.idx (ix3 p r l) = ix3 (1 : Fin 3) r l),
      (fun p => idx_slab 2 (by decide) _ p r l : ∀ p : Fin 1, r0_10.idx (ix3 p r l) = ix3 (2 : Fin 3) r l),
      mulf, addf, subf, divf, maximumf, Idealize.ShloMosaic.sqrt, Idealize.ShloMosaic.cos, Idealize.ShloMosaic.sin, absf, cmpf,
      select, broadcast, Ideal.mulf_def, Ideal.addf_def, Ideal.subf_def, Ideal.divf_def, Ideal.maximumf_def, Ideal.sqrt_def,
      Ideal.cos_def, Ideal.sin_def, absf_ideal, cmpf_ideal, scalar_ofBits_ideal, zero_word_sub, Cert.Obs.obs]
    rfl
  · obtain ⟨p, r, l, rfl⟩ : ∃ (p : Fin 1) (r : Fin 360) (l : Fin 128), x = ix3 p r l := ⟨x 0, x 1, x 2, eq_ix3 x⟩
    show _ = blockOf x0 x1 x2 (r0_13.idx (ix3 p r l))
    rw [show r0_13.idx (ix3 p r l) = ix3 (1 : Fin 5) r l from idx_slab 1 (by decide) _ p r l, blockOf_ix3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, cast_add1, cast_drop1, shapeCast_self, View.ld,
      View.ld_unit_zero (S := S360x128) hz2,
      (fun p => idx_slab 0 (by decide) _ p r l : ∀ p : Fin 1, r0_0.idx (ix3 p r l) = ix3 (0 : Fin 8) r l),
      (fun p => idx_slab 1 (by decide) _ p r l : ∀ p : Fin 1, r0_1.idx (ix3 p r l) = ix3 (1 : Fin 8) r l),
      (fun p => idx_slab 2 (by decide) _ p r l : ∀ p : Fin 1, r0_2.idx (ix3 p r l) = ix3 (2 : Fin 8) r l),
      (fun p => idx_slab 3 (by decide) _ p r l : ∀ p : Fin 1, r0_3.idx (ix3 p r l) = ix3 (3 : Fin 8) r l),
      (fun p => idx_slab 4 (by decide) _ p r l : ∀ p : Fin 1, r0_4.idx (ix3 p r l) = ix3 (4 : Fin 8) r l),
      (fun p => idx_slab 5 (by decide) _ p r l : ∀ p : Fin 1, r0_5.idx (ix3 p r l) = ix3 (5 : Fin 8) r l),
      (fun p => idx_slab 6 (by decide) _ p r l : ∀ p : Fin 1, r0_6.idx (ix3 p r l) = ix3 (6 : Fin 8) r l),
      (fun p => idx_slab 7 (by decide) _ p r l : ∀ p : Fin 1, r0_7.idx (ix3 p r l) = ix3 (7 : Fin 8) r l),
      (fun p => idx_slab 0 (by decide) _ p r l : ∀ p : Fin 1, r0_8.idx (ix3 p r l) = ix3 (0 : Fin 3) r l),
      (fun p => idx_slab 1 (by decide) _ p r l : ∀ p : Fin 1, r0_9.idx (ix3 p r l) = ix3 (1 : Fin 3) r l),
      (fun p => idx_slab 2 (by decide) _ p r l : ∀ p : Fin 1, r0_10.idx (ix3 p r l) = ix3 (2 : Fin 3) r l),
      mulf, addf, subf, divf, maximumf, Idealize.ShloMosaic.sqrt, Idealize.ShloMosaic.cos, Idealize.ShloMosaic.sin, absf, cmpf,
      select, broadcast, Ideal.mulf_def, Ideal.addf_def, Ideal.subf_def, Ideal.divf_def, Ideal.maximumf_def, Ideal.sqrt_def,
      Ideal.cos_def, Ideal.sin_def, absf_ideal, cmpf_ideal, scalar_ofBits_ideal, zero_word_sub, Cert.Obs.obs]
    rfl
  · obtain ⟨p, r, l, rfl⟩ : ∃ (p : Fin 1) (r : Fin 360) (l : Fin 128), x = ix3 p r l := ⟨x 0, x 1, x 2, eq_ix3 x⟩
    show _ = blockOf x0 x1 x2 (r0_12.idx (ix3 p r l))
    rw [show r0_12.idx (ix3 p r l) = ix3 (0 : Fin 5) r l from idx_slab 0 (by decide) _ p r l, blockOf_ix3]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, cast_add1, cast_drop1, shapeCast_self, View.ld,
      View.ld_unit_zero (S := S360x128) hz2,
      (fun p => idx_slab 0 (by decide) _ p r l : ∀ p : Fin 1, r0_0.idx (ix3 p r l) = ix3 (0 : Fin 8) r l),
      (fun p => idx_slab 1 (by decide) _ p r l : ∀ p : Fin 1, r0_1.idx (ix3 p r l) = ix3 (1 : Fin 8) r l),
      (fun p => idx_slab 2 (by decide) _ p r l : ∀ p : Fin 1, r0_2.idx (ix3 p r l) = ix3 (2 : Fin 8) r l),
      (fun p => idx_slab 3 (by decide) _ p r l : ∀ p : Fin 1, r0_3.idx (ix3 p r l) = ix3 (3 : Fin 8) r l),
      (fun p => idx_slab 4 (by decide) _ p r l : ∀ p : Fin 1, r0_4.idx (ix3 p r l) = ix3 (4 : Fin 8) r l),
      (fun p => idx_slab 5 (by decide) _ p r l : ∀ p : Fin 1, r0_5.idx (ix3 p r l) = ix3 (5 : Fin 8) r l),
      (fun p => idx_slab 6 (by decide) _ p r l : ∀ p : Fin 1, r0_6.idx (ix3 p r l) = ix3 (6 : Fin 8) r l),
      (fun p => idx_slab 7 (by decide) _ p r l : ∀ p : Fin 1, r0_7.idx (ix3 p r l) = ix3 (7 : Fin 8) r l),
      (fun p => idx_slab 0 (by decide) _ p r l : ∀ p : Fin 1, r0_8.idx (ix3 p r l) = ix3 (0 : Fin 3) r l),
      (fun p => idx_slab 1 (by decide) _ p r l : ∀ p : Fin 1, r0_9.idx (ix3 p r l) = ix3 (1 : Fin 3) r l),
      (fun p => idx_slab 2 (by decide) _ p r l : ∀ p : Fin 1, r0_10.idx (ix3 p r l) = ix3 (2 : Fin 3) r l),
      mulf, addf, subf, divf, maximumf, Idealize.ShloMosaic.sqrt, Idealize.ShloMosaic.cos, Idealize.ShloMosaic.sin, absf, cmpf,
      select, broadcast, Ideal.mulf_def, Ideal.addf_def, Ideal.subf_def, Ideal.divf_def, Ideal.maximumf_def, Ideal.sqrt_def,
      Ideal.cos_def, Ideal.sin_def, absf_ideal, cmpf_ideal, scalar_ofBits_ideal, zero_word_sub, Cert.Obs.obs]
    rfl

end Cert.KernelIdeal.Block

end
-- ==== Proof.KTables.lean ====
/-
  The three arrays the region stages, as the host operations before it compose them from the arguments.
  The form factors are scaled (theta times the per-column scales) and gathered per point by point_id — a
  negative id is wrapped by the table's length first, as jnp indexing does — into `cffTable` [N, 8]; the
  kinematics are gathered the same way into `kinTable` [N, 3]. Neither gather is opened anywhere: the
  reference applies the same operations to the same arguments. The region then reads them transposed and
  re-laid: plane `j`, row `r`, lane `l` of the [8, 11520, 128] array is column `j` of point `128 r + l`,
  likewise for the kinematics, and the azimuths [N] are re-laid as [11520, 128].
-/
import proofs.«168588_j79491254715037_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Tables

open Cert.KernelIdeal Cert.KernelIdeal.Gen Idealize.ShloMosaic Idealize.ShloMosaic.TcCoe Idealize.ShloMosaic.ValueIdx Idealize.SL.Sem

/-- point_id with a negative id wrapped by the table's length 4096, as a column [N, 1] of gather indices. -/
def pointIdx (a2 : IVec S1474560 32) : IVec S1474560x1 32 :=
  broadcastInDim S1474560x1 ![0] bcast_S1474560_S1474560x1_0
    (select (cmpi .slt a2 (broadcastInDim S1474560 ![] bcast_S_S1474560 (constantI S_ 32 0#32)))
      (addi a2 (broadcastInDim S1474560 ![] bcast_S_S1474560 (constantI S_ 32 4096#32))) a2)

/-- The scaled form factors gathered per point: [N, 8]. -/
def cffTable (a0 : FVec Ideal S4096x8 .f32) (a2 : IVec S1474560 32) : FVec Ideal S1474560x8 .f32 :=
  Host.gather gather_S4096x8_S1474560x1_S1474560x8_1_0_n_n_0_1_18
    (mulf (F := Ideal) a0 (broadcastInDim S4096x8 ![0, 1] bcast_S1x8_S4096x8_0_1
      (broadcastInDim S1x8 ![1] bcast_S8_S1x8_1 (fun i => FloatOps.ofBits (F := Ideal) .f32 (lit0 (S8.rowMajor i))))))
    (pointIdx a2)

/-- The kinematics gathered per point: [N, 3]. -/
def kinTable (a1 : FVec Ideal S4096x3 .f32) (a2 : IVec S1474560 32) : FVec Ideal S1474560x3 .f32 :=
  Host.gather gather_S4096x3_S1474560x1_S1474560x3_1_0_n_n_0_1_13 a1 (pointIdx a2)

variable (m : (ℓ : Loc nD τ sig) → Buf (Elt Ideal) ℓ)

/-- The staged form-factor array: the gathered table transposed to [8, N] and re-laid as [8, 11520, 128]. -/
theorem V_cff (c : Dev nD) : (V m c main_v19 : S8x11520x128.Idx → EReal) =
    shapeCast S8x11520x128 (transpose S8x1474560 [1, 0]
      (cffTable (m ((c : Thread nD τ).loc main_arg0)) (m ((c : Thread nD τ).loc main_arg2))) transposes_S1474560x8_S8x1474560_1_0)
      shapeCasts_S8x1474560_S8x11520x128 := by
  show StableHlo.after hostOps0 (fun b => m (c, b)) (Proc.devRef .tc main_v19) = _
  after_results
  rfl

/-- The staged kinematics array: the gathered table transposed to [3, N] and re-laid as [3, 11520, 128]. -/
theorem V_kin (c : Dev nD) : (V m c main_v20 : S3x11520x128.Idx → EReal) =
    shapeCast S3x11520x128 (transpose S3x1474560 [1, 0]
      (kinTable (m ((c : Thread nD τ).loc main_arg1)) (m ((c : Thread nD τ).loc main_arg2))) transposes_S1474560x3_S3x1474560_1_0)
      shapeCasts_S3x1474560_S3x11520x128 := by
  show StableHlo.after hostOps0 (fun b => m (c, b)) (Proc.devRef .tc main_v20) = _
  after_results
  rfl

/-- The staged azimuth array: the argument re-laid as [11520, 128]. -/
theorem V_phi (c : Dev nD) : (V m c main_v21 : S11520x128.Idx → EReal) =
    shapeCast S11520x128 (m ((c : Thread nD τ).loc main_arg3) : S1474560.Idx → EReal) shapeCasts_S1474560_S11520x128 := by
  show StableHlo.after hostOps0 (fun b => m (c, b)) (Proc.devRef .tc main_v21) = _
  after_results
  rfl

end Cert.KernelIdeal.Tables

end
-- ==== Proof.ObsTable.lean ====
/-
  The whole result array [N, 5] (N = 1474560 points) as ONE function of three arrays: the per-point form
  factors `C` [N, 8], the per-point kinematics `K` [N, 3] (columns t, xb, q2) and the azimuths `P` [N].
  Row `n`, column `k` is observable `k` (Cert.Obs.obs) of point `n`'s twelve numbers: nothing of one point
  depends on another point. Both programs end at this function of the same three arrays.
-/
import proofs.«168588_j79491254715037_1_alg».proof.Proof.ObsSpec
import Idealize.ShloMosaic.Lib.ValueIdx

noncomputable section

namespace Cert.Obs

open Idealize.ShloMosaic Idealize.ShloMosaic.ValueIdx

/-- Row `i 0`, column `i 1` of the result: observable `i 1` of the twelve numbers of point `i 0`. -/
def table (C : (⟨2, ![1474560, 8]⟩ : Shape).Idx → EReal) (K : (⟨2, ![1474560, 3]⟩ : Shape).Idx → EReal)
    (P : (⟨1, ![1474560]⟩ : Shape).Idx → EReal) : (⟨2, ![1474560, 5]⟩ : Shape).Idx → EReal := fun i =>
  obs (C (ix2 (i 0) 0)) (C (ix2 (i 0) 1)) (C (ix2 (i 0) 2)) (C (ix2 (i 0) 3)) (C (ix2 (i 0) 4)) (C (ix2 (i 0) 5))
    (C (ix2 (i 0) 6)) (C (ix2 (i 0) 7)) (K (ix2 (i 0) 0)) (K (ix2 (i 0) 1)) (K (ix2 (i 0) 2)) (P (ix1 (i 0))) (i 1)

/-- `table` read at row `n`, column `k`. -/
theorem table_apply (C : (⟨2, ![1474560, 8]⟩ : Shape).Idx → EReal) (K : (⟨2, ![1474560, 3]⟩ : Shape).Idx → EReal)
    (P : (⟨1, ![1474560]⟩ : Shape).Idx → EReal) (n : Fin 1474560) (k : Fin 5) :
    table C K P (ix2 n k) = obs (C (ix2 n 0)) (C (ix2 n 1)) (C (ix2 n 2)) (C (ix2 n 3)) (C (ix2 n 4)) (C (ix2 n 5))
      (C (ix2 n 6)) (C (ix2 n 7)) (K (ix2 n 0)) (K (ix2 n 1)) (K (ix2 n 2)) (P (ix1 n)) k := rfl

end Cert.Obs

end
-- ==== Proof.LibPlaneLayout.lean ====
/-
  A table [N, A] of N = B·C points with A columns, laid out as A planes of B rows by C lanes.

  Transposing the table to [A, N] and re-laying each row of N as [B, C] gives an array [A, B, C] whose
  plane `a`, row `b`, lane `c` is column `a` of point `b·C + c` (`planes_apply`); a vector [N] re-laid as
  [B, C] reads (b, c) at point `b·C + c` (`rows_apply`); and going back — an array [A, B, C] flattened to
  [A, N] and transposed to [N, A] — reads row `b·C + c`, column `a` at (a, b, c) (`unplanes_apply`).
  All three are the row-major positions of the two shapes compared: (a·B + b)·C + c = a·(B·C) + (b·C + c).
-/
import Idealize.ShloMosaic.Lib.Pipeline.Value
import Idealize.ShloMosaic.Lib.ValueIdx

noncomputable section

namespace Idealize.ShloMosaic.PlaneLayout

open Idealize.ShloMosaic Idealize.ShloMosaic.ValueIdx

variable {α : Type} {A B C N : Nat}

/-- Plane `a`, row `b`, lane `c` of a table [N, A] transposed and re-laid as [A, B, C] is column `a` of point
    `n = b·C + c`. -/
theorem planes_apply (hN : N = B * C) (T : (⟨2, ![N, A]⟩ : Shape).Idx → α)
    (ht : (⟨2, ![N, A]⟩ : Shape).Transposes [1, 0] ⟨2, ![A, N]⟩)
    (hc : (⟨2, ![A, N]⟩ : Shape).ShapeCasts ⟨3, ![A, B, C]⟩)
    (a : Fin A) (b : Fin B) (c : Fin C) (n : Fin N) (hn : n.val = b.val * C + c.val) :
    shapeCast ⟨3, ![A, B, C]⟩ (transpose ⟨2, ![A, N]⟩ [1, 0] T ht) hc (ix3 a b c) = T (ix2 n a) := by
  refine (shapeCast_apply _ hc (ix3 a b c) (ix2 a n) ?_).trans (transpose_apply [1, 0] T ht (ix2 a n) (ix2 n a) ?_)
  · rw [Shape.rowMajor_val_two, Shape.rowMajor_val_three]
    show a.val * N + n.val = (a.val * B + b.val) * C + c.val
    rw [hn, hN]; ring
  · intro d
    match d with
    | ⟨0, _⟩ => rfl
    | ⟨1, _⟩ => rfl

/-- Row `b`, lane `c` of a vector [N] re-laid as [B, C] is point `n = b·C + c`. -/
theorem rows_apply (P : (⟨1, ![N]⟩ : Shape).Idx → α) (hc : (⟨1, ![N]⟩ : Shape).ShapeCasts ⟨2, ![B, C]⟩)
    (b : Fin B) (c : Fin C) (n : Fin N) (hn : n.val = b.val * C + c.val) :
    shapeCast ⟨2, ![B, C]⟩ P hc (ix2 b c) = P (ix1 n) := by
  refine shapeCast_apply _ hc (ix2 b c) (ix1 n) ?_
  rw [Shape.rowMajor_val_one, Shape.rowMajor_val_two]
  show n.val = b.val * C + c.val
  exact hn

/-- Row `n = b·C + c`, column `a` of an array [A, B, C] flattened to [A, N] and transposed to [N, A] is the
    array at (a, b, c). -/
theorem unplanes_apply (hN : N = B * C) (G : (⟨3, ![A, B, C]⟩ : Shape).Idx → α)
    (hc : (⟨3, ![A, B, C]⟩ : Shape).ShapeCasts ⟨2, ![A, N]⟩)
    (ht : (⟨2, ![A, N]⟩ : Shape).Transposes [1, 0] ⟨2, ![N, A]⟩)
    (n : Fin N) (a : Fin A) (b : Fin B) (c : Fin C) (hn : n.val = b.val * C + c.val) :
    transpose ⟨2, ![N, A]⟩ [1, 0] (shapeCast ⟨2, ![A, N]⟩ G hc) ht (ix2 n a) = G (ix3 a b c) := by
  refine (transpose_apply [1, 0] _ ht (ix2 n a) (ix2 a n) ?_).trans (shapeCast_apply _ hc (ix2 a n) (ix3 a b c) ?_)
  · intro d
    match d with
    | ⟨0, _⟩ => rfl
    | ⟨1, _⟩ => rfl
  · rw [Shape.rowMajor_val_two, Shape.rowMajor_val_three]
    show (a.val * B + b.val) * C + c.val = a.val * N + n.val
    rw [hn, hN]; ring

end Idealize.ShloMosaic.PlaneLayout

end
-- ==== Proof.KValue.lean ====
/-
  The kernel's result as ONE function of the arguments. The grid has 32 points; point `t` stages rows
  360 t … 360 t + 359 of the three input arrays (all planes, all lanes), the body turns them into the same rows
  of the output array [5, 11520, 128] (Block.out_eq), and the 32 row bands tile that array: so the array ends at
  `arrOf` of the three staged arrays — plane `k`, row `r`, lane `l` is observable `k` of their twelve numbers at
  (r, l). The two operations after the region flatten [5, 11520, 128] to [5, N] and transpose to [N, 5]; with the
  staged arrays read back as the gathered tables (Tables.V_cff, V_kin, V_phi: plane j, row r, lane l is column j of
  point 128 r + l) the result's row `n`, column `k` is observable `k` of point `n`: Cert.Obs.table.
-/
import proofs.«168588_j79491254715037_1_alg».proof.Proof.KBlock
import proofs.«168588_j79491254715037_1_alg».proof.Proof.KTables
import proofs.«168588_j79491254715037_1_alg».proof.Proof.ObsTable
import proofs.«168588_j79491254715037_1_alg».proof.Proof.LibPlaneLayout
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Block Cert.KernelIdeal.Tables
open Idealize.ShloMosaic Idealize.ShloMosaic.TcCoe Idealize.ShloMosaic.ValueIdx Idealize.ShloMosaic.PlaneLayout Idealize.SL.Sem
open Idealize.ShloMosaic.Pipeline (Dat)

variable (m : (ℓ : Loc nD τ sig) → Buf (Elt Ideal) ℓ) (ρ : Dev nD → PrngReg)

/-- The region's output array from the three staged arrays: plane `i 0`, row `i 1`, lane `i 2`. -/
def arrOf (A0 : S8x11520x128.Idx → EReal) (A1 : S3x11520x128.Idx → EReal) (A2 : S11520x128.Idx → EReal) :
    S5x11520x128.Idx → EReal := fun i =>
  Cert.Obs.obs (A0 (ix3 0 (i 1) (i 2))) (A0 (ix3 1 (i 1) (i 2))) (A0 (ix3 2 (i 1) (i 2))) (A0 (ix3 3 (i 1) (i 2)))
      (A0 (ix3 4 (i 1) (i 2))) (A0 (ix3 5 (i 1) (i 2))) (A0 (ix3 6 (i 1) (i 2))) (A0 (ix3 7 (i 1) (i 2)))
      (A1 (ix3 0 (i 1) (i 2))) (A1 (ix3 1 (i 1) (i 2))) (A1 (ix3 2 (i 1) (i 2))) (A2 (ix2 (i 1) (i 2))) (i 0)

theorem arrOf_ix3 (A0 : S8x11520x128.Idx → EReal) (A1 : S3x11520x128.Idx → EReal) (A2 : S11520x128.Idx → EReal)
    (k : Fin 5) (r : Fin 11520) (l : Fin 128) :
    arrOf A0 A1 A2 (ix3 k r l) = Cert.Obs.obs (A0 (ix3 0 r l)) (A0 (ix3 1 r l)) (A0 (ix3 2 r l)) (A0 (ix3 3 r l))
      (A0 (ix3 4 r l)) (A0 (ix3 5 r l)) (A0 (ix3 6 r l)) (A0 (ix3 7 r l))
      (A1 (ix3 0 r l)) (A1 (ix3 1 r l)) (A1 (ix3 2 r l)) (A2 (ix2 r l)) k := rfl

/-- The printed index maps over the 32 grid points: every window's block index is (0, t, 0) (the azimuths': (t, 0)). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Point `t`'s form-factor block is rows 360 t … of the staged array. -/
theorem iblk0_apply (c : Dev nD) (t : Fin cfg0.N) (k : Fin 8) (r : Fin 360) (l : Fin 128) (hr : 360 * t.val + r.val < 11520) :
    (iblk m c 0 t : S8x360x128.Idx → EReal) (ix3 k r l)
      = (V m c main_v19 : S8x11520x128.Idx → EReal) (ix3 k ⟨360 * t.val + r.val, hr⟩ l) := by
  obtain ⟨e0, e1, e2, -⟩ := idx_facts t
  unfold iblk
  rw [View.read_apply]
  show V m c main_v19 _ = V m c main_v19 _
  congr 1
  funext a
  apply Fin.ext
  match a with
  | ⟨0, _⟩ => show win0_0.index t 0 * 8 + 1 * k.val = k.val; rw [e0]; omega
  | ⟨1, _⟩ => show win0_0.index t 1 * 360 + 1 * r.val = 360 * t.val + r.val; rw [e1]; omega
  | ⟨2, _⟩ => show win0_0.index t 2 * 128 + 1 * l.val = l.val; rw [e2]; omega

/-- Point `t`'s kinematics block is rows 360 t … of the staged array. -/
theorem iblk1_apply (c : Dev nD) (t : Fin cfg0.N) (k : Fin 3) (r : Fin 360) (l : Fin 128) (hr : 360 * t.val + r.val < 11520) :
    (iblk m c 1 t : S3x360x128.Idx → EReal) (ix3 k r l)
      = (V m c main_v20 : S3x11520x128.Idx → EReal) (ix3 k ⟨360 * t.val + r.val, hr⟩ l) := by
  obtain ⟨-, -, -, e0, e1, e2, -⟩ := idx_facts t
  unfold iblk
  rw [View.read_apply]
  show V m c main_v20 _ = V m c main_v20 _
  congr 1
  funext a
  apply Fin.ext
  match a with
  | ⟨0, _⟩ => show win0_1.index t 0 * 3 + 1 * k.val = k.val; rw [e0]; omega
  | ⟨1, _⟩ => show win0_1.index t 1 * 360 + 1 * r.val = 360 * t.val + r.val; rw [e1]; omega
  | ⟨2, _⟩ => show win0_1.index t 2 * 128 + 1 * l.val = l.val; rw [e2]; omega

/-- Point `t`'s azimuth block is rows 360 t … of the staged array. -/
theorem iblk2_apply (c : Dev nD) (t : Fin cfg0.N) (r : Fin 360) (l : Fin 128) (hr : 360 * t.val + r.val < 11520) :
    (iblk m c 2 t : S360x128.Idx → EReal) (ix2 r l)
      = (V m c main_v21 : S11520x128.Idx → EReal) (ix2 ⟨360 * t.val + r.val, hr⟩ l) := by
  obtain ⟨-, -, -, -, -, -, e0, e1, -⟩ := idx_facts t
  unfold iblk
  rw [View.read_apply]
  show V m c main_v21 _ = V m c main_v21 _
  congr 1
  funext a
  apply Fin.ext
  match a with
  | ⟨0, _⟩ => show win0_2.index t 0 * 360 + 1 * r.val = 360 * t.val + r.val; rw [e0]; omega
  | ⟨1, _⟩ => show win0_2.index t 1 * 128 + 1 * l.val = l.val; rw [e1]; omega

/-- What point `t` writes back is rows 360 t … of `arrOf` of the staged arrays. -/
theorem flushed_eq (c : Dev nD) (t : Fin cfg0.N) :
    (dats m 0 c).flushed 3 t
      = ((cfg0.win 3).blk t).view.read (Elt Ideal) (arrOf (V m c main_v19) (V m c main_v20) (V m c main_v21)) := by
  show (cfg0.win 3).cut (grid0.coords t) ((dats m 0 c).after 3 t) = _
  rw [after0_3, Block.out_eq]
  have ht : t.val < 32 := Nat.lt_of_lt_of_eq t.isLt (N_0 : cfg0.N = 32)
  funext j
  obtain ⟨k, r, l, rfl⟩ : ∃ (k : Fin 5) (r : Fin 360) (l : Fin 128), j = ix3 k r l := ⟨j 0, j 1, j 2, eq_ix3 j⟩
  have hr : 360 * t.val + r.val < 11520 := by have := r.isLt; omega
  have e : ((cfg0.win 3).blk t).view.emb (ix3 k r l) = ix3 k ⟨360 * t.val + r.val, hr⟩ l := by
    obtain ⟨-, -, -, -, -, -, -, -, e0, e1, e2⟩ := idx_facts t
    funext a
    apply Fin.ext
    match a with
    | ⟨0, _⟩ => show win0_3.index t 0 * 5 + 1 * k.val = k.val; rw [e0]; omega
    | ⟨1, _⟩ => show win0_3.index t 1 * 360 + 1 * r.val = 360 * t.val + r.val; rw [e1]; omega
    | ⟨2, _⟩ => show win0_3.index t 2 * 128 + 1 * l.val = l.val; rw [e2]; omega
  show blockOf (iblk m c 0 t) (iblk m c 1 t) (iblk m c 2 t) (ix3 k r l)
    = arrOf (V m c main_v19) (V m c main_v20) (V m c main_v21) (((cfg0.win 3).blk t).view.emb (ix3 k r l))
  rw [e, blockOf_ix3, arrOf_ix3, iblk0_apply m c t 0 r l hr, iblk0_apply m c t 1 r l hr, iblk0_apply m c t 2 r l hr,
    iblk0_apply m c t 3 r l hr, iblk0_apply m c t 4 r l hr, iblk0_apply m c t 5 r l hr, iblk0_apply m c t 6 r l hr,
    iblk0_apply m c t 7 r l hr, iblk1_apply m c t 0 r l hr, iblk1_apply m c t 1 r l hr, iblk1_apply m c t 2 r l hr,
    iblk2_apply m c t r l hr]

/-- An index of the output array is in point `t`'s block iff each coordinate is in the block's range. -/
theorem mem_blk (t : Fin cfg0.N) (i : S5x11520x128.Idx) :
    i ∈ ((cfg0.win 3).blk t).view.set ↔ ∀ a : Fin 3, win0_3.index t a * S5x360x128.size a ≤ (i a).val
      ∧ (i a).val < win0_3.index t a * S5x360x128.size a + S5x360x128.size a := by
  show i ∈ ((View.whole main_v22).slice (win0_3.rect t)).set ↔ _
  rw [View.set_slice_whole, Rect.mem_set_unit]
  exact Iff.rfl

/-- Row `r` of the output array is written by point `r / 360`. -/
theorem cover (i : S5x11520x128.Idx) :
    ∃ t : Fin cfg0.N, (cfg0.win 3).flush t = true ∧ i ∈ ((cfg0.win 3).blk t).view.set := by
  have h0 : (i 0).val < 5 := (i 0).isLt
  have h1 : (i 1).val < 11520 := (i 1).isLt
  have h2 : (i 2).val < 128 := (i 2).isLt
  have hN : cfg0.N = 32 := N_0
  refine ⟨⟨(i 1).val / 360, by rw [hN]; omega⟩, flush0_3 _, ?_⟩
  obtain ⟨-, -, -, -, -, -, -, -, e0, e1, e2⟩ := idx_facts ⟨(i 1).val / 360, by rw [hN]; omega⟩
  rw [mem_blk]
  intro a
  match a with
  | ⟨0, _⟩ => show win0_3.index _ 0 * 5 ≤ (i 0).val ∧ (i 0).val < win0_3.index _ 0 * 5 + 5; rw [e0]; omega
  | ⟨1, _⟩ => show win0_3.index _ 1 * 360 ≤ (i 1).val ∧ (i 1).val < win0_3.index _ 1 * 360 + 360; rw [e1]; show (i 1).val / 360 * 360 ≤ (i 1).val ∧ (i 1).val < (i 1).val / 360 * 360 + 360; omega
  | ⟨2, _⟩ => show win0_3.index _ 2 * 128 ≤ (i 2).val ∧ (i 2).val < win0_3.index _ 2 * 128 + 128; rw [e2]; omega

/-- The region's output array after the run. -/
theorem final (c : Dev nD) :
    (dats m 0 c).arrAt 3 cfg0.N = arrOf (V m c main_v19) (V m c main_v20) (V m c main_v21) :=
  (dats m 0 c).arrAt_eq_of_cover 3 (arrOf (V m c main_v19) (V m c main_v20) (V m c main_v21))
    (fun t _ => flushed_eq m c t) cover

/-- Plane `j`, row `r`, lane `l` of the staged form-factor array is column `j` of point `n = 128 r + l`. -/
theorem V19_apply (c : Dev nD) (j : Fin 8) (r : Fin 11520) (l : Fin 128) (n : Fin 1474560) (hn : n.val = r.val * 128 + l.val) :
    (V m c main_v19 : S8x11520x128.Idx → EReal) (ix3 j r l) = cffTable (m ((c : Thread nD τ).loc main_arg0)) (m ((c : Thread nD τ).loc main_arg2)) (ix2 n j) := by
  rw [V_cff]
  exact planes_apply (by decide : 1474560 = 11520 * 128) _ _ _ j r l n hn

/-- Plane `j`, row `r`, lane `l` of the staged kinematics array is column `j` of point `n = 128 r + l`. -/
theorem V20_apply (c : Dev nD) (j : Fin 3) (r : Fin 11520) (l : Fin 128) (n : Fin 1474560) (hn : n.val = r.val * 128 + l.val) :
    (V m c main_v20 : S3x11520x128.Idx → EReal) (ix3 j r l) = kinTable (m ((c : Thread nD τ).loc main_arg1)) (m ((c : Thread nD τ).loc main_arg2)) (ix2 n j) := by
  rw [V_kin]
  exact planes_apply (by decide : 1474560 = 11520 * 128) _ _ _ j r l n hn

/-- Row `r`, lane `l` of the staged azimuth array is point `n = 128 r + l`. -/
theorem V21_apply (c : Dev nD) (r : Fin 11520) (l : Fin 128) (n : Fin 1474560) (hn : n.val = r.val * 128 + l.val) :
    (V m c main_v21 : S11520x128.Idx → EReal) (ix2 r l) = ((m ((c : Thread nD τ).loc main_arg3)) : S1474560.Idx → EReal) (ix1 n) := by
  rw [V_phi]
  exact rows_apply _ _ r l n hn

/-- The two operations after the region: the output array flattened to [5, N] and transposed to [N, 5]. -/
theorem tail_eq (c : Dev nD) :
    (Pipeline.afterTail₀ cfgs (dats m) 0 (V0 m) [hostOps1] c main_v24 : S1474560x5.Idx → EReal)
      = transpose S1474560x5 [1, 0] (shapeCast S5x1474560 ((dats m 0 c).arrAt 3 cfg0.N : S5x11520x128.Idx → EReal)
          shapeCasts_S5x11520x128_S5x1474560) transposes_S5x1474560_S1474560x5_1_0 := by
  unfold Pipeline.afterTail₀
  show StableHlo.after hostOps1 _ (Proc.devRef .tc main_v24) = _
  after_results
  have h : Pipeline.withArrays (cfgs 0).spec c (V0 m c) (fun w => (dats m 0 c).arrAt w (cfgs 0).N) (Proc.devRef .tc main_v22)
      = (dats m 0 c).arrAt 3 cfg0.N := Pipeline.withArrays_arr spec0 launch0.win.arr_inj c _ _ 3
  rw [h]
  rfl

/-- The kernel's result: row `n`, column `k` is observable `k` of point `n`'s gathered numbers. -/
theorem result_eq (c : Dev nD) :
    (Pipeline.afterTail₀ cfgs (dats m) 0 (V0 m) [hostOps1] c main_v24 : S1474560x5.Idx → EReal)
      = Cert.Obs.table (cffTable (m ((c : Thread nD τ).loc main_arg0)) (m ((c : Thread nD τ).loc main_arg2)))
          (kinTable (m ((c : Thread nD τ).loc main_arg1)) (m ((c : Thread nD τ).loc main_arg2))) (m ((c : Thread nD τ).loc main_arg3)) := by
  rw [tail_eq, final]
  funext i
  obtain ⟨n, k, rfl⟩ : ∃ (n : Fin 1474560) (k : Fin 5), i = ix2 n k := ⟨i 0, i 1, eq_ix2 i⟩
  have hb : n.val / 128 < 11520 := by have := n.isLt; omega
  have hl : n.val % 128 < 128 := Nat.mod_lt _ (by decide)
  have hn : n.val = (⟨n.val / 128, hb⟩ : Fin 11520).val * 128 + (⟨n.val % 128, hl⟩ : Fin 128).val := by
    show n.val = n.val / 128 * 128 + n.val % 128; omega
  rw [Cert.Obs.table_apply]
  refine (unplanes_apply (by decide : 1474560 = 11520 * 128) _ _ _ n k ⟨n.val / 128, hb⟩ ⟨n.val % 128, hl⟩ hn).trans ?_
  rw [arrOf_ix3, V19_apply m c 0 _ _ n hn, V19_apply m c 1 _ _ n hn, V19_apply m c 2 _ _ n hn, V19_apply m c 3 _ _ n hn,
    V19_apply m c 4 _ _ n hn, V19_apply m c 5 _ _ n hn, V19_apply m c 6 _ _ n hn, V19_apply m c 7 _ _ n hn,
    V20_apply m c 0 _ _ n hn, V20_apply m c 1 _ _ n hn, V20_apply m c 2 _ _ n hn, V21_apply m c _ _ n hn]

/-- The kernel's run, read: the result at `Cert.Obs.table` of the gathered tables and the azimuths, the arguments unchanged. -/
theorem run : θ_run defs (onTc (τ := τ) (main (F := Ideal))) ⟨m, fun _ => 0, ρ⟩ fun r => ∀ c : Dev nD,
      r.2.mem ((c.tc : Thread nD τ).loc main_v24)
        = Cert.Obs.table (cffTable (m ((c : Thread nD τ).loc main_arg0)) (m ((c : Thread nD τ).loc main_arg2)))
            (kinTable (m ((c : Thread nD τ).loc main_arg1)) (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KValue

end
-- ==== Proof.RefOps.lean ====
/-
  The reference's @main as LISTS of its host operations, one list per printed window, in program order. The one
  call of the outlined select (a conversion that is the identity, a broadcast, a select) is listed at its call
  site over that call's own buffers, as the inlined program runs it. ops is the concatenation of the windows:
  352 operations. The lists say what runs; what the run leaves in each buffer is proved from them elsewhere.
-/
import proofs.«168588_j79491254715037_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 60 operations of the printed window main_part0, in order. -/
def ops0 : List (HloOp τ sig (Elt F)) :=
  [ StableHlo.nullary main_cst (fun i => FloatOps.ofBits .f32 (lit0 (S8.rowMajor i))),
    StableHlo.unary main_cst main_v0 (broadcastInDim S1x8 ![1] bcast_S8_S1x8_1 : (⟨S8, .f32⟩ : BufTy).Contents (Elt F) → (⟨S1x8, .f32⟩ : BufTy).Contents (Elt F)),
    StableHlo.unary main_v0 main_v1 (broadcastInDim S4096x8 ![0, 1] bcast_S1x8_S4096x8_0_1 : (⟨S1x8, .f32⟩ : BufTy).Contents (Elt F) → (⟨S4096x8, .f32⟩ : BufTy).Contents (Elt F)),
    StableHlo.binary main_arg0 main_v1 main_v2 (mulf : (⟨S4096x8, .f32⟩ : BufTy).Contents (Elt F) → (⟨S4096x8, .f32⟩ : BufTy).Contents (Elt F) → (⟨S4096x8, .f32⟩ : BufTy).Contents (Elt F)),
    StableHlo.nullary main_c (constantI S_ 32 0#32),
    StableHlo.unary main_c main_v3 (broadcastInDim S1474560 ![] bcast_S_S1474560 : (⟨S_, .i32⟩ : BufTy).Contents (Elt F) → (⟨S1474560, .i32⟩ : BufTy).Contents (Elt F)),
    StableHlo.binary main_arg2 main_v3 main_v4 (cmpi .slt : (⟨S1474560, .i32⟩ : BufTy).Contents (Elt F) → (⟨S1474560, .i32⟩ : BufTy).Contents (Elt F) → (⟨S1474560, .i1⟩ : BufTy).Contents (Elt F)),
    StableHlo.nullary main_c_0 (constantI S_ 32 4096#32),
    StableHlo.unary main_c_0 main_v5 (broadcastInDim S1474560 ![] bcast_S_S1474560 : (⟨S_, .i32⟩ : BufTy).Contents (Elt F) → (⟨S1474560, .i32⟩ : BufTy).Contents (Elt F)),
    StableHlo.binary main_arg2 main_v5 main_v6 (addi : (⟨S1474560, .i32⟩ : BufTy).Contents (Elt F) → (⟨S1474560, .i32⟩ : BufTy).Contents (Elt F) → (⟨S1474560, .i32⟩ : BufTy).Contents (Elt F)),
    StableHlo.ternary main_v4 main_v6 main_arg2 main_v7 (select : (⟨S1474560, .i1⟩ : BufTy).Contents (Elt F) → (⟨S1474560, .i32⟩ : BufTy).Contents (Elt F) → (⟨S1474560, .i32⟩ : BufTy).Contents (Elt F) → (⟨S1474560, .i32⟩ : BufTy).Contents (Elt F)),
    StableHlo.unary main_v7 main_v8 (broadcastInDim S1474560x1 ![0] bcast_S1474560_S1474560x1_0 : (⟨S1474560, .i32⟩ : BufTy).Contents (Elt F) → (⟨S1474560x1, .i32⟩ : BufTy).Contents (Elt F)),
    StableHlo.binary main_v2 main_v8 main_v9 ((fun x i => Host.gather gather_S4096x8_S1474560x1_S1474560x8_1_0_n_n_0_1_18 x i) : (⟨S4096x8, .f32⟩ : BufTy).Contents (Elt F) → (⟨S1474560x1, .i32⟩ : BufTy).Contents (Elt F) → (⟨S1474560x8, .f32⟩ : BufTy).Contents (Elt F)),
    StableHlo.nullary main_c_1 (constantI S_ 32 0#32),
    StableHlo.unary main_c_1 main_v10 (broadcastInDim S1474560 ![] bcast_S_S1474560 : (⟨S_, .i32⟩ : BufTy).Contents (Elt F) → (⟨S1474560, .i32⟩ : BufTy).Contents (Elt F)),
    StableHlo.binary main_arg2 main_v10 main_v11 (cmpi .slt : (⟨S1474560, .i32⟩ : BufTy).Contents (Elt F) → (⟨S1474560, .i32⟩ : BufTy).Contents (Elt F) → (⟨S1474560, .i1⟩ : BufTy).Contents (Elt F)),
    StableHlo.nullary main_c_2 (constantI S_ 32 4096#32),
    StableHlo.unary main_c_2 main_v12 (broadcastInDim S1474560 ![] bcast_S_S1474560 : (⟨S_, .i32⟩ : BufTy).Contents (Elt F) → (⟨S1474560, .i32⟩ : BufTy).Contents (Elt F)),
    StableHlo.binary main_arg2 main_v12 main_v13 (addi : (⟨S1474560, .i32⟩ : BufTy).Contents (Elt F) → (⟨S1474560, .i32⟩ : BufTy).Contents (Elt F) → (⟨S1474560, .i32⟩ : BufTy).Contents (Elt F)),
    StableHlo.ternary main_v11 main_v13 main_arg2 main_v14 (select : (⟨S1474560, .i1⟩ : BufTy).Contents (Elt F) → (⟨S1474560, .i32⟩ : BufTy).Contents (Elt F) → (⟨S1474560, .i32⟩ : BufTy).Contents (Elt F) → (⟨S1474560, .i32⟩ : BufTy).Contents (Elt F)),
    StableHlo.unary main_v14 main_v15 (broadcastInDim S1474560x1 ![0] bcast_S1474560_S1474560x1_0 : (⟨S1474560, .i32⟩ : BufTy).Contents (Elt F) → (⟨S1474560x1, .i32⟩ : BufTy).Contents (Elt F)),
    StableHlo.binary main_arg1 main_v15 main_v16 ((fun x i => Host.gather gather_S4096x3_S1474560x1_S1474560x3_1_0_n_n_0_1_13 x i) : (⟨S4096x3, .f32⟩ : BufTy).Contents (Elt F) → (⟨S1474560x1, .i32⟩ : BufTy).Contents (Elt F) → (⟨S1474560x3, .f32⟩ : BufTy).Contents (Elt F)),
    StableHlo.unary main_v16 main_v17 ((extractStridedSlice S1474560x1 ![0, 0] · slices_S1474560x3_S1474560x1_0_0) : (⟨S1474560x3, .f32⟩ : BufTy).Contents (Elt F) → (⟨S1474560x1, .f32⟩ : BufTy).Contents (Elt F)),
    StableHlo.reshape main_v17 main_v18 rfl shapeCasts_S1474560x1_S1474560,
    StableHlo.unary main_v16 main_v19 ((extractStridedSlice S1474560x1 ![0, 1] · slices_S1474560x3_S1474560x1_0_1) : (⟨S1474560x3, .f32⟩ : BufTy).Contents (Elt F) → (⟨S1474560x1, .f32⟩ : BufTy).Contents (Elt F)),
    StableHlo.reshape main_v19 main_v20 rfl shapeCasts_S1474560x1_S1474560,
    StableHlo.unary main_v16 main_v21 ((extractStridedSlice S1474560x1 ![0, 2] · slices_S1474560x3_S1474560x1_0_2) : (⟨S1474560x3, .f32⟩ : BufTy).Contents (Elt F) → (⟨S1474560x1, .f32⟩ : BufTy).Contents (Elt F)),
    StableHlo.reshape main_v21 main_v22 rfl shapeCasts_S1474560x1_S1474560,
    StableHlo.unary main_v9 main_v23 ((extractStridedSlice S1474560x1 ![0, 0] · slices_S1474560x8_S1474560x1_0_0) : (⟨S1474560x8, .f32⟩ : BufTy).Contents (Elt F) → (⟨S1474560x1, .f32⟩ : BufTy).Contents (Elt F)),
    StableHlo.reshape main_v23 main_v24 rfl shapeCasts_S1474560x1_S1474560,
    StableHlo.unary main_v9 main_v25 ((extractStridedSlice S1474560x1 ![0, 1] · slices_S1474560x8_S1474560x1_0_1) : (⟨S1474560x8, .f32⟩ : BufTy).Contents (Elt F) → (⟨S1474560x1, .f32⟩ : BufTy).Contents (Elt F)),
    StableHlo.reshape main_v25 main_v26 rfl shapeCasts_S1474560x1_S1474560,
    StableHlo.unary main_v9 main_v27 ((extractStridedSlice S1474560x1 ![0, 2] · slices_S1474560x8_S1474560x1_0_2) : (⟨S1474560x8, .f32⟩ : BufTy).Contents (Elt F) → (⟨S1474560x1, .f32⟩ : BufTy).Contents (Elt F)),
    StableHlo.reshape main_v27 main_v28 rfl shapeCasts_S1474560x1_S1474560,
    StableHlo.unary main_v9 main_v29 ((extractStridedSlice S1474560x1 ![0, 3] · slices_S1474560x8_S1474560x1_0_3) : (⟨S1474560x8, .f32⟩ : BufTy).Contents (Elt F) → (⟨S1474560x1, .f32⟩ : BufTy).Contents (Elt F)),
    StableHlo.reshape main_v29 main_v30 rfl shapeCasts_S1474560x1_S1474560,
    StableHlo.unary main_v9 main_v31 ((extractStridedSlice S1474560x1 ![0, 4] · slices_S1474560x8_S1474560x1_0_4) : (⟨S1474560x8, .f32⟩ : BufTy).Contents (Elt F) → (⟨S1474560x1, .f32⟩ : BufTy).Contents (Elt F)),
    StableHlo.reshape main_v31 main_v32 rfl shapeCasts_S1474560x1_S1474560,
    StableHlo.unary main_v9 main_v33 ((extractStridedSlice S1474560x1 ![0, 5] · slices_S1474560x8_S1474560x1_0_5) : (⟨S1474560x8, .f32⟩ : BufTy).Contents (Elt F) → (⟨S1474560x1, .f32⟩ : BufTy).Contents (Elt F)),
    StableHlo.reshape main_v33 main_v34 rfl shapeCasts_S1474560x1_S1474560,
    StableHlo.unary main_v9 main_v35 ((extractStridedSlice S1474560x1 ![0, 6] · slices_S1474560x8_S1474560x1_0_6) : (⟨S1474560x8, .f32⟩ : BufTy).Contents (Elt F) → (⟨S1474560x1, .f32⟩ : BufTy).Contents (Elt F)),
    StableHlo.reshape main_v35 main_v36 rfl shapeCasts_S1474560x1_S1474560,
    StableHlo.unary main_v9 main_v37 ((extractStridedSlice S1474560x1 ![0, 7] · slices_S1474560x8_S1474560x1_0_7) : (⟨S1474560x8, .f32⟩ : BufTy).Contents (Elt F) → (⟨S1474560x1, .f32⟩ : BufTy).Contents (Elt F)),
    StableHlo.reshape main_v37 main_v38 rfl shapeCasts_S1474560x1_S1474560,
    StableHlo.nullary main_cst_3 (constant S_ .f32 0x412CA45D#32),
    StableHlo.unary main_cst_3 main_v39 (broadcastInDim S1474560 ![] bcast_S_S1474560 : (⟨S_, .f32⟩ : BufTy).Contents (Elt F) → (⟨S1474560, .f32⟩ : BufTy).Contents (Elt F)),
    StableHlo.binary main_v39 main_v20 main_v40 (mulf : (⟨S1474560, .f32⟩ : BufTy).Contents (Elt F) → (⟨S1474560, .f32⟩ : BufTy).Contents (Elt F) → (⟨S1474560, .f32⟩ : BufTy).Contents (Elt F)),
    StableHlo.binary main_v22 main_v40 main_v41 (Host.divf : (⟨S1474560, .f32⟩ : BufTy).Contents (Elt F) → (⟨S1474560, .f32⟩ : BufTy).Contents (Elt F) → (⟨S1474560, .f32⟩ : BufTy).Contents (Elt F)),
    StableHlo.nullary main_cst_4 (constant S_ .f32 0x40800000#32),
    StableHlo.unary main_cst_4 main_v42 (broadcastInDim S1474560 ![] bcast_S_S1474560 : (⟨S_, .f32⟩ : BufTy).Contents (Elt F) → (⟨S1474560, .f32⟩ : BufTy).Contents (Elt F)),
    StableHlo.binary main_v42 main_v20 main_v43 (mulf : (⟨S1474560, .f32⟩ : BufTy).Contents (Elt F) → (⟨S1474560, .f32⟩ : BufTy).Contents (Elt F) → (⟨S1474560, .f32⟩ : BufTy).Contents (Elt F)),
    StableHlo.binary main_v43 main_v20 main_v44 (mulf : (⟨S1474560, .f32⟩ : BufTy).Contents (Elt F) → (⟨S1474560, .f32⟩ : BufTy).Contents (Elt F) → (⟨S1474560, .f32⟩ : BufTy).Contents (Elt F)),
    StableHlo.nullary main_cst_5 (constant S_ .f32 0x3F615EE7#32),
    StableHlo.unary main_cst_5 main_v45 (broadcastInDim S1474560 ![] bcast_S_S1474560 : (⟨S_, .f32⟩ : BufTy).Contents (Elt F) → (⟨S1474560, .f32⟩ : BufTy).Contents (Elt F)),
    StableHlo.binary main_v44 main_v45 main_v46 (mulf : (⟨S1474560, .f32⟩ : BufTy).Contents (Elt F) → (⟨S1474560, .f32⟩ : BufTy).Contents (Elt F) → (⟨S1474560, .f32⟩ : BufTy).Contents (Elt F)),
    StableHlo.binary main_v46 main_v22 main_v47 (Host.divf : (⟨S1474560, .f32⟩ : BufTy).Contents (Elt F) → (⟨S1474560, .f32⟩ : BufTy).Contents (Elt F) → (⟨S1474560, .f32⟩ : BufTy).Contents (Elt F)),
    StableHlo.nullary main_cst_6 (constant S_ .f32 0x40000000#32),
    StableHlo.unary main_cst_6 main_v48 (broadcastInDim S1474560 ![] bcast_S_S1474560 : (⟨S_, .f32⟩ : BufTy).Contents (Elt F) → (⟨S1474560, .f32⟩ : BufTy).Contents (Elt F)),
    StableHlo.binary main_v48 main_v22 main_v49 (mulf : (⟨S1474560, .f32⟩ : BufTy).Contents (Elt F) → (⟨S1474560, .f32⟩ : BufTy).Contents (Elt F) → (⟨S1474560, .f32⟩ : BufTy).Contents (Elt F)),
    StableHlo.binary main_v18 main_v49 main_v50 (Host.divf : (⟨S1474560, .f32⟩ : BufTy).Contents (Elt F) → (⟨S1474560, .f32⟩ : BufTy).Contents (Elt F) → (⟨S1474560, .f32⟩ : BufTy).Contents (Elt F)) ]

/-- The 60 operations of the printed window main_part1, in order. -/
def ops1 : List (HloOp τ sig (Elt F)) :=
  [ StableHlo.nullary main_cst_7 (constant S_ .f32 0x3F800000#32),
    StableHlo.unary main_cst_7 main_v51 (broadcastInDim S1474560 ![] bcast_S_S1474560 : (⟨S_, .f32⟩ : BufTy).Contents (Elt F) → (⟨S1474560, .f32⟩ : BufTy).Contents (Elt F)),
    StableHlo.binary main_v51 main_v50 main_v52 (addf : (⟨S1474560, .f32⟩ : BufTy).Contents (Elt F) → (⟨S1474560, .f32⟩ : BufTy).Contents (Elt F) → (⟨S1474560, .f32⟩ : BufTy).Contents (Elt F)),
    StableHlo.binary main_v20 main_v52 main_v53 (mulf : (⟨S1474560, .f32⟩ : BufTy).Contents (Elt F) → (⟨S1474560, .f32⟩ : BufTy).Contents (Elt F) → (⟨S1474560, .f32⟩ : BufTy).Contents (Elt F)),
    StableHlo.nullary main_cst_8 (constant S_ .f32 0x40000000#32),
    StableHlo.unary main_cst_8 main_v54 (broadcastInDim S1474560 ![] bcast_S_S1474560 : (⟨S_, .f32⟩ : BufTy).Contents (Elt F) → (⟨S1474560, .f32⟩ : BufTy).Contents (Elt F)),
    StableHlo.binary main_v54 main_v20 main_v55 (subf : (⟨S1474560, .f32⟩ : BufTy).Contents (Elt F) → (⟨S1474560, .f32⟩ : BufTy).Contents (Elt F) → (⟨S1474560, .f32⟩ : BufTy).Contents (Elt F)),
    StableHlo.binary main_v20 main_v18 main_v56 (mulf : (⟨S1474560, .f32⟩ : BufTy).Contents (Elt F) → (⟨S1474560, .f32⟩ : BufTy).Contents (Elt F) → (⟨S1474560, .f32⟩ : BufTy).Contents (Elt F)),
    StableHlo.binary main_v56 main_v22 main_v57 (Host.divf : (⟨S1474560, .f32⟩ : BufTy).Contents (Elt F) → (⟨S1474560, .f32⟩ : BufTy).Contents (Elt F) → (⟨S1474560, .f32⟩ : BufTy).Contents (Elt F)),
    StableHlo.binary main_v55 main_v57 main_v58 (addf : (⟨S1474560, .f32⟩ : BufTy).Contents (Elt F) → (⟨S1474560, .f32⟩ : BufTy).Contents (Elt F) → (⟨S1474560, .f32⟩ : BufTy).Contents (Elt F)),
    StableHlo.binary main_v53 main_v58 main_v59 (Host.divf : (⟨S1474560, .f32⟩ : BufTy).Contents (Elt F) → (⟨S1474560, .f32⟩ : BufTy).Contents (Elt F) → (⟨S1474560, .f32⟩ : BufTy).Contents (Elt F)),
    StableHlo.unary main_v18 main_v60 (Host.negf : (⟨S1474560, .f32⟩ : BufTy).Contents (Elt F) → (⟨S1474560, .f32⟩ : BufTy).Contents (Elt F)),
    StableHlo.nullary main_cst_9 (constant S_ .f32 0x40615EE7#32),
    StableHlo.unary main_cst_9 main_v61 (broadcastInDim S1474560 ![] bcast_S_S1474560 : (⟨S_, .f32⟩ : BufTy).Contents (Elt F) → (⟨S1474560, .f32⟩ : BufTy).Contents (Elt F)),
    StableHlo.binary main_v60 main_v61 main_v62 (Host.divf : (⟨S1474560, .f32⟩ : BufTy).Contents (Elt F) → (⟨S1474560, .f32⟩ : BufTy).Contents (Elt F) → (⟨S1474560, .f32⟩ : BufTy).Contents (Elt F)),
    StableHlo.nullary main_cst_10 (constant S_ .f32 0x3F35ED18#32),
    StableHlo.unary main_cst_10 main_v63 (broadcastInDim S1474560 ![] bcast_S_S1474560 : (⟨S_, .f32⟩ : BufTy).Contents (Elt F) → (⟨S1474560, .f32⟩ : BufTy).Contents (Elt F)),
    StableHlo.binary main_v18 main_v63 main_v64 (Host.divf : (⟨S1474560, .f32⟩ : BufTy).Contents (Elt F) → (⟨S1474560, .f32⟩ : BufTy).Contents (Elt F) → (⟨S1474560, .f32⟩ : BufTy).Contents (Elt F)),
    StableHlo.nullary main_cst_11 (constant S_ .f32 0x3F800000#32),
    StableHlo.unary main_cst_11 main_v65 (broadcastInDim S1474560 ![] bcast_S_S1474560 : (⟨S_, .f32⟩ : BufTy).Contents (Elt F) → (⟨S1474560, .f32⟩ : BufTy).Contents (Elt F)),
    StableHlo.binary main_v65 main_v64 main_v66 (subf : (⟨S1474560, .f32⟩ : BufTy).Contents (Elt F) → (⟨S1474560, .f32⟩ : BufTy).Contents (Elt F) → (⟨S1474560, .f32⟩ : BufTy).Contents (Elt F)),
    StableHlo.binary main_v66 main_v66 main_v67 (mulf : (⟨S1474560, .f32⟩ : BufTy).Contents (Elt F) → (⟨S1474560, .f32⟩ : BufTy).Contents (Elt F) → (⟨S1474560, .f32⟩ : BufTy).Contents (Elt F)),
    StableHlo.nullary main_cst_12 (constant S_ .f32 0x3F800000#32),
    StableHlo.unary main_cst_12 main_v68 (broadcastInDim S1474560 ![] bcast_S_S1474560 : (⟨S_, .f32⟩ : BufTy).Contents (Elt F) → (⟨S1474560, .f32⟩ : BufTy).Contents (Elt F)),
    StableHlo.binary main_v68 main_v67 main_v69 (Host.divf : (⟨S1474560, .f32⟩ : BufTy).Contents (Elt F) → (⟨S1474560, .f32⟩ : BufTy).Contents (Elt F) → (⟨S1474560, .f32⟩ : BufTy).Contents (Elt F)),
    StableHlo.nullary main_cst_13 (constant S_ .f32 0x4032BE0E#32),
    StableHlo.unary main_cst_13 main_v70 (broadcastInDim S1474560 ![] bcast_S_S1474560 : (⟨S_, .f32⟩ : BufTy).Contents (Elt F) → (⟨S1474560, .f32⟩ : BufTy).Contents (Elt F)),
    StableHlo.binary main_v62 main_v70 main_v71 (mulf : (⟨S1474560, .f32⟩ : BufTy).Contents (Elt F) → (⟨S1474560, .f32⟩ : BufTy).Contents (Elt F) → (⟨S1474560, .f32⟩ : BufTy).Contents (Elt F)),
    StableHlo.nullary main_cst_14 (constant S_ .f32 0x3F800000#32),
    StableHlo.unary main_cst_14 main_v72 (broadcastInDim S1474560 ![] bcast_S_S1474560 : (⟨S_, .f32⟩ : BufTy).Contents (Elt F) → (⟨S1474560, .f32⟩ : BufTy).Contents (Elt F)),
    StableHlo.binary main_v72 main_v71 main_v73 (addf : (⟨S1474560, .f32⟩ : BufTy).Contents (Elt F) → (⟨S1474560, .f32⟩ : BufTy).Contents (Elt F) → (⟨S1474560, .f32⟩ : BufTy).Contents (Elt F)),
    StableHlo.binary main_v69 main_v73 main_v74 (mulf : (⟨S1474560, .f32⟩ : BufTy).Contents (Elt F) → (⟨S1474560, .f32⟩ : BufTy).Contents (Elt F) → (⟨S1474560, .f32⟩ : BufTy).Contents (Elt F)),
    StableHlo.nullary main_cst_15 (constant S_ .f32 0x3F800000#32),
    StableHlo.unary main_cst_15 main_v75 (broadcastInDim S1474560 ![] bcast_S_S1474560 : (⟨S_, .f32⟩ : BufTy).Contents (Elt F) → (⟨S1474560, .f32⟩ : BufTy).Contents (Elt F)),
    StableHlo.binary main_v75 main_v62 main_v76 (addf : (⟨S1474560, .f32⟩ : BufTy).Contents (Elt F) → (⟨S1474560, .f32⟩ : BufTy).Contents (Elt F) → (⟨S1474560, .f32⟩ : BufTy).Contents (Elt F)),
    StableHlo.binary main_v74 main_v76 main_v77 (Host.divf : (⟨S1474560, .f32⟩ : BufTy).Contents (Elt F) → (⟨S1474560, .f32⟩ : BufTy).Contents (Elt F) → (⟨S1474560, .f32⟩ : BufTy).Contents (Elt F)),
    StableHlo.nullary main_cst_16 (constant S_ .f32 0x3FE57C1C#32),
    StableHlo.unary main_cst_16 main_v78 (broadcastInDim S1474560 ![] bcast_S_S1474560 : (⟨S_, .f32⟩ : BufTy).Contents (Elt F) → (⟨S1474560, .f32⟩ : BufTy).Contents (Elt F)),
    StableHlo.binary main_v69 main_v78 main_v79 (mulf : (⟨S1474560, .f32⟩ : BufTy).Contents (Elt F) → (⟨S1474560, .f32⟩ : BufTy).Contents (Elt F) → (⟨S1474560, .f32⟩ : BufTy).Contents (Elt F)),
    StableHlo.nullary main_cst_17 (constant S_ .f32 0x3F800000#32),
    StableHlo.unary main_cst_17 main_v80 (broadcastInDim S1474560 ![] bcast_S_S1474560 : (⟨S_, .f32⟩ : BufTy).Contents (Elt F) → (⟨S1474560, .f32⟩ : BufTy).Contents (Elt F)),
    StableHlo.binary main_v80 main_v62 main_v81 (addf : (⟨S1474560, .f32⟩ : BufTy).Contents (Elt F) → (⟨S1474560, .f32⟩ : BufTy).Contents (Elt F) → (⟨S1474560, .f32⟩ : BufTy).Contents (Elt F)),
    StableHlo.binary main_v79 main_v81 main_v82 (Host.divf : (⟨S1474560, .f32⟩ : BufTy).Contents (Elt F) → (⟨S1474560, .f32⟩ : BufTy).Contents (Elt F) → (⟨S1474560, .f32⟩ : BufTy).Contents (Elt F)),
    StableHlo.unary main_v18 main_v83 (Host.negf : (⟨S1474560, .f32⟩ : BufTy).Contents (Elt F) → (⟨S1474560, .f32⟩ : BufTy).Contents (Elt F)),
    StableHlo.binary main_v83 main_v22 main_v84 (Host.divf : (⟨S1474560, .f32⟩ : BufTy).Contents (Elt F) → (⟨S1474560, .f32⟩ : BufTy).Contents (Elt F) → (⟨S1474560, .f32⟩ : BufTy).Contents (Elt F)),
    StableHlo.nullary main_cst_18 (constant S_ .f32 0x3F800000#32),
    StableHlo.unary main_cst_18 main_v85 (broadcastInDim S1474560 ![] bcast_S_S1474560 : (⟨S_, .f32⟩ : BufTy).Contents (Elt F) → (⟨S1474560, .f32⟩ : BufTy).Contents (Elt F)),
    StableHlo.binary main_v85 main_v20 main_v86 (subf : (⟨S1474560, .f32⟩ : BufTy).Contents (Elt F) → (⟨S1474560, .f32⟩ : BufTy).Contents (Elt F) → (⟨S1474560, .f32⟩ : BufTy).Contents (Elt F)),
    StableHlo.binary main_v84 main_v86 main_v87 (mulf : (⟨S1474560, .f32⟩ : BufTy).Contents (Elt F) → (⟨S1474560, .f32⟩ : BufTy).Contents (Elt F) → (⟨S1474560, .f32⟩ : BufTy).Contents (Elt F)),
    StableHlo.nullary main_cst_19 (constant S_ .f32 0x3F800000#32),
    StableHlo.unary main_cst_19 main_v88 (broadcastInDim S1474560 ![] bcast_S_S1474560 : (⟨S_, .f32⟩ : BufTy).Contents (Elt F) → (⟨S1474560, .f32⟩ : BufTy).Contents (Elt F)),
    StableHlo.binary main_v88 main_v41 main_v89 (subf : (⟨S1474560, .f32⟩ : BufTy).Contents (Elt F) → (⟨S1474560, .f32⟩ : BufTy).Contents (Elt F) → (⟨S1474560, .f32⟩ : BufTy).Contents (Elt F)),
    StableHlo.nullary main_cst_20 (constant S_ .f32 0x3E800000#32),
    StableHlo.unary main_cst_20 main_v90 (broadcastInDim S1474560 ![] bcast_S_S1474560 : (⟨S_, .f32⟩ : BufTy).Contents (Elt F) → (⟨S1474560, .f32⟩ : BufTy).Contents (Elt F)),
    StableHlo.binary main_v90 main_v41 main_v91 (mulf : (⟨S1474560, .f32⟩ : BufTy).Contents (Elt F) → (⟨S1474560, .f32⟩ : BufTy).Contents (Elt F) → (⟨S1474560, .f32⟩ : BufTy).Contents (Elt F)),
    StableHlo.binary main_v91 main_v41 main_v92 (mulf : (⟨S1474560, .f32⟩ : BufTy).Contents (Elt F) → (⟨S1474560, .f32⟩ : BufTy).Contents (Elt F) → (⟨S1474560, .f32⟩ : BufTy).Contents (Elt F)),
    StableHlo.binary main_v92 main_v47 main_v93 (mulf : (⟨S1474560, .f32⟩ : BufTy).Contents (Elt F) → (⟨S1474560, .f32⟩ : BufTy).Contents (Elt F) → (⟨S1474560, .f32⟩ : BufTy).Contents (Elt F)),
    StableHlo.binary main_v89 main_v93 main_v94 (subf : (⟨S1474560, .f32⟩ : BufTy).Contents (Elt F) → (⟨S1474560, .f32⟩ : BufTy).Contents (Elt F) → (⟨S1474560, .f32⟩ : BufTy).Contents (Elt F)),
    StableHlo.binary main_v87 main_v94 main_v95 (mulf : (⟨S1474560, .f32⟩ : BufTy).Contents (Elt F) → (⟨S1474560, .f32⟩ : BufTy).Contents (Elt F) → (⟨S1474560, .f32⟩ : BufTy).Contents (Elt F)),
    StableHlo.nullary main_cst_21 (constant S_ .f32 0x322BCC77#32) ]

/-- The 60 operations of the printed window main_part2, in order. -/
def ops2 : List (HloOp τ sig (Elt F)) :=
  [ StableHlo.unary main_cst_21 main_v96 (broadcastInDim S1474560 ![] bcast_S_S1474560 : (⟨S_, .f32⟩ : BufTy).Contents (Elt F) → (⟨S1474560, .f32⟩ : BufTy).Contents (Elt F)),
    StableHlo.binary main_v95 main_v96 main_v97 (maximumf : (⟨S1474560, .f32⟩ : BufTy).Contents (Elt F) → (⟨S1474560, .f32⟩ : BufTy).Contents (Elt F) → (⟨S1474560, .f32⟩ : BufTy).Contents (Elt F)),
    StableHlo.unary main_v97 main_v98 (Host.sqrt : (⟨S1474560, .f32⟩ : BufTy).Contents (Elt F) → (⟨S1474560, .f32⟩ : BufTy).Contents (Elt F)),
    StableHlo.unary main_arg3 main_v99 (Host.cos : (⟨S1474560, .f32⟩ : BufTy).Contents (Elt F) → (⟨S1474560, .f32⟩ : BufTy).Contents (Elt F)),
    StableHlo.unary main_arg3 main_v100 (Host.sin : (⟨S1474560, .f32⟩ : BufTy).Contents (Elt F) → (⟨S1474560, .f32⟩ : BufTy).Contents (Elt F)),
    StableHlo.nullary main_cst_22 (constant S_ .f32 0x40000000#32),
    StableHlo.unary main_cst_22 main_v101 (broadcastInDim S1474560 ![] bcast_S_S1474560 : (⟨S_, .f32⟩ : BufTy).Contents (Elt F) → (⟨S1474560, .f32⟩ : BufTy).Contents (Elt F)),
    StableHlo.binary main_v101 main_v98 main_v102 (mulf : (⟨S1474560, .f32⟩ : BufTy).Contents (Elt F) → (⟨S1474560, .f32⟩ : BufTy).Contents (Elt F) → (⟨S1474560, .f32⟩ : BufTy).Contents (Elt F)),
    StableHlo.binary main_v102 main_v99 main_v103 (mulf : (⟨S1474560, .f32⟩ : BufTy).Contents (Elt F) → (⟨S1474560, .f32⟩ : BufTy).Contents (Elt F) → (⟨S1474560, .f32⟩ : BufTy).Contents (Elt F)),
    StableHlo.nullary main_cst_23 (constant S_ .f32 0x3F800000#32),
    StableHlo.unary main_cst_23 main_v104 (broadcastInDim S1474560 ![] bcast_S_S1474560 : (⟨S_, .f32⟩ : BufTy).Contents (Elt F) → (⟨S1474560, .f32⟩ : BufTy).Contents (Elt F)),
    StableHlo.binary main_v104 main_v103 main_v105 (addf : (⟨S1474560, .f32⟩ : BufTy).Contents (Elt F) → (⟨S1474560, .f32⟩ : BufTy).Contents (Elt F) → (⟨S1474560, .f32⟩ : BufTy).Contents (Elt F)),
    StableHlo.binary main_v105 main_v97 main_v106 (addf : (⟨S1474560, .f32⟩ : BufTy).Contents (Elt F) → (⟨S1474560, .f32⟩ : BufTy).Contents (Elt F) → (⟨S1474560, .f32⟩ : BufTy).Contents (Elt F)),
    StableHlo.nullary main_cst_24 (constant S_ .f32 0x40000000#32),
    StableHlo.unary main_cst_24 main_v107 (broadcastInDim S1474560 ![] bcast_S_S1474560 : (⟨S_, .f32⟩ : BufTy).Contents (Elt F) → (⟨S1474560, .f32⟩ : BufTy).Contents (Elt F)),
    StableHlo.binary main_v107 main_v98 main_v108 (mulf : (⟨S1474560, .f32⟩ : BufTy).Contents (Elt F) → (⟨S1474560, .f32⟩ : BufTy).Contents (Elt F) → (⟨S1474560, .f32⟩ : BufTy).Contents (Elt F)),
    StableHlo.binary main_v108 main_v99 main_v109 (mulf : (⟨S1474560, .f32⟩ : BufTy).Contents (Elt F) → (⟨S1474560, .f32⟩ : BufTy).Contents (Elt F) → (⟨S1474560, .f32⟩ : BufTy).Contents (Elt F)),
    StableHlo.nullary main_cst_25 (constant S_ .f32 0x3F800000#32),
    StableHlo.unary main_cst_25 main_v110 (broadcastInDim S1474560 ![] bcast_S_S1474560 : (⟨S_, .f32⟩ : BufTy).Contents (Elt F) → (⟨S1474560, .f32⟩ : BufTy).Contents (Elt F)),
    StableHlo.binary main_v110 main_v109 main_v111 (subf : (⟨S1474560, .f32⟩ : BufTy).Contents (Elt F) → (⟨S1474560, .f32⟩ : BufTy).Contents (Elt F) → (⟨S1474560, .f32⟩ : BufTy).Contents (Elt F)),
    StableHlo.binary main_v111 main_v97 main_v112 (addf : (⟨S1474560, .f32⟩ : BufTy).Contents (Elt F) → (⟨S1474560, .f32⟩ : BufTy).Contents (Elt F) → (⟨S1474560, .f32⟩ : BufTy).Contents (Elt F)),
    StableHlo.binary main_v106 main_v112 main_v113 (mulf : (⟨S1474560, .f32⟩ : BufTy).Contents (Elt F) → (⟨S1474560, .f32⟩ : BufTy).Contents (Elt F) → (⟨S1474560, .f32⟩ : BufTy).Contents (Elt F)),
    StableHlo.nullary main_cst_26 (constant S_ .f32 0x40000000#32),
    StableHlo.unary main_cst_26 main_v114 (broadcastInDim S1474560 ![] bcast_S_S1474560 : (⟨S_, .f32⟩ : BufTy).Contents (Elt F) → (⟨S1474560, .f32⟩ : BufTy).Contents (Elt F)),
    StableHlo.binary main_v114 main_v59 main_v115 (mulf : (⟨S1474560, .f32⟩ : BufTy).Contents (Elt F) → (⟨S1474560, .f32⟩ : BufTy).Contents (Elt F) → (⟨S1474560, .f32⟩ : BufTy).Contents (Elt F)),
    StableHlo.nullary main_cst_27 (constant S_ .f32 0x3F800000#32),
    StableHlo.unary main_cst_27 main_v116 (broadcastInDim S1474560 ![] bcast_S_S1474560 : (⟨S_, .f32⟩ : BufTy).Contents (Elt F) → (⟨S1474560, .f32⟩ : BufTy).Contents (Elt F)),
    StableHlo.binary main_v116 main_v59 main_v117 (addf : (⟨S1474560, .f32⟩ : BufTy).Contents (Elt F) → (⟨S1474560, .f32⟩ : BufTy).Contents (Elt F) → (⟨S1474560, .f32⟩ : BufTy).Contents (Elt F)),
    StableHlo.binary main_v115 main_v117 main_v118 (Host.divf : (⟨S1474560, .f32⟩ : BufTy).Contents (Elt F) → (⟨S1474560, .f32⟩ : BufTy).Contents (Elt F) → (⟨S1474560, .f32⟩ : BufTy).Contents (Elt F)),
    StableHlo.binary main_v77 main_v24 main_v119 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v120 (addf : (⟨S1474560, .f32⟩ : BufTy).Contents (Elt F) → (⟨S1474560, .f32⟩ : BufTy).Contents (Elt F) → (⟨S1474560, .f32⟩ : BufTy).Contents (Elt F)),
    StableHlo.binary main_v59 main_v120 main_v121 (mulf : (⟨S1474560, .f32⟩ : BufTy).Contents (Elt F) → (⟨S1474560, .f32⟩ : BufTy).Contents (Elt F) → (⟨S1474560, .f32⟩ : BufTy).Contents (Elt F)),
    StableHlo.binary main_v121 main_v28 main_v122 (mulf : (⟨S1474560, .f32⟩ : BufTy).Contents (Elt F) → (⟨S1474560, .f32⟩ : BufTy).Contents (Elt F) → (⟨S1474560, .f32⟩ : BufTy).Contents (Elt F)),
    StableHlo.binary main_v119 main_v122 main_v123 (addf : (⟨S1474560, .f32⟩ : BufTy).Contents (Elt F) → (⟨S1474560, .f32⟩ : BufTy).Contents (Elt F) → (⟨S1474560, .f32⟩ : BufTy).Contents (Elt F)),
    StableHlo.binary main_v62 main_v82 main_v124 (mulf : (⟨S1474560, .f32⟩ : BufTy).Contents (Elt F) → (⟨S1474560, .f32⟩ : BufTy).Contents (Elt F) → (⟨S1474560, .f32⟩ : BufTy).Contents (Elt F)),
    StableHlo.binary main_v124 main_v26 main_v125 (mulf : (⟨S1474560, .f32⟩ : BufTy).Contents (Elt F) → (⟨S1474560, .f32⟩ : BufTy).Contents (Elt F) → (⟨S1474560, .f32⟩ : BufTy).Contents (Elt F)),
    StableHlo.binary main_v123 main_v125 main_v126 (subf : (⟨S1474560, .f32⟩ : BufTy).Contents (Elt F) → (⟨S1474560, .f32⟩ : BufTy).Contents (Elt F) → (⟨S1474560, .f32⟩ : BufTy).Contents (Elt F)),
    StableHlo.binary main_v77 main_v32 main_v127 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v128 (addf : (⟨S1474560, .f32⟩ : BufTy).Contents (Elt F) → (⟨S1474560, .f32⟩ : BufTy).Contents (Elt F) → (⟨S1474560, .f32⟩ : BufTy).Contents (Elt F)),
    StableHlo.binary main_v59 main_v128 main_v129 (mulf : (⟨S1474560, .f32⟩ : BufTy).Contents (Elt F) → (⟨S1474560, .f32⟩ : BufTy).Contents (Elt F) → (⟨S1474560, .f32⟩ : BufTy).Contents (Elt F)),
    StableHlo.binary main_v129 main_v36 main_v130 (mulf : (⟨S1474560, .f32⟩ : BufTy).Contents (Elt F) → (⟨S1474560, .f32⟩ : BufTy).Contents (Elt F) → (⟨S1474560, .f32⟩ : BufTy).Contents (Elt F)),
    StableHlo.binary main_v127 main_v130 main_v131 (addf : (⟨S1474560, .f32⟩ : BufTy).Contents (Elt F) → (⟨S1474560, .f32⟩ : BufTy).Contents (Elt F) → (⟨S1474560, .f32⟩ : BufTy).Contents (Elt F)),
    StableHlo.binary main_v62 main_v82 main_v132 (mulf : (⟨S1474560, .f32⟩ : BufTy).Contents (Elt F) → (⟨S1474560, .f32⟩ : BufTy).Contents (Elt F) → (⟨S1474560, .f32⟩ : BufTy).Contents (Elt F)),
    StableHlo.binary main_v132 main_v34 main_v133 (mulf : (⟨S1474560, .f32⟩ : BufTy).Contents (Elt F) → (⟨S1474560, .f32⟩ : BufTy).Contents (Elt F) → (⟨S1474560, .f32⟩ : BufTy).Contents (Elt F)),
    StableHlo.binary main_v131 main_v133 main_v134 (subf : (⟨S1474560, .f32⟩ : BufTy).Contents (Elt F) → (⟨S1474560, .f32⟩ : BufTy).Contents (Elt F) → (⟨S1474560, .f32⟩ : BufTy).Contents (Elt F)),
    StableHlo.binary main_v77 main_v28 main_v135 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v136 (addf : (⟨S1474560, .f32⟩ : BufTy).Contents (Elt F) → (⟨S1474560, .f32⟩ : BufTy).Contents (Elt F) → (⟨S1474560, .f32⟩ : BufTy).Contents (Elt F)),
    StableHlo.binary main_v59 main_v136 main_v137 (mulf : (⟨S1474560, .f32⟩ : BufTy).Contents (Elt F) → (⟨S1474560, .f32⟩ : BufTy).Contents (Elt F) → (⟨S1474560, .f32⟩ : BufTy).Contents (Elt F)),
    StableHlo.binary main_v137 main_v24 main_v138 (mulf : (⟨S1474560, .f32⟩ : BufTy).Contents (Elt F) → (⟨S1474560, .f32⟩ : BufTy).Contents (Elt F) → (⟨S1474560, .f32⟩ : BufTy).Contents (Elt F)),
    StableHlo.binary main_v135 main_v138 main_v139 (addf : (⟨S1474560, .f32⟩ : BufTy).Contents (Elt F) → (⟨S1474560, .f32⟩ : BufTy).Contents (Elt F) → (⟨S1474560, .f32⟩ : BufTy).Contents (Elt F)),
    StableHlo.binary main_v62 main_v59 main_v140 (mulf : (⟨S1474560, .f32⟩ : BufTy).Contents (Elt F) → (⟨S1474560, .f32⟩ : BufTy).Contents (Elt F) → (⟨S1474560, .f32⟩ : BufTy).Contents (Elt F)),
    StableHlo.binary main_v140 main_v82 main_v141 (mulf : (⟨S1474560, .f32⟩ : BufTy).Contents (Elt F) → (⟨S1474560, .f32⟩ : BufTy).Contents (Elt F) → (⟨S1474560, .f32⟩ : BufTy).Contents (Elt F)),
    StableHlo.binary main_v141 main_v30 main_v142 (mulf : (⟨S1474560, .f32⟩ : BufTy).Contents (Elt F) → (⟨S1474560, .f32⟩ : BufTy).Contents (Elt F) → (⟨S1474560, .f32⟩ : BufTy).Contents (Elt F)),
    StableHlo.binary main_v139 main_v142 main_v143 (subf : (⟨S1474560, .f32⟩ : BufTy).Contents (Elt F) → (⟨S1474560, .f32⟩ : BufTy).Contents (Elt F) → (⟨S1474560, .f32⟩ : BufTy).Contents (Elt F)),
    StableHlo.binary main_v77 main_v36 main_v144 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v145 (addf : (⟨S1474560, .f32⟩ : BufTy).Contents (Elt F) → (⟨S1474560, .f32⟩ : BufTy).Contents (Elt F) → (⟨S1474560, .f32⟩ : BufTy).Contents (Elt F)),
    StableHlo.binary main_v59 main_v145 main_v146 (mulf : (⟨S1474560, .f32⟩ : BufTy).Contents (Elt F) → (⟨S1474560, .f32⟩ : BufTy).Contents (Elt F) → (⟨S1474560, .f32⟩ : BufTy).Contents (Elt F)),
    StableHlo.binary main_v146 main_v32 main_v147 (mulf : (⟨S1474560, .f32⟩ : BufTy).Contents (Elt F) → (⟨S1474560, .f32⟩ : BufTy).Contents (Elt F) → (⟨S1474560, .f32⟩ : BufTy).Contents (Elt F)),
    StableHlo.binary main_v144 main_v147 main_v148 (addf : (⟨S1474560, .f32⟩ : BufTy).Contents (Elt F) → (⟨S1474560, .f32⟩ : BufTy).Contents (Elt F) → (⟨S1474560, .f32⟩ : BufTy).Contents (Elt F)),
    StableHlo.binary main_v62 main_v59 main_v149 (mulf : (⟨S1474560, .f32⟩ : BufTy).Contents (Elt F) → (⟨S1474560, .f32⟩ : BufTy).Contents (Elt F) → (⟨S1474560, .f32⟩ : BufTy).Contents (Elt F)) ]

/-- The 60 operations of the printed window main_part3, in order. -/
def ops3 : List (HloOp τ sig (Elt F)) :=
  [ StableHlo.binary main_v149 main_v82 main_v150 (mulf : (⟨S1474560, .f32⟩ : BufTy).Contents (Elt F) → (⟨S1474560, .f32⟩ : BufTy).Contents (Elt F) → (⟨S1474560, .f32⟩ : BufTy).Contents (Elt F)),
    StableHlo.binary main_v150 main_v38 main_v151 (mulf : (⟨S1474560, .f32⟩ : BufTy).Contents (Elt F) → (⟨S1474560, .f32⟩ : BufTy).Contents (Elt F) → (⟨S1474560, .f32⟩ : BufTy).Contents (Elt F)),
    StableHlo.binary main_v148 main_v151 main_v152 (subf : (⟨S1474560, .f32⟩ : BufTy).Contents (Elt F) → (⟨S1474560, .f32⟩ : BufTy).Contents (Elt F) → (⟨S1474560, .f32⟩ : BufTy).Contents (Elt F)),
    StableHlo.nullary main_cst_28 (constant S_ .f32 0x3F800000#32),
    StableHlo.unary main_cst_28 main_v153 (broadcastInDim S1474560 ![] bcast_S_S1474560 : (⟨S_, .f32⟩ : BufTy).Contents (Elt F) → (⟨S1474560, .f32⟩ : BufTy).Contents (Elt F)),
    StableHlo.binary main_v153 main_v20 main_v154 (subf : (⟨S1474560, .f32⟩ : BufTy).Contents (Elt F) → (⟨S1474560, .f32⟩ : BufTy).Contents (Elt F) → (⟨S1474560, .f32⟩ : BufTy).Contents (Elt F)),
    StableHlo.nullary main_cst_29 (constant S_ .f32 0x40800000#32),
    StableHlo.unary main_cst_29 main_v155 (broadcastInDim S1474560 ![] bcast_S_S1474560 : (⟨S_, .f32⟩ : BufTy).Contents (Elt F) → (⟨S1474560, .f32⟩ : BufTy).Contents (Elt F)),
    StableHlo.binary main_v155 main_v154 main_v156 (mulf : (⟨S1474560, .f32⟩ : BufTy).Contents (Elt F) → (⟨S1474560, .f32⟩ : BufTy).Contents (Elt F) → (⟨S1474560, .f32⟩ : BufTy).Contents (Elt F)),
    StableHlo.nullary main_cst_30 (constant S_ .f32 0x40000000#32),
    StableHlo.unary main_cst_30 main_v157 (broadcastInDim S1474560 ![] bcast_S_S1474560 : (⟨S_, .f32⟩ : BufTy).Contents (Elt F) → (⟨S1474560, .f32⟩ : BufTy).Contents (Elt F)),
    StableHlo.binary main_v157 main_v20 main_v158 (subf : (⟨S1474560, .f32⟩ : BufTy).Contents (Elt F) → (⟨S1474560, .f32⟩ : BufTy).Contents (Elt F) → (⟨S1474560, .f32⟩ : BufTy).Contents (Elt F)),
    StableHlo.binary main_v158 main_v158 main_v159 (mulf : (⟨S1474560, .f32⟩ : BufTy).Contents (Elt F) → (⟨S1474560, .f32⟩ : BufTy).Contents (Elt F) → (⟨S1474560, .f32⟩ : BufTy).Contents (Elt F)),
    StableHlo.binary main_v156 main_v159 main_v160 (Host.divf : (⟨S1474560, .f32⟩ : BufTy).Contents (Elt F) → (⟨S1474560, .f32⟩ : BufTy).Contents (Elt F) → (⟨S1474560, .f32⟩ : BufTy).Contents (Elt F)),
    StableHlo.binary main_v24 main_v24 main_v161 (mulf : (⟨S1474560, .f32⟩ : BufTy).Contents (Elt F) → (⟨S1474560, .f32⟩ : BufTy).Contents (Elt F) → (⟨S1474560, .f32⟩ : BufTy).Contents (Elt F)),
    StableHlo.binary main_v32 main_v32 main_v162 (mulf : (⟨S1474560, .f32⟩ : BufTy).Contents (Elt F) → (⟨S1474560, .f32⟩ : BufTy).Contents (Elt F) → (⟨S1474560, .f32⟩ : BufTy).Contents (Elt F)),
    StableHlo.binary main_v161 main_v162 main_v163 (addf : (⟨S1474560, .f32⟩ : BufTy).Contents (Elt F) → (⟨S1474560, .f32⟩ : BufTy).Contents (Elt F) → (⟨S1474560, .f32⟩ : BufTy).Contents (Elt F)),
    StableHlo.binary main_v59 main_v59 main_v164 (mulf : (⟨S1474560, .f32⟩ : BufTy).Contents (Elt F) → (⟨S1474560, .f32⟩ : BufTy).Contents (Elt F) → (⟨S1474560, .f32⟩ : BufTy).Contents (Elt F)),
    StableHlo.binary main_v28 main_v28 main_v165 (mulf : (⟨S1474560, .f32⟩ : BufTy).Contents (Elt F) → (⟨S1474560, .f32⟩ : BufTy).Contents (Elt F) → (⟨S1474560, .f32⟩ : BufTy).Contents (Elt F)),
    StableHlo.binary main_v36 main_v36 main_v166 (mulf : (⟨S1474560, .f32⟩ : BufTy).Contents (Elt F) → (⟨S1474560, .f32⟩ : BufTy).Contents (Elt F) → (⟨S1474560, .f32⟩ : BufTy).Contents (Elt F)),
    StableHlo.binary main_v165 main_v166 main_v167 (addf : (⟨S1474560, .f32⟩ : BufTy).Contents (Elt F) → (⟨S1474560, .f32⟩ : BufTy).Contents (Elt F) → (⟨S1474560, .f32⟩ : BufTy).Contents (Elt F)),
    StableHlo.binary main_v164 main_v167 main_v168 (mulf : (⟨S1474560, .f32⟩ : BufTy).Contents (Elt F) → (⟨S1474560, .f32⟩ : BufTy).Contents (Elt F) → (⟨S1474560, .f32⟩ : BufTy).Contents (Elt F)),
    StableHlo.binary main_v163 main_v168 main_v169 (addf : (⟨S1474560, .f32⟩ : BufTy).Contents (Elt F) → (⟨S1474560, .f32⟩ : BufTy).Contents (Elt F) → (⟨S1474560, .f32⟩ : BufTy).Contents (Elt F)),
    StableHlo.binary main_v160 main_v169 main_v170 (mulf : (⟨S1474560, .f32⟩ : BufTy).Contents (Elt F) → (⟨S1474560, .f32⟩ : BufTy).Contents (Elt F) → (⟨S1474560, .f32⟩ : BufTy).Contents (Elt F)),
    StableHlo.binary main_v26 main_v26 main_v171 (mulf : (⟨S1474560, .f32⟩ : BufTy).Contents (Elt F) → (⟨S1474560, .f32⟩ : BufTy).Contents (Elt F) → (⟨S1474560, .f32⟩ : BufTy).Contents (Elt F)),
    StableHlo.binary main_v34 main_v34 main_v172 (mulf : (⟨S1474560, .f32⟩ : BufTy).Contents (Elt F) → (⟨S1474560, .f32⟩ : BufTy).Contents (Elt F) → (⟨S1474560, .f32⟩ : BufTy).Contents (Elt F)),
    StableHlo.binary main_v171 main_v172 main_v173 (addf : (⟨S1474560, .f32⟩ : BufTy).Contents (Elt F) → (⟨S1474560, .f32⟩ : BufTy).Contents (Elt F) → (⟨S1474560, .f32⟩ : BufTy).Contents (Elt F)),
    StableHlo.binary main_v59 main_v59 main_v174 (mulf : (⟨S1474560, .f32⟩ : BufTy).Contents (Elt F) → (⟨S1474560, .f32⟩ : BufTy).Contents (Elt F) → (⟨S1474560, .f32⟩ : BufTy).Contents (Elt F)),
    StableHlo.binary main_v30 main_v30 main_v175 (mulf : (⟨S1474560, .f32⟩ : BufTy).Contents (Elt F) → (⟨S1474560, .f32⟩ : BufTy).Contents (Elt F) → (⟨S1474560, .f32⟩ : BufTy).Contents (Elt F)),
    StableHlo.binary main_v38 main_v38 main_v176 (mulf : (⟨S1474560, .f32⟩ : BufTy).Contents (Elt F) → (⟨S1474560, .f32⟩ : BufTy).Contents (Elt F) → (⟨S1474560, .f32⟩ : BufTy).Contents (Elt F)),
    StableHlo.binary main_v175 main_v176 main_v177 (addf : (⟨S1474560, .f32⟩ : BufTy).Contents (Elt F) → (⟨S1474560, .f32⟩ : BufTy).Contents (Elt F) → (⟨S1474560, .f32⟩ : BufTy).Contents (Elt F)),
    StableHlo.binary main_v174 main_v177 main_v178 (mulf : (⟨S1474560, .f32⟩ : BufTy).Contents (Elt F) → (⟨S1474560, .f32⟩ : BufTy).Contents (Elt F) → (⟨S1474560, .f32⟩ : BufTy).Contents (Elt F)),
    StableHlo.binary main_v173 main_v178 main_v179 (addf : (⟨S1474560, .f32⟩ : BufTy).Contents (Elt F) → (⟨S1474560, .f32⟩ : BufTy).Contents (Elt F) → (⟨S1474560, .f32⟩ : BufTy).Contents (Elt F)),
    StableHlo.binary main_v62 main_v179 main_v180 (mulf : (⟨S1474560, .f32⟩ : BufTy).Contents (Elt F) → (⟨S1474560, .f32⟩ : BufTy).Contents (Elt F) → (⟨S1474560, .f32⟩ : BufTy).Contents (Elt F)),
    StableHlo.binary main_v170 main_v180 main_v181 (subf : (⟨S1474560, .f32⟩ : BufTy).Contents (Elt F) → (⟨S1474560, .f32⟩ : BufTy).Contents (Elt F) → (⟨S1474560, .f32⟩ : BufTy).Contents (Elt F)),
    StableHlo.binary main_v20 main_v41 main_v182 (mulf : (⟨S1474560, .f32⟩ : BufTy).Contents (Elt F) → (⟨S1474560, .f32⟩ : BufTy).Contents (Elt F) → (⟨S1474560, .f32⟩ : BufTy).Contents (Elt F)),
    StableHlo.binary main_v182 main_v41 main_v183 (mulf : (⟨S1474560, .f32⟩ : BufTy).Contents (Elt F) → (⟨S1474560, .f32⟩ : BufTy).Contents (Elt F) → (⟨S1474560, .f32⟩ : BufTy).Contents (Elt F)),
    StableHlo.nullary main_cst_31 (constant S_ .f32 0x3F800000#32),
    StableHlo.unary main_cst_31 main_v184 (broadcastInDim S1474560 ![] bcast_S_S1474560 : (⟨S_, .f32⟩ : BufTy).Contents (Elt F) → (⟨S1474560, .f32⟩ : BufTy).Contents (Elt F)),
    StableHlo.binary main_v184 main_v47 main_v185 (addf : (⟨S1474560, .f32⟩ : BufTy).Contents (Elt F) → (⟨S1474560, .f32⟩ : BufTy).Contents (Elt F) → (⟨S1474560, .f32⟩ : BufTy).Contents (Elt F)),
    StableHlo.binary main_v185 main_v185 main_v186 (mulf : (⟨S1474560, .f32⟩ : BufTy).Contents (Elt F) → (⟨S1474560, .f32⟩ : BufTy).Contents (Elt F) → (⟨S1474560, .f32⟩ : BufTy).Contents (Elt F)),
    StableHlo.binary main_v183 main_v186 main_v187 (mulf : (⟨S1474560, .f32⟩ : BufTy).Contents (Elt F) → (⟨S1474560, .f32⟩ : BufTy).Contents (Elt F) → (⟨S1474560, .f32⟩ : BufTy).Contents (Elt F)),
    StableHlo.unary main_v18 main_v188 (Host.negf : (⟨S1474560, .f32⟩ : BufTy).Contents (Elt F) → (⟨S1474560, .f32⟩ : BufTy).Contents (Elt F)),
    StableHlo.nullary main_cst_32 (constant S_ .f32 0x358637BD#32),
    StableHlo.unary main_cst_32 main_v189 (broadcastInDim S1474560 ![] bcast_S_S1474560 : (⟨S_, .f32⟩ : BufTy).Contents (Elt F) → (⟨S1474560, .f32⟩ : BufTy).Contents (Elt F)),
    StableHlo.binary main_v188 main_v189 main_v190 (maximumf : (⟨S1474560, .f32⟩ : BufTy).Contents (Elt F) → (⟨S1474560, .f32⟩ : BufTy).Contents (Elt F) → (⟨S1474560, .f32⟩ : BufTy).Contents (Elt F)),
    StableHlo.binary main_v187 main_v190 main_v191 (mulf : (⟨S1474560, .f32⟩ : BufTy).Contents (Elt F) → (⟨S1474560, .f32⟩ : BufTy).Contents (Elt F) → (⟨S1474560, .f32⟩ : BufTy).Contents (Elt F)),
    StableHlo.nullary main_cst_33 (constant S_ .f32 0x3F800000#32),
    StableHlo.unary main_cst_33 main_v192 (broadcastInDim S1474560 ![] bcast_S_S1474560 : (⟨S_, .f32⟩ : BufTy).Contents (Elt F) → (⟨S1474560, .f32⟩ : BufTy).Contents (Elt F)),
    StableHlo.binary main_v192 main_v191 main_v193 (Host.divf : (⟨S1474560, .f32⟩ : BufTy).Contents (Elt F) → (⟨S1474560, .f32⟩ : BufTy).Contents (Elt F) → (⟨S1474560, .f32⟩ : BufTy).Contents (Elt F)),
    StableHlo.nullary main_cst_34 (constant S_ .f32 0x40000000#32),
    StableHlo.unary main_cst_34 main_v194 (broadcastInDim S1474560 ![] bcast_S_S1474560 : (⟨S_, .f32⟩ : BufTy).Contents (Elt F) → (⟨S1474560, .f32⟩ : BufTy).Contents (Elt F)),
    StableHlo.binary main_v194 main_v41 main_v195 (mulf : (⟨S1474560, .f32⟩ : BufTy).Contents (Elt F) → (⟨S1474560, .f32⟩ : BufTy).Contents (Elt F) → (⟨S1474560, .f32⟩ : BufTy).Contents (Elt F)),
    StableHlo.nullary main_cst_35 (constant S_ .f32 0x40000000#32),
    StableHlo.unary main_cst_35 main_v196 (broadcastInDim S1474560 ![] bcast_S_S1474560 : (⟨S_, .f32⟩ : BufTy).Contents (Elt F) → (⟨S1474560, .f32⟩ : BufTy).Contents (Elt F)),
    StableHlo.binary main_v196 main_v195 main_v197 (subf : (⟨S1474560, .f32⟩ : BufTy).Contents (Elt F) → (⟨S1474560, .f32⟩ : BufTy).Contents (Elt F) → (⟨S1474560, .f32⟩ : BufTy).Contents (Elt F)),
    StableHlo.binary main_v41 main_v41 main_v198 (mulf : (⟨S1474560, .f32⟩ : BufTy).Contents (Elt F) → (⟨S1474560, .f32⟩ : BufTy).Contents (Elt F) → (⟨S1474560, .f32⟩ : BufTy).Contents (Elt F)),
    StableHlo.binary main_v197 main_v198 main_v199 (addf : (⟨S1474560, .f32⟩ : BufTy).Contents (Elt F) → (⟨S1474560, .f32⟩ : BufTy).Contents (Elt F) → (⟨S1474560, .f32⟩ : BufTy).Contents (Elt F)),
    StableHlo.nullary main_cst_36 (constant S_ .f32 0x41000000#32),
    StableHlo.unary main_cst_36 main_v200 (broadcastInDim S1474560 ![] bcast_S_S1474560 : (⟨S_, .f32⟩ : BufTy).Contents (Elt F) → (⟨S1474560, .f32⟩ : BufTy).Contents (Elt F)) ]

/-- The 62 operations of the printed window main_part4, in order. -/
def ops4 : List (HloOp τ sig (Elt F)) :=
  [ StableHlo.binary main_v200 main_v97 main_v201 (mulf : (⟨S1474560, .f32⟩ : BufTy).Contents (Elt F) → (⟨S1474560, .f32⟩ : BufTy).Contents (Elt F) → (⟨S1474560, .f32⟩ : BufTy).Contents (Elt F)),
    StableHlo.binary main_v77 main_v77 main_v202 (mulf : (⟨S1474560, .f32⟩ : BufTy).Contents (Elt F) → (⟨S1474560, .f32⟩ : BufTy).Contents (Elt F) → (⟨S1474560, .f32⟩ : BufTy).Contents (Elt F)),
    StableHlo.binary main_v62 main_v82 main_v203 (mulf : (⟨S1474560, .f32⟩ : BufTy).Contents (Elt F) → (⟨S1474560, .f32⟩ : BufTy).Contents (Elt F) → (⟨S1474560, .f32⟩ : BufTy).Contents (Elt F)),
    StableHlo.binary main_v203 main_v82 main_v204 (mulf : (⟨S1474560, .f32⟩ : BufTy).Contents (Elt F) → (⟨S1474560, .f32⟩ : BufTy).Contents (Elt F) → (⟨S1474560, .f32⟩ : BufTy).Contents (Elt F)),
    StableHlo.binary main_v202 main_v204 main_v205 (addf : (⟨S1474560, .f32⟩ : BufTy).Contents (Elt F) → (⟨S1474560, .f32⟩ : BufTy).Contents (Elt F) → (⟨S1474560, .f32⟩ : BufTy).Contents (Elt F)),
    StableHlo.binary main_v201 main_v205 main_v206 (mulf : (⟨S1474560, .f32⟩ : BufTy).Contents (Elt F) → (⟨S1474560, .f32⟩ : BufTy).Contents (Elt F) → (⟨S1474560, .f32⟩ : BufTy).Contents (Elt F)),
    StableHlo.nullary main_cst_37 (constant S_ .f32 0x40000000#32),
    StableHlo.unary main_cst_37 main_v207 (broadcastInDim S1474560 ![] bcast_S_S1474560 : (⟨S_, .f32⟩ : BufTy).Contents (Elt F) → (⟨S1474560, .f32⟩ : BufTy).Contents (Elt F)),
    StableHlo.binary main_v207 main_v62 main_v208 (mulf : (⟨S1474560, .f32⟩ : BufTy).Contents (Elt F) → (⟨S1474560, .f32⟩ : BufTy).Contents (Elt F) → (⟨S1474560, .f32⟩ : BufTy).Contents (Elt F)),
    StableHlo.binary main_v208 main_v199 main_v209 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v210 (addf : (⟨S1474560, .f32⟩ : BufTy).Contents (Elt F) → (⟨S1474560, .f32⟩ : BufTy).Contents (Elt F) → (⟨S1474560, .f32⟩ : BufTy).Contents (Elt F)),
    StableHlo.binary main_v210 main_v210 main_v211 (mulf : (⟨S1474560, .f32⟩ : BufTy).Contents (Elt F) → (⟨S1474560, .f32⟩ : BufTy).Contents (Elt F) → (⟨S1474560, .f32⟩ : BufTy).Contents (Elt F)),
    StableHlo.binary main_v209 main_v211 main_v212 (mulf : (⟨S1474560, .f32⟩ : BufTy).Contents (Elt F) → (⟨S1474560, .f32⟩ : BufTy).Contents (Elt F) → (⟨S1474560, .f32⟩ : BufTy).Contents (Elt F)),
    StableHlo.binary main_v206 main_v212 main_v213 (addf : (⟨S1474560, .f32⟩ : BufTy).Contents (Elt F) → (⟨S1474560, .f32⟩ : BufTy).Contents (Elt F) → (⟨S1474560, .f32⟩ : BufTy).Contents (Elt F)),
    StableHlo.binary main_v193 main_v213 main_v214 (mulf : (⟨S1474560, .f32⟩ : BufTy).Contents (Elt F) → (⟨S1474560, .f32⟩ : BufTy).Contents (Elt F) → (⟨S1474560, .f32⟩ : BufTy).Contents (Elt F)),
    StableHlo.binary main_v214 main_v113 main_v215 (Host.divf : (⟨S1474560, .f32⟩ : BufTy).Contents (Elt F) → (⟨S1474560, .f32⟩ : BufTy).Contents (Elt F) → (⟨S1474560, .f32⟩ : BufTy).Contents (Elt F)),
    StableHlo.binary main_v181 main_v199 main_v216 (mulf : (⟨S1474560, .f32⟩ : BufTy).Contents (Elt F) → (⟨S1474560, .f32⟩ : BufTy).Contents (Elt F) → (⟨S1474560, .f32⟩ : BufTy).Contents (Elt F)),
    StableHlo.binary main_v41 main_v41 main_v217 (mulf : (⟨S1474560, .f32⟩ : BufTy).Contents (Elt F) → (⟨S1474560, .f32⟩ : BufTy).Contents (Elt F) → (⟨S1474560, .f32⟩ : BufTy).Contents (Elt F)),
    StableHlo.binary main_v217 main_v22 main_v218 (mulf : (⟨S1474560, .f32⟩ : BufTy).Contents (Elt F) → (⟨S1474560, .f32⟩ : BufTy).Contents (Elt F) → (⟨S1474560, .f32⟩ : BufTy).Contents (Elt F)),
    StableHlo.binary main_v216 main_v218 main_v219 (Host.divf : (⟨S1474560, .f32⟩ : BufTy).Contents (Elt F) → (⟨S1474560, .f32⟩ : BufTy).Contents (Elt F) → (⟨S1474560, .f32⟩ : BufTy).Contents (Elt F)),
    StableHlo.nullary main_cst_38 (constant S_ .f32 0x41000000#32),
    StableHlo.unary main_cst_38 main_v220 (broadcastInDim S1474560 ![] bcast_S_S1474560 : (⟨S_, .f32⟩ : BufTy).Contents (Elt F) → (⟨S1474560, .f32⟩ : BufTy).Contents (Elt F)),
    StableHlo.binary main_v193 main_v220 main_v221 (mulf : (⟨S1474560, .f32⟩ : BufTy).Contents (Elt F) → (⟨S1474560, .f32⟩ : BufTy).Contents (Elt F) → (⟨S1474560, .f32⟩ : BufTy).Contents (Elt F)),
    StableHlo.binary main_v221 main_v98 main_v222 (mulf : (⟨S1474560, .f32⟩ : BufTy).Contents (Elt F) → (⟨S1474560, .f32⟩ : BufTy).Contents (Elt F) → (⟨S1474560, .f32⟩ : BufTy).Contents (Elt F)),
    StableHlo.binary main_v222 main_v199 main_v223 (mulf : (⟨S1474560, .f32⟩ : BufTy).Contents (Elt F) → (⟨S1474560, .f32⟩ : BufTy).Contents (Elt F) → (⟨S1474560, .f32⟩ : BufTy).Contents (Elt F)),
    StableHlo.binary main_v223 main_v113 main_v224 (Host.divf : (⟨S1474560, .f32⟩ : BufTy).Contents (Elt F) → (⟨S1474560, .f32⟩ : BufTy).Contents (Elt F) → (⟨S1474560, .f32⟩ : BufTy).Contents (Elt F)),
    StableHlo.binary main_v224 main_v126 main_v225 (mulf : (⟨S1474560, .f32⟩ : BufTy).Contents (Elt F) → (⟨S1474560, .f32⟩ : BufTy).Contents (Elt F) → (⟨S1474560, .f32⟩ : BufTy).Contents (Elt F)),
    StableHlo.binary main_v118 main_v98 main_v226 (mulf : (⟨S1474560, .f32⟩ : BufTy).Contents (Elt F) → (⟨S1474560, .f32⟩ : BufTy).Contents (Elt F) → (⟨S1474560, .f32⟩ : BufTy).Contents (Elt F)),
    StableHlo.nullary main_cst_39 (constant S_ .f32 0x40000000#32),
    StableHlo.unary main_cst_39 main_v227 (broadcastInDim S1474560 ![] bcast_S_S1474560 : (⟨S_, .f32⟩ : BufTy).Contents (Elt F) → (⟨S1474560, .f32⟩ : BufTy).Contents (Elt F)),
    StableHlo.binary main_v227 main_v99 main_v228 (mulf : (⟨S1474560, .f32⟩ : BufTy).Contents (Elt F) → (⟨S1474560, .f32⟩ : BufTy).Contents (Elt F) → (⟨S1474560, .f32⟩ : BufTy).Contents (Elt F)),
    StableHlo.binary main_v228 main_v99 main_v229 (mulf : (⟨S1474560, .f32⟩ : BufTy).Contents (Elt F) → (⟨S1474560, .f32⟩ : BufTy).Contents (Elt F) → (⟨S1474560, .f32⟩ : BufTy).Contents (Elt F)),
    StableHlo.nullary main_cst_40 (constant S_ .f32 0x3F800000#32),
    StableHlo.unary main_cst_40 main_v230 (broadcastInDim S1474560 ![] bcast_S_S1474560 : (⟨S_, .f32⟩ : BufTy).Contents (Elt F) → (⟨S1474560, .f32⟩ : BufTy).Contents (Elt F)),
    StableHlo.binary main_v229 main_v230 main_v231 (subf : (⟨S1474560, .f32⟩ : BufTy).Contents (Elt F) → (⟨S1474560, .f32⟩ : BufTy).Contents (Elt F) → (⟨S1474560, .f32⟩ : BufTy).Contents (Elt F)),
    StableHlo.binary main_v226 main_v231 main_v232 (mulf : (⟨S1474560, .f32⟩ : BufTy).Contents (Elt F) → (⟨S1474560, .f32⟩ : BufTy).Contents (Elt F) → (⟨S1474560, .f32⟩ : BufTy).Contents (Elt F)),
    StableHlo.binary main_v99 main_v232 main_v233 (addf : (⟨S1474560, .f32⟩ : BufTy).Contents (Elt F) → (⟨S1474560, .f32⟩ : BufTy).Contents (Elt F) → (⟨S1474560, .f32⟩ : BufTy).Contents (Elt F)),
    StableHlo.binary main_v225 main_v233 main_v234 (mulf : (⟨S1474560, .f32⟩ : BufTy).Contents (Elt F) → (⟨S1474560, .f32⟩ : BufTy).Contents (Elt F) → (⟨S1474560, .f32⟩ : BufTy).Contents (Elt F)),
    StableHlo.binary main_v215 main_v219 main_v235 (addf : (⟨S1474560, .f32⟩ : BufTy).Contents (Elt F) → (⟨S1474560, .f32⟩ : BufTy).Contents (Elt F) → (⟨S1474560, .f32⟩ : BufTy).Contents (Elt F)),
    StableHlo.binary main_v235 main_v234 main_v236 (addf : (⟨S1474560, .f32⟩ : BufTy).Contents (Elt F) → (⟨S1474560, .f32⟩ : BufTy).Contents (Elt F) → (⟨S1474560, .f32⟩ : BufTy).Contents (Elt F)),
    StableHlo.unary main_v236 main_v237 (Host.absf : (⟨S1474560, .f32⟩ : BufTy).Contents (Elt F) → (⟨S1474560, .f32⟩ : BufTy).Contents (Elt F)),
    StableHlo.nullary main_cst_41 (constant S_ .f32 0x322BCC77#32),
    StableHlo.unary main_cst_41 main_v238 (broadcastInDim S1474560 ![] bcast_S_S1474560 : (⟨S_, .f32⟩ : BufTy).Contents (Elt F) → (⟨S1474560, .f32⟩ : BufTy).Contents (Elt F)),
    StableHlo.binary main_v237 main_v238 main_v239 (cmpf .ogt : (⟨S1474560, .f32⟩ : BufTy).Contents (Elt F) → (⟨S1474560, .f32⟩ : BufTy).Contents (Elt F) → (⟨S1474560, .i1⟩ : BufTy).Contents (Elt F)),
    StableHlo.nullary main_cst_42 (constant S_ .f32 0x322BCC77#32),
    StableHlo.TRef.unary (.of main_cst_42) main_call0.v0 id,
    StableHlo.TRef.unary main_call0.v0 main_call0.v1 (broadcastInDim S1474560 ![] bcast_S_S1474560),
    StableHlo.TRef.ternary (.of main_v239) (.of main_v236) main_call0.v1 main_call0.v2 select,
    StableHlo.nullary main_cst_43 (constant S_ .f32 0x41000000#32),
    StableHlo.unary main_cst_43 main_v241 (broadcastInDim S1474560 ![] bcast_S_S1474560 : (⟨S_, .f32⟩ : BufTy).Contents (Elt F) → (⟨S1474560, .f32⟩ : BufTy).Contents (Elt F)),
    StableHlo.binary main_v193 main_v241 main_v242 (mulf : (⟨S1474560, .f32⟩ : BufTy).Contents (Elt F) → (⟨S1474560, .f32⟩ : BufTy).Contents (Elt F) → (⟨S1474560, .f32⟩ : BufTy).Contents (Elt F)),
    StableHlo.binary main_v242 main_v98 main_v243 (mulf : (⟨S1474560, .f32⟩ : BufTy).Contents (Elt F) → (⟨S1474560, .f32⟩ : BufTy).Contents (Elt F) → (⟨S1474560, .f32⟩ : BufTy).Contents (Elt F)),
    StableHlo.binary main_v243 main_v41 main_v244 (mulf : (⟨S1474560, .f32⟩ : BufTy).Contents (Elt F) → (⟨S1474560, .f32⟩ : BufTy).Contents (Elt F) → (⟨S1474560, .f32⟩ : BufTy).Contents (Elt F)),
    StableHlo.nullary main_cst_44 (constant S_ .f32 0x40000000#32),
    StableHlo.unary main_cst_44 main_v245 (broadcastInDim S1474560 ![] bcast_S_S1474560 : (⟨S_, .f32⟩ : BufTy).Contents (Elt F) → (⟨S1474560, .f32⟩ : BufTy).Contents (Elt F)),
    StableHlo.binary main_v245 main_v41 main_v246 (subf : (⟨S1474560, .f32⟩ : BufTy).Contents (Elt F) → (⟨S1474560, .f32⟩ : BufTy).Contents (Elt F) → (⟨S1474560, .f32⟩ : BufTy).Contents (Elt F)),
    StableHlo.binary main_v244 main_v246 main_v247 (mulf : (⟨S1474560, .f32⟩ : BufTy).Contents (Elt F) → (⟨S1474560, .f32⟩ : BufTy).Contents (Elt F) → (⟨S1474560, .f32⟩ : BufTy).Contents (Elt F)),
    StableHlo.binary main_v247 main_v113 main_v248 (Host.divf : (⟨S1474560, .f32⟩ : BufTy).Contents (Elt F) → (⟨S1474560, .f32⟩ : BufTy).Contents (Elt F) → (⟨S1474560, .f32⟩ : BufTy).Contents (Elt F)),
    StableHlo.binary main_v248 main_v134 main_v249 (mulf : (⟨S1474560, .f32⟩ : BufTy).Contents (Elt F) → (⟨S1474560, .f32⟩ : BufTy).Contents (Elt F) → (⟨S1474560, .f32⟩ : BufTy).Contents (Elt F)),
    StableHlo.binary main_v249 main_v100 main_v250 (mulf : (⟨S1474560, .f32⟩ : BufTy).Contents (Elt F) → (⟨S1474560, .f32⟩ : BufTy).Contents (Elt F) → (⟨S1474560, .f32⟩ : BufTy).Contents (Elt F)),
    StableHlo.nullary main_cst_45 (constant S_ .f32 0x41000000#32),
    StableHlo.unary main_cst_45 main_v251 (broadcastInDim S1474560 ![] bcast_S_S1474560 : (⟨S_, .f32⟩ : BufTy).Contents (Elt F) → (⟨S1474560, .f32⟩ : BufTy).Contents (Elt F)) ]

/-- The 50 operations of the printed window main_part5, in order. -/
def ops5 : List (HloOp τ sig (Elt F)) :=
  [ StableHlo.binary main_v193 main_v251 main_v252 (mulf : (⟨S1474560, .f32⟩ : BufTy).Contents (Elt F) → (⟨S1474560, .f32⟩ : BufTy).Contents (Elt F) → (⟨S1474560, .f32⟩ : BufTy).Contents (Elt F)),
    StableHlo.binary main_v252 main_v98 main_v253 (mulf : (⟨S1474560, .f32⟩ : BufTy).Contents (Elt F) → (⟨S1474560, .f32⟩ : BufTy).Contents (Elt F) → (⟨S1474560, .f32⟩ : BufTy).Contents (Elt F)),
    StableHlo.binary main_v253 main_v199 main_v254 (mulf : (⟨S1474560, .f32⟩ : BufTy).Contents (Elt F) → (⟨S1474560, .f32⟩ : BufTy).Contents (Elt F) → (⟨S1474560, .f32⟩ : BufTy).Contents (Elt F)),
    StableHlo.binary main_v254 main_v113 main_v255 (Host.divf : (⟨S1474560, .f32⟩ : BufTy).Contents (Elt F) → (⟨S1474560, .f32⟩ : BufTy).Contents (Elt F) → (⟨S1474560, .f32⟩ : BufTy).Contents (Elt F)),
    StableHlo.binary main_v255 main_v126 main_v256 (mulf : (⟨S1474560, .f32⟩ : BufTy).Contents (Elt F) → (⟨S1474560, .f32⟩ : BufTy).Contents (Elt F) → (⟨S1474560, .f32⟩ : BufTy).Contents (Elt F)),
    StableHlo.binary main_v256 main_v99 main_v257 (mulf : (⟨S1474560, .f32⟩ : BufTy).Contents (Elt F) → (⟨S1474560, .f32⟩ : BufTy).Contents (Elt F) → (⟨S1474560, .f32⟩ : BufTy).Contents (Elt F)),
    StableHlo.nullary main_cst_46 (constant S_ .f32 0x41000000#32),
    StableHlo.unary main_cst_46 main_v258 (broadcastInDim S1474560 ![] bcast_S_S1474560 : (⟨S_, .f32⟩ : BufTy).Contents (Elt F) → (⟨S1474560, .f32⟩ : BufTy).Contents (Elt F)),
    StableHlo.binary main_v193 main_v258 main_v259 (mulf : (⟨S1474560, .f32⟩ : BufTy).Contents (Elt F) → (⟨S1474560, .f32⟩ : BufTy).Contents (Elt F) → (⟨S1474560, .f32⟩ : BufTy).Contents (Elt F)),
    StableHlo.binary main_v259 main_v98 main_v260 (mulf : (⟨S1474560, .f32⟩ : BufTy).Contents (Elt F) → (⟨S1474560, .f32⟩ : BufTy).Contents (Elt F) → (⟨S1474560, .f32⟩ : BufTy).Contents (Elt F)),
    StableHlo.binary main_v260 main_v41 main_v261 (mulf : (⟨S1474560, .f32⟩ : BufTy).Contents (Elt F) → (⟨S1474560, .f32⟩ : BufTy).Contents (Elt F) → (⟨S1474560, .f32⟩ : BufTy).Contents (Elt F)),
    StableHlo.nullary main_cst_47 (constant S_ .f32 0x40000000#32),
    StableHlo.unary main_cst_47 main_v262 (broadcastInDim S1474560 ![] bcast_S_S1474560 : (⟨S_, .f32⟩ : BufTy).Contents (Elt F) → (⟨S1474560, .f32⟩ : BufTy).Contents (Elt F)),
    StableHlo.binary main_v262 main_v41 main_v263 (subf : (⟨S1474560, .f32⟩ : BufTy).Contents (Elt F) → (⟨S1474560, .f32⟩ : BufTy).Contents (Elt F) → (⟨S1474560, .f32⟩ : BufTy).Contents (Elt F)),
    StableHlo.binary main_v261 main_v263 main_v264 (mulf : (⟨S1474560, .f32⟩ : BufTy).Contents (Elt F) → (⟨S1474560, .f32⟩ : BufTy).Contents (Elt F) → (⟨S1474560, .f32⟩ : BufTy).Contents (Elt F)),
    StableHlo.binary main_v264 main_v113 main_v265 (Host.divf : (⟨S1474560, .f32⟩ : BufTy).Contents (Elt F) → (⟨S1474560, .f32⟩ : BufTy).Contents (Elt F) → (⟨S1474560, .f32⟩ : BufTy).Contents (Elt F)),
    StableHlo.binary main_v265 main_v152 main_v266 (mulf : (⟨S1474560, .f32⟩ : BufTy).Contents (Elt F) → (⟨S1474560, .f32⟩ : BufTy).Contents (Elt F) → (⟨S1474560, .f32⟩ : BufTy).Contents (Elt F)),
    StableHlo.binary main_v266 main_v100 main_v267 (mulf : (⟨S1474560, .f32⟩ : BufTy).Contents (Elt F) → (⟨S1474560, .f32⟩ : BufTy).Contents (Elt F) → (⟨S1474560, .f32⟩ : BufTy).Contents (Elt F)),
    StableHlo.nullary main_cst_48 (constant S_ .f32 0x40000000#32),
    StableHlo.unary main_cst_48 main_v268 (broadcastInDim S1474560 ![] bcast_S_S1474560 : (⟨S_, .f32⟩ : BufTy).Contents (Elt F) → (⟨S1474560, .f32⟩ : BufTy).Contents (Elt F)),
    StableHlo.binary main_v268 main_v41 main_v269 (subf : (⟨S1474560, .f32⟩ : BufTy).Contents (Elt F) → (⟨S1474560, .f32⟩ : BufTy).Contents (Elt F) → (⟨S1474560, .f32⟩ : BufTy).Contents (Elt F)),
    StableHlo.binary main_v193 main_v269 main_v270 (mulf : (⟨S1474560, .f32⟩ : BufTy).Contents (Elt F) → (⟨S1474560, .f32⟩ : BufTy).Contents (Elt F) → (⟨S1474560, .f32⟩ : BufTy).Contents (Elt F)),
    StableHlo.binary main_v270 main_v113 main_v271 (Host.divf : (⟨S1474560, .f32⟩ : BufTy).Contents (Elt F) → (⟨S1474560, .f32⟩ : BufTy).Contents (Elt F) → (⟨S1474560, .f32⟩ : BufTy).Contents (Elt F)),
    StableHlo.nullary main_cst_49 (constant S_ .f32 0x41000000#32),
    StableHlo.unary main_cst_49 main_v272 (broadcastInDim S1474560 ![] bcast_S_S1474560 : (⟨S_, .f32⟩ : BufTy).Contents (Elt F) → (⟨S1474560, .f32⟩ : BufTy).Contents (Elt F)),
    StableHlo.binary main_v272 main_v98 main_v273 (mulf : (⟨S1474560, .f32⟩ : BufTy).Contents (Elt F) → (⟨S1474560, .f32⟩ : BufTy).Contents (Elt F) → (⟨S1474560, .f32⟩ : BufTy).Contents (Elt F)),
    StableHlo.binary main_v273 main_v41 main_v274 (mulf : (⟨S1474560, .f32⟩ : BufTy).Contents (Elt F) → (⟨S1474560, .f32⟩ : BufTy).Contents (Elt F) → (⟨S1474560, .f32⟩ : BufTy).Contents (Elt F)),
    StableHlo.binary main_v274 main_v143 main_v275 (mulf : (⟨S1474560, .f32⟩ : BufTy).Contents (Elt F) → (⟨S1474560, .f32⟩ : BufTy).Contents (Elt F) → (⟨S1474560, .f32⟩ : BufTy).Contents (Elt F)),
    StableHlo.binary main_v275 main_v99 main_v276 (mulf : (⟨S1474560, .f32⟩ : BufTy).Contents (Elt F) → (⟨S1474560, .f32⟩ : BufTy).Contents (Elt F) → (⟨S1474560, .f32⟩ : BufTy).Contents (Elt F)),
    StableHlo.nullary main_cst_50 (constant S_ .f32 0x40800000#32),
    StableHlo.unary main_cst_50 main_v277 (broadcastInDim S1474560 ![] bcast_S_S1474560 : (⟨S_, .f32⟩ : BufTy).Contents (Elt F) → (⟨S1474560, .f32⟩ : BufTy).Contents (Elt F)),
    StableHlo.binary main_v277 main_v41 main_v278 (mulf : (⟨S1474560, .f32⟩ : BufTy).Contents (Elt F) → (⟨S1474560, .f32⟩ : BufTy).Contents (Elt F) → (⟨S1474560, .f32⟩ : BufTy).Contents (Elt F)),
    StableHlo.binary main_v278 main_v62 main_v279 (mulf : (⟨S1474560, .f32⟩ : BufTy).Contents (Elt F) → (⟨S1474560, .f32⟩ : BufTy).Contents (Elt F) → (⟨S1474560, .f32⟩ : BufTy).Contents (Elt F)),
    StableHlo.binary main_v77 main_v82 main_v280 (addf : (⟨S1474560, .f32⟩ : BufTy).Contents (Elt F) → (⟨S1474560, .f32⟩ : BufTy).Contents (Elt F) → (⟨S1474560, .f32⟩ : BufTy).Contents (Elt F)),
    StableHlo.binary main_v279 main_v280 main_v281 (mulf : (⟨S1474560, .f32⟩ : BufTy).Contents (Elt F) → (⟨S1474560, .f32⟩ : BufTy).Contents (Elt F) → (⟨S1474560, .f32⟩ : BufTy).Contents (Elt F)),
    StableHlo.binary main_v62 main_v82 main_v282 (mulf : (⟨S1474560, .f32⟩ : BufTy).Contents (Elt F) → (⟨S1474560, .f32⟩ : BufTy).Contents (Elt F) → (⟨S1474560, .f32⟩ : BufTy).Contents (Elt F)),
    StableHlo.binary main_v77 main_v282 main_v283 (addf : (⟨S1474560, .f32⟩ : BufTy).Contents (Elt F) → (⟨S1474560, .f32⟩ : BufTy).Contents (Elt F) → (⟨S1474560, .f32⟩ : BufTy).Contents (Elt F)),
    StableHlo.binary main_v281 main_v283 main_v284 (mulf : (⟨S1474560, .f32⟩ : BufTy).Contents (Elt F) → (⟨S1474560, .f32⟩ : BufTy).Contents (Elt F) → (⟨S1474560, .f32⟩ : BufTy).Contents (Elt F)),
    StableHlo.binary main_v276 main_v284 main_v285 (addf : (⟨S1474560, .f32⟩ : BufTy).Contents (Elt F) → (⟨S1474560, .f32⟩ : BufTy).Contents (Elt F) → (⟨S1474560, .f32⟩ : BufTy).Contents (Elt F)),
    StableHlo.binary main_v271 main_v285 main_v286 (mulf : (⟨S1474560, .f32⟩ : BufTy).Contents (Elt F) → (⟨S1474560, .f32⟩ : BufTy).Contents (Elt F) → (⟨S1474560, .f32⟩ : BufTy).Contents (Elt F)),
    StableHlo.binary main_v250 main_v240 main_v287 (Host.divf : (⟨S1474560, .f32⟩ : BufTy).Contents (Elt F) → (⟨S1474560, .f32⟩ : BufTy).Contents (Elt F) → (⟨S1474560, .f32⟩ : BufTy).Contents (Elt F)),
    StableHlo.binary main_v257 main_v240 main_v288 (Host.divf : (⟨S1474560, .f32⟩ : BufTy).Contents (Elt F) → (⟨S1474560, .f32⟩ : BufTy).Contents (Elt F) → (⟨S1474560, .f32⟩ : BufTy).Contents (Elt F)),
    StableHlo.binary main_v267 main_v240 main_v289 (Host.divf : (⟨S1474560, .f32⟩ : BufTy).Contents (Elt F) → (⟨S1474560, .f32⟩ : BufTy).Contents (Elt F) → (⟨S1474560, .f32⟩ : BufTy).Contents (Elt F)),
    StableHlo.binary main_v286 main_v240 main_v290 (Host.divf : (⟨S1474560, .f32⟩ : BufTy).Contents (Elt F) → (⟨S1474560, .f32⟩ : BufTy).Contents (Elt F) → (⟨S1474560, .f32⟩ : BufTy).Contents (Elt F)),
    StableHlo.unary main_v236 main_v291 (broadcastInDim S1474560x1 ![0] bcast_S1474560_S1474560x1_0 : (⟨S1474560, .f32⟩ : BufTy).Contents (Elt F) → (⟨S1474560x1, .f32⟩ : BufTy).Contents (Elt F)),
    StableHlo.unary main_v287 main_v292 (broadcastInDim S1474560x1 ![0] bcast_S1474560_S1474560x1_0 : (⟨S1474560, .f32⟩ : BufTy).Contents (Elt F) → (⟨S1474560x1, .f32⟩ : BufTy).Contents (Elt F)),
    StableHlo.unary main_v288 main_v293 (broadcastInDim S1474560x1 ![0] bcast_S1474560_S1474560x1_0 : (⟨S1474560, .f32⟩ : BufTy).Contents (Elt F) → (⟨S1474560x1, .f32⟩ : BufTy).Contents (Elt F)),
    StableHlo.unary main_v289 main_v294 (broadcastInDim S1474560x1 ![0] bcast_S1474560_S1474560x1_0 : (⟨S1474560, .f32⟩ : BufTy).Contents (Elt F) → (⟨S1474560x1, .f32⟩ : BufTy).Contents (Elt F)),
    StableHlo.unary main_v290 main_v295 (broadcastInDim S1474560x1 ![0] bcast_S1474560_S1474560x1_0 : (⟨S1474560, .f32⟩ : BufTy).Contents (Elt F) → (⟨S1474560x1, .f32⟩ : BufTy).Contents (Elt F)),
    StableHlo.nary ![main_v291, main_v292, main_v293, main_v294, main_v295] main_v296 (fun u => concatenate S1474560x5 1 [⟨S1474560x1, u 0⟩, ⟨S1474560x1, u 1⟩, ⟨S1474560x1, u 2⟩, ⟨S1474560x1, u 3⟩, ⟨S1474560x1, u 4⟩] concatenates_S1474560x1_S1474560x1_S1474560x1_S1474560x1_S1474560x1_S1474560x5_d1) ]

/-- @main's 352 operations, in order: the windows one after the other. -/
def ops : List (HloOp τ sig (Elt F)) :=
  ops0 ++ (ops1 ++ (ops2 ++ (ops3 ++ (ops4 ++ (ops5)))))

end Cert.ReferenceIdeal.RefValue

end
-- ==== Proof.RefRun.lean ====
/-
  THE REFERENCE'S RUN, FOLDED. The printed @main is the straight line of the operations listed in RefOps.lean: each
  printed window is the line of its own list (the last statement of a window returns the unit, which is what the
  empty rest of a line returns), the outlined select unfolds at its call to its three operations, and running the
  windows one after the other is running the concatenated list. The signature scopes no buffer and no semaphore and
  every operation touches TensorCore references only, so from any memory with zero counters every weakly fair
  execution terminates, and EVERY buffer ends at the fold of the whole list over the launch contents. Nothing of the
  fold is opened here.
-/
import proofs.«168588_j79491254715037_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
/-- The window with the call: the outlined function's definition unfolded there, its three steps are the list's. -/
theorem part4_eq (c : Dev nD) : main_part4 (F := F) c = seq ops4 := rfl
theorem part5_eq (c : Dev nD) : main_part5 (F := F) c = seq ops5 := rfl

/-- @main is the line of the whole list: the windows in order. -/
theorem main_eq (c : Dev nD) : main (F := F) c = seq ops := by
  unfold main ops
  rw [seq_append, seq_append, seq_append, seq_append, seq_append,
    part0_eq c, part1_eq c, part2_eq c, part3_eq c, part4_eq c, part5_eq c]

theorem scopedRefs_eq : (Finset.univ.filter fun b : Ref sig .tc => b.isScoped) = ∅ := by decide
theorem scopedSems_eq : (Finset.univ.filter fun sm : SemLoc sig => sm.isScoped .tc) = ∅ := by decide

/-- Window by window, every operation touches TensorCore references only: each is one of the builders'. -/
macro "bufs_sub_window" : tactic => `(tactic| simp only [List.forall_cons, List.Forall, nullary_bufs_sub, unary_bufs_sub, binary_bufs_sub,
  ternary_bufs_sub, reshape_bufs_sub, nary_bufs_sub, and_self])

theorem ops0_sub : (ops0 : List (HloOp τ sig (Elt F))).Forall fun op => op.bufs ⊆ tcRefs τ sig := by unfold ops0; bufs_sub_window
theorem ops1_sub : (ops1 : List (HloOp τ sig (Elt F))).Forall fun op => op.bufs ⊆ tcRefs τ sig := by unfold ops1; bufs_sub_window
theorem ops2_sub : (ops2 : List (HloOp τ sig (Elt F))).Forall fun op => op.bufs ⊆ tcRefs τ sig := by unfold ops2; bufs_sub_window
theorem ops3_sub : (ops3 : List (HloOp τ sig (Elt F))).Forall fun op => op.bufs ⊆ tcRefs τ sig := by unfold ops3; bufs_sub_window
theorem ops4_sub : (ops4 : List (HloOp τ sig (Elt F))).Forall fun op => op.bufs ⊆ tcRefs τ sig := by unfold ops4; bufs_sub_window
theorem ops5_sub : (ops5 : List (HloOp τ sig (Elt F))).Forall fun op => op.bufs ⊆ tcRefs τ sig := by unfold ops5; bufs_sub_window

/-- So does every operation of the whole list. -/
theorem ops_sub : (ops : List (HloOp τ sig (Elt F))).Forall fun op => op.bufs ⊆ tcRefs τ sig := by
  rw [List.forall_iff_forall_mem]
  intro op hop
  unfold ops at hop
  rw [List.mem_append, List.mem_append, List.mem_append, List.mem_append, List.mem_append] at hop
  rcases hop with h | h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h

/-- On every device, for any float values, from any memory with zero counters: every weakly fair execution of @main
    terminates, and every TensorCore buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibSsa.lean ====
/-
  SINGLE ASSIGNMENT, READ BACK. A straight line of host operations in which every operation writes buffers that no
  earlier operation touches, and in which no operation's result depends on what its own result buffers held, leaves
  the buffers at a FIXED POINT of each of its operations: what the line leaves in an operation's result buffer is
  that operation's function of what the line leaves in its operands' buffers (`after_eqs`). A program that names a
  fresh buffer for every value is such a line, and the fixed-point equations are then the program's own lines read as
  equations between the final contents: one per operation, each usable by itself.

  The side condition is checked in ONE pass by a rank function `key` on buffers under which the line RISES: each
  operation writes only above a bound on everything touched before it (`Ssa`); buffers numbered in program order,
  each operation reading lower numbers than the one it writes, are the case in point. Per builder of an operation a
  lemma puts one more operation in front of such a line (`ssa_nullary` …), and one reads its equation off the front
  (`eqs_nullary` …).
-/
import Idealize.ShloMosaic.Lib.StableHlo.Run

noncomputable section

namespace Cert.Ssa

open Idealize.ShloMosaic Idealize.ShloMosaic.StableHlo

variable {τ : Topo} {sig : RefSig} {Val : EltTy → Type}

/-- What the operation writes does not depend on what the buffers it writes held before it. -/
def Indep (op : HloOp τ sig Val) : Prop :=
  ∀ F G : Valuation τ sig Val, (∀ x ∈ op.bufs, x ∉ op.writes → F x = G x) → ∀ b ∈ op.writes, op.result F b = op.result G b

/-- The contents `R` are a fixed point of every operation of the list, at the buffers it writes. -/
def Eqs (R : Valuation τ sig Val) : List (HloOp τ sig Val) → Prop
  | [] => True
  | op :: rest => (∀ b ∈ op.writes, R b = op.result R b) ∧ Eqs R rest

theorem eqs_nil (R : Valuation τ sig Val) : Eqs R [] ↔ True := Iff.rfl

theorem eqs_append (R : Valuation τ sig Val) : ∀ l₁ l₂ : List (HloOp τ sig Val), Eqs R (l₁ ++ l₂) ↔ Eqs R l₁ ∧ Eqs R l₂
  | [], l₂ => by rw [List.nil_append]; exact ⟨fun h => ⟨trivial, h⟩, fun h => h.2⟩
  | op :: l₁, l₂ => by
    rw [List.cons_append]
    show (_ ∧ Eqs R (l₁ ++ l₂)) ↔ (_ ∧ Eqs R l₁) ∧ Eqs R l₂
    rw [eqs_append R l₁ l₂, and_assoc]

/-- Under the rank `key` the line rises from `lo`: each operation is independent of its result buffers' old
    contents, writes only buffers ranked above `lo`, and `lo` for the rest of the line bounds everything it
    touches. -/
def Ssa (key : DevRef τ sig → Nat) : Nat → List (HloOp τ sig Val) → Prop
  | _, [] => True
  | lo, op :: rest => Indep op ∧ ∃ m, (∀ w ∈ op.writes, lo < key w) ∧ lo ≤ m ∧ (∀ x ∈ op.bufs, key x ≤ m) ∧ Ssa key m rest

variable {key : DevRef τ sig → Nat}

/-- Every buffer a rising line writes is ranked above its bound. -/
theorem Ssa.lt_writes : ∀ {lo : Nat} {ops : List (HloOp τ sig Val)}, Ssa key lo ops → ∀ o ∈ ops, ∀ w ∈ o.writes, lo < key w
  | _, [], _, _, ho, _, _ => absurd ho List.not_mem_nil
  | _, _ :: _, ⟨_, _, hw, hlm, _, hr⟩, o, ho, w, hwo => by
    rcases List.mem_cons.mp ho with rfl | ho
    · exact hw w hwo
    · exact lt_of_le_of_lt hlm (Ssa.lt_writes hr o ho w hwo)

/-- A buffer ranked at or below the bound is not written: the line leaves it as it found it. -/
theorem Ssa.after_low {lo : Nat} {ops : List (HloOp τ sig Val)} (h : Ssa key lo ops) (V : Valuation τ sig Val)
    {x : DevRef τ sig} (hx : key x ≤ lo) : after ops V x = V x :=
  after_of_forall_not_mem ops V fun o ho hxo => absurd (h.lt_writes o ho x hxo) (not_lt.mpr hx)

/-- **The fixed point.** What a rising line leaves is, at every operation's result buffers, that operation's function
    of what the line leaves. -/
theorem after_eqs : ∀ {lo : Nat} (ops : List (HloOp τ sig Val)) (V : Valuation τ sig Val), Ssa key lo ops → Eqs (after ops V) ops
  | _, [], _, _ => trivial
  | _, op :: rest, V, ⟨hI, _, _, _, hb, hr⟩ => by
    -- the rest of the line writes nothing the first operation touches
    have e1 : ∀ x ∈ op.bufs, after rest (op.result V) x = op.result V x := fun x hx =>
      after_of_forall_not_mem rest _ fun o ho hxo => absurd (hr.lt_writes o ho x hxo) (not_lt.mpr (hb x hx))
    refine ⟨fun b hbw => ?_, after_eqs rest (op.result V) hr⟩
    show after rest (op.result V) b = op.result (after rest (op.result V)) b
    rw [e1 b (op.writes_sub hbw)]
    exact hI V _ (fun x hx hxw => by rw [e1 x hx, op.result_of_not_mem V hxw]) b hbw

/-! ## The builders, one more operation in front -/

section Builders

variable {lo : Nat} {rest : List (HloOp τ sig Val)} {R : Valuation τ sig Val}
variable (x a b c y : Ref sig .tc)

theorem ne_of_key_lt {u v : Ref sig .tc} (h : key (Proc.devRef (τ := τ) .tc u) < key (Proc.devRef (τ := τ) .tc v)) : (Proc.devRef (τ := τ) .tc u) ≠ (Proc.devRef (τ := τ) .tc v) :=
  fun e => absurd (congrArg key e) (Nat.ne_of_lt h)

theorem ssa_nullary (v : y.ty.Contents Val) (hy) (h : lo < key (Proc.devRef (τ := τ) .tc y)) (hr : Ssa key (key (Proc.devRef (τ := τ) .tc y)) rest) :
    Ssa key lo (nullary (τ := τ) y v hy :: rest) :=
  ⟨fun F G _ w hw => by
      rw [nullary_writes, Finset.mem_singleton] at hw; subst hw; rw [nullary_result, nullary_result],
    key (Proc.devRef (τ := τ) .tc y), fun w hw => by rw [nullary_writes, Finset.mem_singleton] at hw; subst hw; exact h, h.le,
    fun z hz => by rw [nullary_bufs, Finset.mem_singleton] at hz; subst hz; exact le_rfl, hr⟩

theorem ssa_unary (f : x.ty.Contents Val → y.ty.Contents Val) (hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (unary (τ := τ) x y f hx hy :: rest) :=
  ⟨fun F G hFG w hw => by
      rw [unary_writes, Finset.mem_singleton] at hw; subst hw
      rw [unary_result, unary_result, hFG _ (by rw [unary_bufs]; exact Finset.mem_insert_self _ _)
        (by rw [unary_writes, Finset.mem_singleton]; exact ne_of_key_lt h1)],
    key (Proc.devRef (τ := τ) .tc y), fun w hw => by rw [unary_writes, Finset.mem_singleton] at hw; subst hw; exact h, h.le,
    fun z hz => by
      rw [unary_bufs, Finset.mem_insert, Finset.mem_singleton] at hz
      rcases hz with rfl | rfl
      · exact h1.le
      · exact le_rfl, hr⟩

theorem ssa_reshape (he hn hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (reshape (τ := τ) (Val := Val) x y he hn hx hy :: rest) :=
  ⟨fun F G hFG w hw => by
      rw [reshape_writes, Finset.mem_singleton] at hw; subst hw
      rw [reshape_result, reshape_result, hFG _ (by rw [reshape_bufs]; exact Finset.mem_insert_self _ _)
        (by rw [reshape_writes, Finset.mem_singleton]; exact ne_of_key_lt h1)],
    key (Proc.devRef (τ := τ) .tc y), fun w hw => by rw [reshape_writes, Finset.mem_singleton] at hw; subst hw; exact h, h.le,
    fun z hz => by
      rw [reshape_bufs, Finset.mem_insert, Finset.mem_singleton] at hz
      rcases hz with rfl | rfl
      · exact h1.le
      · exact le_rfl, hr⟩

theorem ssa_binary (f : a.ty.Contents Val → b.ty.Contents Val → y.ty.Contents Val) (ha hb hy) (h : lo < key (Proc.devRef (τ := τ) .tc y))
    (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (binary (τ := τ) a b y f ha hb hy :: rest) :=
  ⟨fun F G hFG w hw => by
      rw [binary_writes, Finset.mem_singleton] at hw; subst hw
      rw [binary_result, binary_result,
        hFG (Proc.devRef (τ := τ) .tc a) (by rw [binary_bufs]; exact Finset.mem_insert_self _ _)
          (by rw [binary_writes, Finset.mem_singleton]; exact ne_of_key_lt h1),
        hFG (Proc.devRef (τ := τ) .tc b) (by rw [binary_bufs]; exact Finset.mem_insert_of_mem (Finset.mem_insert_self _ _))
          (by rw [binary_writes, Finset.mem_singleton]; exact ne_of_key_lt h2)],
    key (Proc.devRef (τ := τ) .tc y), fun w hw => by rw [binary_writes, Finset.mem_singleton] at hw; subst hw; exact h, h.le,
    fun z hz => by
      rw [binary_bufs, Finset.mem_insert, Finset.mem_insert, Finset.mem_singleton] at hz
      rcases hz with rfl | rfl | rfl
      · exact h1.le
      · exact h2.le
      · exact le_rfl, hr⟩

theorem ssa_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y)) (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (ternary (τ := τ) c a b y f hc ha hb hy :: rest) :=
  ⟨fun F G hFG w hw => by
      rw [ternary_writes, Finset.mem_singleton] at hw; subst hw
      rw [ternary_result, ternary_result,
        hFG (Proc.devRef (τ := τ) .tc c) (by rw [ternary_bufs]; exact Finset.mem_insert_self _ _)
          (by rw [ternary_writes, Finset.mem_singleton]; exact ne_of_key_lt h0),
        hFG (Proc.devRef (τ := τ) .tc a) (by rw [ternary_bufs]; exact Finset.mem_insert_of_mem (Finset.mem_insert_self _ _))
          (by rw [ternary_writes, Finset.mem_singleton]; exact ne_of_key_lt h1),
        hFG (Proc.devRef (τ := τ) .tc b) (by rw [ternary_bufs]; exact Finset.mem_insert_of_mem (Finset.mem_insert_of_mem (Finset.mem_insert_self _ _)))
          (by rw [ternary_writes, Finset.mem_singleton]; exact ne_of_key_lt h2)],
    key (Proc.devRef (τ := τ) .tc y), fun w hw => by rw [ternary_writes, Finset.mem_singleton] at hw; subst hw; exact h, h.le,
    fun z hz => by
      rw [ternary_bufs, Finset.mem_insert, Finset.mem_insert, Finset.mem_insert, Finset.mem_singleton] at hz
      rcases hz with rfl | rfl | rfl | rfl
      · exact h0.le
      · exact h1.le
      · exact h2.le
      · exact le_rfl, hr⟩

theorem ssa_nary {n : Nat} (xs : Fin n → Ref sig .tc) (f : ((k : Fin n) → (xs k).ty.Contents Val) → y.ty.Contents Val) (hxs hy)
    (h : lo < key (Proc.devRef (τ := τ) .tc y)) (h1 : ∀ k, key (Proc.devRef (τ := τ) .tc (xs k)) < key (Proc.devRef (τ := τ) .tc y))
    (hr : Ssa key (key (Proc.devRef (τ := τ) .tc y)) rest) : Ssa key lo (nary (τ := τ) xs y f hxs hy :: rest) :=
  ⟨fun F G hFG w hw => by
      rw [nary_writes, Finset.mem_singleton] at hw; subst hw
      rw [nary_result, nary_result]
      congr 1
      funext k
      exact hFG (Proc.devRef (τ := τ) .tc (xs k))
        (show (Proc.devRef (τ := τ) .tc (xs k)) ∈ insert (Proc.devRef (τ := τ) .tc y) (Finset.univ.image fun j => (Proc.devRef (τ := τ) .tc (xs j))) from
          Finset.mem_insert_of_mem (Finset.mem_image_of_mem _ (Finset.mem_univ k)))
        (by rw [nary_writes, Finset.mem_singleton]; exact ne_of_key_lt (h1 k)),
    key (Proc.devRef (τ := τ) .tc y), fun w hw => by rw [nary_writes, Finset.mem_singleton] at hw; subst hw; exact h, h.le,
    fun z hz => by
      rcases Finset.mem_insert.mp (show z ∈ insert (Proc.devRef (τ := τ) .tc y) (Finset.univ.image fun j => (Proc.devRef (τ := τ) .tc (xs j))) from hz) with rfl | hz
      · exact le_rfl
      · obtain ⟨k, -, rfl⟩ := Finset.mem_image.mp hz
        exact (h1 k).le, hr⟩

/-! ## … and its equation read off the front -/

theorem eqs_nullary (v : y.ty.Contents Val) (hy) :
    Eqs R (nullary (τ := τ) y v hy :: rest) ↔ R (Proc.devRef (τ := τ) .tc y) = v ∧ Eqs R rest := by
  show (∀ w ∈ (nullary (τ := τ) y v hy).writes, _) ∧ _ ↔ _
  rw [nullary_writes]; simp only [Finset.mem_singleton, forall_eq]; rw [nullary_result]

theorem eqs_unary (f : x.ty.Contents Val → y.ty.Contents Val) (hx hy) :
    Eqs R (unary (τ := τ) x y f hx hy :: rest) ↔ R (Proc.devRef (τ := τ) .tc y) = f (R (Proc.devRef (τ := τ) .tc x)) ∧ Eqs R rest := by
  show (∀ w ∈ (unary (τ := τ) x y f hx hy).writes, _) ∧ _ ↔ _
  rw [unary_writes]; simp only [Finset.mem_singleton, forall_eq]; rw [unary_result]

theorem eqs_reshape (he hn hx hy) :
    Eqs R (reshape (τ := τ) (Val := Val) x y he hn hx hy :: rest)
      ↔ R (Proc.devRef (τ := τ) .tc y) = (fun i => he ▸ shapeCast y.ty.shape (R (Proc.devRef (τ := τ) .tc x)) hn i) ∧ Eqs R rest := by
  show (∀ w ∈ (reshape (τ := τ) (Val := Val) x y he hn hx hy).writes, _) ∧ _ ↔ _
  rw [reshape_writes]; simp only [Finset.mem_singleton, forall_eq]; rw [reshape_result]

theorem eqs_binary (f : a.ty.Contents Val → b.ty.Contents Val → y.ty.Contents Val) (ha hb hy) :
    Eqs R (binary (τ := τ) a b y f ha hb hy :: rest) ↔ R (Proc.devRef (τ := τ) .tc y) = f (R (Proc.devRef (τ := τ) .tc a)) (R (Proc.devRef (τ := τ) .tc b)) ∧ Eqs R rest := by
  show (∀ w ∈ (binary (τ := τ) a b y f ha hb hy).writes, _) ∧ _ ↔ _
  rw [binary_writes]; simp only [Finset.mem_singleton, forall_eq]; rw [binary_result]

theorem eqs_ternary (f : c.ty.Contents Val → a.ty.Contents Val → b.ty.Contents Val → y.ty.Contents Val) (hc ha hb hy) :
    Eqs R (ternary (τ := τ) c a b y f hc ha hb hy :: rest)
      ↔ R (Proc.devRef (τ := τ) .tc y) = f (R (Proc.devRef (τ := τ) .tc c)) (R (Proc.devRef (τ := τ) .tc a)) (R (Proc.devRef (τ := τ) .tc b)) ∧ Eqs R rest := by
  show (∀ w ∈ (ternary (τ := τ) c a b y f hc ha hb hy).writes, _) ∧ _ ↔ _
  rw [ternary_writes]; simp only [Finset.mem_singleton, forall_eq]; rw [ternary_result]

theorem eqs_nary {n : Nat} (xs : Fin n → Ref sig .tc) (f : ((k : Fin n) → (xs k).ty.Contents Val) → y.ty.Contents Val) (hxs hy) :
    Eqs R (nary (τ := τ) xs y f hxs hy :: rest) ↔ R (Proc.devRef (τ := τ) .tc y) = f (fun k => R (Proc.devRef (τ := τ) .tc (xs k))) ∧ Eqs R rest := by
  show (∀ w ∈ (nary (τ := τ) xs y f hxs hy).writes, _) ∧ _ ↔ _
  rw [nary_writes]; simp only [Finset.mem_singleton, forall_eq]; rw [nary_result]

end Builders

end Cert.Ssa

end
-- ==== Proof.RefEqs.lean ====
/-
  THE REFERENCE'S LINES AS EQUATIONS. The signature numbers the buffers in program order: every operation of the
  reference writes a buffer numbered above every buffer that it or an earlier operation reads. Ranked by that number
  the whole line rises (Cert.Ssa), from 3 — the four arguments are buffers 0 … 3 and nothing writes them. So the
  arguments end as they began, and what the run leaves in the buffers is a fixed point of every operation: each
  printed line, read as an equation between final contents, holds (`after_eqs`).
-/
import proofs.«168588_j79491254715037_1_alg».proof.Proof.RefOps
import proofs.«168588_j79491254715037_1_alg».proof.Proof.LibSsa

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Ssa

variable {F : FTy → Type} [FloatOps F]

/-- A buffer's rank: its number in the signature's table. -/
abbrev key : DevRef τ sig → Nat := fun d => d.idx.val

/-- One operation at a time off the front of a literal line: its result buffer's number is above the bound so far,
    its operands' numbers below its result's (each a comparison of two literals). -/
macro "ssa_steps" : tactic => `(tactic| repeat (first
    | exact trivial
    | refine ssa_binary _ _ _ _ _ _ _ (by decide) (by decide) (by decide) ?_
    | refine ssa_unary _ _ _ _ _ (by decide) (by decide) ?_
    | refine ssa_nullary _ _ _ (by decide) ?_
    | refine ssa_reshape _ _ _ _ _ _ (by decide) (by decide) ?_
    | refine ssa_ternary _ _ _ _ _ _ _ _ _ (by decide) (by decide) (by decide) (by decide) ?_
    | refine ssa_nary _ _ _ _ _ (by decide) (by decide) ?_))

-- the builders stay folded while the line is walked: which builder an operation is made with is then read off its
-- name, and a lemma for another builder is passed over without opening either
attribute [local irreducible] StableHlo.nullary StableHlo.unary StableHlo.binary StableHlo.ternary StableHlo.reshape StableHlo.nary in
set_option maxHeartbeats 4000000 in
set_option maxRecDepth 8192 in
/-- The whole line rises from 3. -/
theorem ops_ssa : Ssa key 3 (ops : List (HloOp τ sig (Elt F))) := by
  unfold ops ops0 ops1 ops2 ops3 ops4 ops5
  ssa_steps

end Cert.ReferenceIdeal.RefValue

end
-- ==== Proof.RefIdx.lean ====
/-
  LAYOUT OPERATIONS OF THE REFERENCE READ AT AN INDEX, for any number of rows N. The reference moves whole columns
  about: a scalar constant is broadcast to a vector; column o of an [N, m] table is cut out as an [N, 1] array and
  cast to a vector [N]; a result vector [N] is broadcast back to an [N, 1] column; five such columns are concatenated
  to the [N, 5] result. Read at row n each is the operand at row n: nothing of one row reaches another.
-/
import Idealize.ShloMosaic.Lib.ValueLayout

noncomputable section

namespace Cert.RefIdx

open Idealize.ShloMosaic Idealize.ShloMosaic.ValueIdx

variable {α : Type}

/-- A scalar broadcast to any shape reads the scalar everywhere. -/
theorem bcast0_apply {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- A vector [N] broadcast to an [N, 1] column reads, at row n, the vector at n. -/
theorem bcastCol_apply {N : Nat} (h : (⟨1, ![N]⟩ : Shape).BroadcastsInDim ⟨2, ![N, 1]⟩ ![0])
    (x : (⟨1, ![N]⟩ : Shape).Idx → α) (n : Fin N) (u : Fin 1) :
    broadcastInDim ⟨2, ![N, 1]⟩ ![0] h x (ix2 n u) = x (ix1 n) :=
  broadcastInDim_apply _ h x (ix2 n u) (ix1 n) (fun a => by
    match a with
    | ⟨0, _⟩ =>
      show n.val = if N = 1 then 0 else n.val
      split
      · have := n.isLt; omega
      · rfl)

/-- Column o of an [N, m] table, cut out as an [N, 1] array and cast to a vector [N], reads at n the table at (n, o). -/
theorem col_apply {N m : Nat} (o : Nat) (X : (⟨2, ![N, m]⟩ : Shape).Idx → α)
    (hs : (⟨2, ![N, m]⟩ : Shape).Slices ![0, o] ⟨2, ![N, 1]⟩) (hc : (⟨2, ![N, 1]⟩ : Shape).ShapeCasts ⟨1, ![N]⟩)
    (n : Fin N) (k : Fin m) (hk : k.val = o) :
    shapeCast ⟨1, ![N]⟩ (extractStridedSlice ⟨2, ![N, 1]⟩ ![0, o] X hs) hc (ix1 n) = X (ix2 n k) := by
  rw [shapeCast_apply _ hc (ix1 n) (ix2 n (0 : Fin 1)) (by
      rw [Shape.rowMajor_val_two, Shape.rowMajor_val_one]
      show n.val * 1 + 0 = n.val
      omega),
    slice2_axis1_apply o X hs n 0 k (by rw [hk]; rfl)]

/-- Five [N, 1] columns concatenated along the second axis read, at (n, k), column k at row n. -/
theorem concat5_apply {N : Nat} (u0 u1 u2 u3 u4 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩] :
      List ((s : Shape) × (s.Idx → α))).map (·.1)) ⟨2, ![N, 5]⟩ 1) (n : Fin N) (k : Fin 5) :
    concatenate ⟨2, ![N, 5]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩] h (ix2 n k)
      = (![u0, u1, u2, u3, u4] k) (ix2 n (0 : Fin 1)) := by
  have hi : ∀ b : Fin 2, b.cast rfl ≠ (1 : Fin 2) → ((ix2 n (0 : Fin 1) : (⟨2, ![N, 1]⟩ : Shape).Idx) b).val = ((ix2 n k : (⟨2, ![N, 5]⟩ : Shape).Idx) (b.cast rfl)).val := by
    intro b hb
    match b with
    | ⟨0, _⟩ => rfl
    | ⟨1, _⟩ => exact absurd rfl hb
  fin_cases k
  · exact concatenate_apply_piece 1 _ h _ 0 (by simp) _ u0 rfl rfl 0 rfl (ix2 n (0 : Fin 1)) hi rfl
  · exact concatenate_apply_piece 1 _ h _ 1 (by simp) _ u1 rfl rfl 1 rfl (ix2 n (0 : Fin 1)) hi rfl
  · exact concatenate_apply_piece 1 _ h _ 2 (by simp) _ u2 rfl rfl 2 rfl (ix2 n (0 : Fin 1)) hi rfl
  · exact concatenate_apply_piece 1 _ h _ 3 (by simp) _ u3 rfl rfl 3 rfl (ix2 n (0 : Fin 1)) hi rfl
  · exact concatenate_apply_piece 1 _ h _ 4 (by simp) _ u4 rfl rfl 4 rfl (ix2 n (0 : Fin 1)) hi rfl

end Cert.RefIdx

end
-- ==== Proof.RefValue.lean ====
/-
  WHAT THE REFERENCE COMPUTES. Its result buffer ends at the table of observables (Cert.Obs.table) of three arrays:
  the per-point form factors (the scaled parameter table gathered by point: `cffTable`), the per-point kinematics
  (the kinematics table gathered by point: `kinTable`) and the azimuths, an argument. The two gathered tables are
  kept as the host operations' own composition and never opened. After the gathers the program is elementwise: it
  cuts the tables into their columns, runs one chain of vector operations over them, and puts the five result
  vectors side by side. Each printed line holds as an equation between the final contents (RefEqs.lean); read at
  one row n, every vector operation is the scalar operation on the operands at row n, a column of a table at row n
  is the table's entry (n, column), a broadcast constant is the constant, and the chain is then, line for line, the
  chain of Cert.Obs.obs at the twelve numbers of point n.
-/
import proofs.«168588_j79491254715037_1_alg».proof.Proof.RefRun
import proofs.«168588_j79491254715037_1_alg».proof.Proof.RefEqs
import proofs.«168588_j79491254715037_1_alg».proof.Proof.RefIdx
import proofs.«168588_j79491254715037_1_alg».proof.Proof.ObsTable

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Ssa Cert.RefIdx

/-- The per-point form factors: the parameter table scaled column by column (the eight scales a dense constant,
    broadcast over the rows), then row `point_id` of it for every point (a negative id counted from the end, as the
    program writes it) — the reference's first thirteen operations, composed. -/
def cffTable (a0 : (⟨S4096x8, .f32⟩ : BufTy).Contents (Elt Ideal)) (a2 : (⟨S1474560, .i32⟩ : BufTy).Contents (Elt Ideal)) : (⟨S1474560x8, .f32⟩ : BufTy).Contents (Elt Ideal) :=
  Host.gather gather_S4096x8_S1474560x1_S1474560x8_1_0_n_n_0_1_18
    (mulf (F := Ideal) (s := S4096x8) (φ := .f32) a0
      (broadcastInDim S4096x8 ![0, 1] bcast_S1x8_S4096x8_0_1
        (broadcastInDim S1x8 ![1] bcast_S8_S1x8_1 (fun i => FloatOps.ofBits (F := Ideal) .f32 (lit0 (S8.rowMajor i))))))
    (broadcastInDim S1474560x1 ![0] bcast_S1474560_S1474560x1_0
      (select
        (cmpi .slt a2 (broadcastInDim S1474560 ![] bcast_S_S1474560 (constantI S_ 32 0#32)))
        (addi a2 (broadcastInDim S1474560 ![] bcast_S_S1474560 (constantI S_ 32 4096#32)))
        a2))

/-- The per-point kinematics: row `point_id` of the kinematics table for every point — the reference's next nine
    operations, composed. -/
def kinTable (a1 : (⟨S4096x3, .f32⟩ : BufTy).Contents (Elt Ideal)) (a2 : (⟨S1474560, .i32⟩ : BufTy).Contents (Elt Ideal)) : (⟨S1474560x3, .f32⟩ : BufTy).Contents (Elt Ideal) :=
  Host.gather gather_S4096x3_S1474560x1_S1474560x3_1_0_n_n_0_1_13 a1
    (broadcastInDim S1474560x1 ![0] bcast_S1474560_S1474560x1_0
      (select
        (cmpi .slt a2 (broadcastInDim S1474560 ![] bcast_S_S1474560 (constantI S_ 32 0#32)))
        (addi a2 (broadcastInDim S1474560 ![] bcast_S_S1474560 (constantI S_ 32 4096#32)))
        a2))

/-! ## The host's vector operations at an index, at the ideal instance -/

section AtIdeal
variable {s : Shape} {φ : FTy}
theorem hostDivf_apply (a b : FVec Ideal s φ) (i : s.Idx) : Host.divf a b i = Ideal.div (a i) (b i) := rfl
theorem hostNegf_apply (a : FVec Ideal s φ) (i : s.Idx) : Host.negf a i = -(a i) := rfl
theorem hostAbsf_apply (a : FVec Ideal s φ) (i : s.Idx) : Host.absf a i = max (a i) (-(a i)) := rfl
theorem hostSqrt_apply (a : FVec Ideal s φ) (i : s.Idx) : Host.sqrt a i = Ideal.sqrt (a i) := rfl
theorem hostCos_apply (a : FVec Ideal s φ) (i : s.Idx) : Host.cos a i = Ideal.cos (a i) := rfl
theorem hostSin_apply (a : FVec Ideal s φ) (i : s.Idx) : Host.sin a i = Ideal.sin (a i) := rfl
theorem cmpfI_apply (p : CmpFPredicate) (a b : FVec Ideal s φ) (i : s.Idx) : cmpf p a b i = Ideal.cmp p (a i) (b i) := rfl
end AtIdeal

/-! ## The program's two broadcasts, in its own words -/

/-- The program's broadcast of a scalar to a vector reads the scalar at every row. -/
theorem bcastS_apply {α : Type} (x : (⟨0, ![]⟩ : Shape).Idx → α) (i : S1474560.Idx) :
    broadcastInDim S1474560 (![] : Fin 0 → Fin 1) bcast_S_S1474560 x i = x ix0 := bcast0_apply _ x i

/-- The program's broadcast of a vector to a one-column table reads, at row n, the vector at n. -/
theorem bcastC_apply {α : Type} (x : S1474560.Idx → α) (n : Fin 1474560) (u : Fin 1) :
    broadcastInDim S1474560x1 (![0] : Fin 1 → Fin 2) bcast_S1474560_S1474560x1_0 x (ix2 n u) = x (ix1 n) := bcastCol_apply _ x n u

/-! ## The result, read at a row -/

set_option maxHeartbeats 16000000 in
set_option maxRecDepth 16384 in
/-- What the fold of the reference's operations leaves in the result buffer: the table of observables. -/
theorem value (V : Valuation τ sig (Elt Ideal)) :
    after ops V (main_v296 : DevRef τ sig)
      = Cert.Obs.table (cffTable (V (main_arg0 : DevRef τ sig)) (V (main_arg2 : DevRef τ sig)))
          (kinTable (V (main_arg1 : DevRef τ sig)) (V (main_arg2 : DevRef τ sig))) (V (main_arg3 : DevRef τ sig)) := by
  have hs : Ssa key 3 (ops : List (HloOp τ sig (Elt Ideal))) := ops_ssa
  have hE := after_eqs ops V hs
  have h0 : after ops V (main_arg0 : DevRef τ sig) = V (main_arg0 : DevRef τ sig) := hs.after_low V (by decide)
  have h1 : after ops V (main_arg1 : DevRef τ sig) = V (main_arg1 : DevRef τ sig) := hs.after_low V (by decide)
  have h2 : after ops V (main_arg2 : DevRef τ sig) = V (main_arg2 : DevRef τ sig) := hs.after_low V (by decide)
  have h3 : after ops V (main_arg3 : DevRef τ sig) = V (main_arg3 : DevRef τ sig) := hs.after_low V (by decide)
  generalize after ops V = R at hE h0 h1 h2 h3 ⊢
  clear hs
  unfold ops at hE
  rw [eqs_append, eqs_append, eqs_append, eqs_append, eqs_append] at hE
  obtain ⟨hE0, hE1, hE2, hE3, hE4, hE5⟩ := hE
  unfold ops0 at hE0
  unfold ops1 at hE1
  unfold ops2 at hE2
  unfold ops3 at hE3
  unfold ops4 at hE4
  unfold ops5 at hE5
  simp only [eqs_nullary, eqs_unary, eqs_binary, eqs_ternary, eqs_reshape, eqs_nary, eqs_nil, and_true] at hE0 hE1 hE2 hE3 hE4 hE5
  obtain ⟨e_cst, e0, e1, e2, e_c, e3, e4, e_c0, e5, e6, e7, e8, e9, e_c1, e10, e11, e_c2, e12, e13, e14, e15, e16, e17, e18, e19, e20, e21, e22, e23, e24, e25, e26, e27, e28, e29, e30, e31, e32, e33, e34, e35, e36, e37, e38, hB0⟩ := hE0
  -- the two gathered tables: the first operations composed, never opened
  have hC : R (main_v9 : DevRef τ sig) = cffTable (V (main_arg0 : DevRef τ sig)) (V (main_arg2 : DevRef τ sig)) := by
    rw [e9, e2, e1, e0, e_cst, e8, e7, e4, e3, e_c, e6, e5, e_c0, h0, h2]; rfl
  have hK : R (main_v16 : DevRef τ sig) = kinTable (V (main_arg1 : DevRef τ sig)) (V (main_arg2 : DevRef τ sig)) := by
    rw [e16, e15, e14, e11, e10, e_c1, e13, e12, e_c2, h1, h2]; rfl
  -- their columns, cut out and flattened, read at a row
  have k0 : ∀ n : Fin 1474560, R (main_v18 : DevRef τ sig) (ix1 n) = R (main_v16 : DevRef τ sig) (ix2 n 0) := fun n => by
    rw [e18, e17]; exact col_apply 0 _ _ _ n 0 rfl
  have k1 : ∀ n : Fin 1474560, R (main_v20 : DevRef τ sig) (ix1 n) = R (main_v16 : DevRef τ sig) (ix2 n 1) := fun n => by
    rw [e20, e19]; exact col_apply 1 _ _ _ n 1 rfl
  have k2 : ∀ n : Fin 1474560, R (main_v22 : DevRef τ sig) (ix1 n) = R (main_v16 : DevRef τ sig) (ix2 n 2) := fun n => by
    rw [e22, e21]; exact col_apply 2 _ _ _ n 2 rfl
  have c0 : ∀ n : Fin 1474560, R (main_v24 : DevRef τ sig) (ix1 n) = R (main_v9 : DevRef τ sig) (ix2 n 0) := fun n => by
    rw [e24, e23]; exact col_apply 0 _ _ _ n 0 rfl
  have c1 : ∀ n : Fin 1474560, R (main_v26 : DevRef τ sig) (ix1 n) = R (main_v9 : DevRef τ sig) (ix2 n 1) := fun n => by
    rw [e26, e25]; exact col_apply 1 _ _ _ n 1 rfl
  have c2 : ∀ n : Fin 1474560, R (main_v28 : DevRef τ sig) (ix1 n) = R (main_v9 : DevRef τ sig) (ix2 n 2) := fun n => by
    rw [e28, e27]; exact col_apply 2 _ _ _ n 2 rfl
  have c3 : ∀ n : Fin 1474560, R (main_v30 : DevRef τ sig) (ix1 n) = R (main_v9 : DevRef τ sig) (ix2 n 3) := fun n => by
    rw [e30, e29]; exact col_apply 3 _ _ _ n 3 rfl
  have c4 : ∀ n : Fin 1474560, R (main_v32 : DevRef τ sig) (ix1 n) = R (main_v9 : DevRef τ sig) (ix2 n 4) := fun n => by
    rw [e32, e31]; exact col_apply 4 _ _ _ n 4 rfl
  have c5 : ∀ n : Fin 1474560, R (main_v34 : DevRef τ sig) (ix1 n) = R (main_v9 : DevRef τ sig) (ix2 n 5) := fun n => by
    rw [e34, e33]; exact col_apply 5 _ _ _ n 5 rfl
  have c6 : ∀ n : Fin 1474560, R (main_v36 : DevRef τ sig) (ix1 n) = R (main_v9 : DevRef τ sig) (ix2 n 6) := fun n => by
    rw [e36, e35]; exact col_apply 6 _ _ _ n 6 rfl
  have c7 : ∀ n : Fin 1474560, R (main_v38 : DevRef τ sig) (ix1 n) = R (main_v9 : DevRef τ sig) (ix2 n 7) := fun n => by
    rw [e38, e37]; exact col_apply 7 _ _ _ n 7 rfl
  clear e_cst e0 e1 e2 e_c e3 e4 e_c0 e5 e6 e7 e8 e9 e_c1 e10 e11 e_c2 e12 e13 e14 e15 e16 e17 e18 e19 e20 e21 e22 e23 e24 e25 e26 e27 e28 e29 e30 e31 e32 e33 e34 e35 e36 e37 e38
  simp only [TRef.toBuf, TRef.ofBuf, cast_eq, id_eq] at hE4
  -- the result at row n, column k: every vector operation the scalar one at row n, down to the twelve numbers
  show (R (main_v296 : DevRef τ sig) : (⟨2, ![1474560, 5]⟩ : Shape).Idx → EReal) = _
  funext j
  obtain ⟨n, k, rfl⟩ : ∃ n k, j = ix2 n k := ⟨j 0, j 1, eq_ix2 j⟩
  rw [Cert.Obs.table_apply]
  fin_cases k
  · show R (main_v296 : DevRef τ sig) (ix2 n (0 : Fin 5)) = Cert.Obs.obs _ _ _ _ _ _ _ _ _ _ _ _ (0 : Fin 5)
    simp only [hB0, hE1, hE2, hE3, hE4, hE5, hC, hK, h3, k0, k1, k2, c0, c1, c2, c3, c4, c5, c6, c7,
      mulf_apply, addf_apply, subf_apply, maximumf_apply, hostDivf_apply, hostNegf_apply, hostAbsf_apply, hostSqrt_apply,
      hostCos_apply, hostSin_apply, cmpfI_apply, select_apply, constant_apply, bcastS_apply, bcastC_apply, concat5_apply,
      Matrix.cons_val]
    rfl
  · show R (main_v296 : DevRef τ sig) (ix2 n (1 : Fin 5)) = Cert.Obs.obs _ _ _ _ _ _ _ _ _ _ _ _ (1 : Fin 5)
    simp only [hB0, hE1, hE2, hE3, hE4, hE5, hC, hK, h3, k0, k1, k2, c0, c1, c2, c3, c4, c5, c6, c7,
      mulf_apply, addf_apply, subf_apply, maximumf_apply, hostDivf_apply, hostNegf_apply, hostAbsf_apply, hostSqrt_apply,
      hostCos_apply, hostSin_apply, cmpfI_apply, select_apply, constant_apply, bcastS_apply, bcastC_apply, concat5_apply,
      Matrix.cons_val]
    rfl
  · show R (main_v296 : DevRef τ sig) (ix2 n (2 : Fin 5)) = Cert.Obs.obs _ _ _ _ _ _ _ _ _ _ _ _ (2 : Fin 5)
    simp only [hB0, hE1, hE2, hE3, hE4, hE5, hC, hK, h3, k0, k1, k2, c0, c1, c2, c3, c4, c5, c6, c7,
      mulf_apply, addf_apply, subf_apply, maximumf_apply, hostDivf_apply, hostNegf_apply, hostAbsf_apply, hostSqrt_apply,
      hostCos_apply, hostSin_apply, cmpfI_apply, select_apply, constant_apply, bcastS_apply, bcastC_apply, concat5_apply,
      Matrix.cons_val]
    rfl
  · show R (main_v296 : DevRef τ sig) (ix2 n (3 : Fin 5)) = Cert.Obs.obs _ _ _ _ _ _ _ _ _ _ _ _ (3 : Fin 5)
    simp only [hB0, hE1, hE2, hE3, hE4, hE5, hC, hK, h3, k0, k1, k2, c0, c1, c2, c3, c4, c5, c6, c7,
      mulf_apply, addf_apply, subf_apply, maximumf_apply, hostDivf_apply, hostNegf_apply, hostAbsf_apply, hostSqrt_apply,
      hostCos_apply, hostSin_apply, cmpfI_apply, select_apply, constant_apply, bcastS_apply, bcastC_apply, concat5_apply,
      Matrix.cons_val]
    rfl
  · show R (main_v296 : DevRef τ sig) (ix2 n (4 : Fin 5)) = Cert.Obs.obs _ _ _ _ _ _ _ _ _ _ _ _ (4 : Fin 5)
    simp only [hB0, hE1, hE2, hE3, hE4, hE5, hC, hK, h3, k0, k1, k2, c0, c1, c2, c3, c4, c5, c6, c7,
      mulf_apply, addf_apply, subf_apply, maximumf_apply, hostDivf_apply, hostNegf_apply, hostAbsf_apply, hostSqrt_apply,
      hostCos_apply, hostSin_apply, cmpfI_apply, select_apply, constant_apply, bcastS_apply, bcastC_apply, concat5_apply,
      Matrix.cons_val]
    rfl

/-- The four arguments end as they began: nothing writes them. -/
theorem arg0_eq (V : Valuation τ sig (Elt Ideal)) : after ops V (main_arg0 : DevRef τ sig) = V (main_arg0 : DevRef τ sig) :=
  (ops_ssa (F := Ideal)).after_low V (by decide)
theorem arg1_eq (V : Valuation τ sig (Elt Ideal)) : after ops V (main_arg1 : DevRef τ sig) = V (main_arg1 : DevRef τ sig) :=
  (ops_ssa (F := Ideal)).after_low V (by decide)
theorem arg2_eq (V : Valuation τ sig (Elt Ideal)) : after ops V (main_arg2 : DevRef τ sig) = V (main_arg2 : DevRef τ sig) :=
  (ops_ssa (F := Ideal)).after_low V (by decide)
theorem arg3_eq (V : Valuation τ sig (Elt Ideal)) : after ops V (main_arg3 : DevRef τ sig) = V (main_arg3 : DevRef τ sig) :=
  (ops_ssa (F := Ideal)).after_low V (by decide)

/-- On every device, at the ideal instance, from any memory with zero counters: every weakly fair execution of @main
    terminates with the result buffer at the table of observables of the gathered form factors, the gathered
    kinematics and the azimuths, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v296)
        = Cert.Obs.table
            (cffTable (m ((c.tc : Thread nD τ).loc main_arg0)) (m ((c.tc : Thread nD τ).loc main_arg2)))
            (kinTable (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v296).trans (value _), (h c main_arg0).trans (arg0_eq _),
      (h c main_arg1).trans (arg1_eq _), (h c main_arg2).trans (arg2_eq _), (h c main_arg3).trans (arg3_eq _)⟩)
    (run_all m ρ)

end Cert.ReferenceIdeal.RefValue

end
-- ==== Proof.lean ====
/-
  The claim: a Pallas kernel that evaluates a BKM10-style set of five observables (cross-section xs and the
  asymmetries bsa, bca, tsa, dsa) at N = 1474560 points, against its plain jnp reference, equal as extended reals.

  Both programs first build, by the same host operations on the same arguments, two per-point tables: the eight
  scaled Compton form factors theta · scales gathered by point_id, [N, 8], and the kinematics (t, xb, q2) gathered
  by point_id, [N, 3]. The gathers are never opened: they are one term on both sides.
  The reference slices the tables into twelve vectors [N], applies the formula operation by operation on whole
  vectors, and stacks the five results as the columns of [N, 5].
  The kernel transposes the tables, re-lays them (and the azimuths) as planes of 11520 rows by 128 lanes, runs the
  formula on 32 bands of 360 rows — every operation acting on each lane alone —, and undoes the layout of the
  [5, 11520, 128] result.
  Each operation is the exact one on the extended reals, the same on both sides (a host quotient, square root,
  sine, cosine, negation and absolute value are the kernel's at this instance; the kernel's 0 − t is the host's −t),
  the float constants are the same words on both sides, and no law of algebra is needed beyond 0 − x = −x: so the
  precondition is never opened. Row n, column k of either result is observable k (Cert.Obs.obs) of point n's
  twelve numbers: Cert.Obs.table of the two gathered tables and the azimuths.

  The two kernel frames are the generated ones; the reference's frame is its run with the result dropped; the
  idealization rewrote nothing, so there is nothing to preserve.
-/
import proofs.«168588_j79491254715037_1_alg».proof.Defs
import proofs.«168588_j79491254715037_1_alg».proof.Proof.Gen.Kernel
import proofs.«168588_j79491254715037_1_alg».proof.Proof.Gen.Kernel.Skeleton
import proofs.«168588_j79491254715037_1_alg».proof.Proof.Gen.Kernel.Launch
import proofs.«168588_j79491254715037_1_alg».proof.Proof.Gen.Kernel.Points
import proofs.«168588_j79491254715037_1_alg».proof.Proof.Gen.Kernel.Frame
import proofs.«168588_j79491254715037_1_alg».proof.Proof.Gen.KernelIdeal
import proofs.«168588_j79491254715037_1_alg».proof.Proof.Gen.KernelIdeal.Skeleton
import proofs.«168588_j79491254715037_1_alg».proof.Proof.Gen.KernelIdeal.Launch
import proofs.«168588_j79491254715037_1_alg».proof.Proof.Gen.KernelIdeal.Points
import proofs.«168588_j79491254715037_1_alg».proof.Proof.Gen.KernelIdeal.Frame
import proofs.«168588_j79491254715037_1_alg».proof.Proof.Gen.ReferenceIdeal
import proofs.«168588_j79491254715037_1_alg».proof.Proof.Gen.Pre_finite_inputs
import proofs.«168588_j79491254715037_1_alg».proof.Proof.KValue
import proofs.«168588_j79491254715037_1_alg».proof.Proof.RefValue
import Idealize.ShloMosaic.Adequacy
import Idealize.ShloMosaic.Init

noncomputable section

namespace Cert.Proof

open Idealize.ShloMosaic Idealize.SL.Sem

/-- The two programs gather the same form-factor table: the same operations on the same arguments. -/
theorem cff_same (a0 : FVec Ideal Cert.KernelIdeal.S4096x8 .f32) (a2 : IVec Cert.KernelIdeal.S1474560 32) :
    Cert.ReferenceIdeal.RefValue.cffTable a0 a2 = Cert.KernelIdeal.Tables.cffTable a0 a2 := rfl

/-- The two programs gather the same kinematics table. -/
theorem kin_same (a1 : FVec Ideal Cert.KernelIdeal.S4096x3 .f32) (a2 : IVec Cert.KernelIdeal.S1474560 32) :
    Cert.ReferenceIdeal.RefValue.kinTable a1 a2 = Cert.KernelIdeal.Tables.kinTable a1 a2 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both runs end at `Cert.Obs.table` of the same gathered tables and azimuths. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2, cff_same, kin_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
